-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x8192 : Shape := ⟨3, ![8, 256, 8192]⟩
abbrev S8x256x25 : Shape := ⟨3, ![8, 256, 25]⟩
abbrev S8x256x8 : Shape := ⟨3, ![8, 256, 8]⟩
abbrev S8x256 : Shape := ⟨2, ![8, 256]⟩
abbrev S_ : Shape := ⟨0, ![]⟩

class Facts : Prop where
  bcast_S_S8x256x8192 : S_.BroadcastsInDim S8x256x8192 (![] : Fin 0 → Fin S8x256x8192.rank)
  reducesTo_S8x256x8192_S_d0_1_2 : S8x256x8192.ReducesTo [0, 1, 2] S_
  h_S_ : 0 < S_.numel
  bcast_S_S8x256x25 : S_.BroadcastsInDim S8x256x25 (![] : Fin 0 → Fin S8x256x25.rank)
  reducesTo_S8x256x25_S_d0_1_2 : S8x256x25.ReducesTo [0, 1, 2] S_
  bcast_S_S8x256x8 : S_.BroadcastsInDim S8x256x8 (![] : Fin 0 → Fin S8x256x8.rank)
  reducesTo_S8x256x8_S_d0_1_2 : S8x256x8.ReducesTo [0, 1, 2] S_

variable [Facts]

def fn_part1 {F : FTy → Type} [FloatOps F] (main_v13 : IVec S_ 1) (main_v16 : IVec S8x256x8 1) : IVec S_ 1 :=
  let main_c_5 : IVec S_ 1 := constantI S_ 1 1#1
  let main_v17 : IVec S_ 1 := (fun x v => Host.reduce IntOp.andi x v reducesTo_S8x256x8_S_d0_1_2 h_S_) main_v16 main_c_5
  let main_v18 : IVec S_ 1 := andi main_v13 main_v17
  main_v18

def fn {F : FTy → Type} [FloatOps F] (main_arg0 : FVec F S8x256x8192 .f32) (main_arg1 : FVec F S8x256x25 .f32) (main_arg2 : FVec F S8x256x8 .f32) (main_arg3 : FVec F S8x256x8 .f32) (main_arg4 : IVec S8x256 32) (main_arg5 : IVec S8x256x8192 32) : IVec S_ 1 :=
  let main_v0 : FVec F S8x256x8192 .f32 := Host.absf main_arg0
  let main_cst : FVec F S_ .f32 := constant S_ .f32 0x7F800000#32
  let main_v1 : FVec F S8x256x8192 .f32 := broadcastInDim S8x256x8192 ![] bcast_S_S8x256x8192 main_cst
  let main_v2 : IVec S8x256x8192 1 := cmpf .olt main_v0 main_v1
  let main_c : IVec S_ 1 := constantI S_ 1 1#1
  let main_v3 : IVec S_ 1 := (fun x v => Host.reduce IntOp.andi x v reducesTo_S8x256x8192_S_d0_1_2 h_S_) main_v2 main_c
  let main_v4 : FVec F S8x256x25 .f32 := Host.absf main_arg1
  let main_cst_0 : FVec F S_ .f32 := constant S_ .f32 0x7F800000#32
  let main_v5 : FVec F S8x256x25 .f32 := broadcastInDim S8x256x25 ![] bcast_S_S8x256x25 main_cst_0
  let main_v6 : IVec S8x256x25 1 := cmpf .olt main_v4 main_v5
  let main_c_1 : IVec S_ 1 := constantI S_ 1 1#1
  let main_v7 : IVec S_ 1 := (fun x v => Host.reduce IntOp.andi x v reducesTo_S8x256x25_S_d0_1_2 h_S_) main_v6 main_c_1
  let main_v8 : IVec S_ 1 := andi main_v3 main_v7
  let main_v9 : FVec F S8x256x8 .f32 := Host.absf main_arg2
  let main_cst_2 : FVec F S_ .f32 := constant S_ .f32 0x7F800000#32
  let main_v10 : FVec F S8x256x8 .f32 := broadcastInDim S8x256x8 ![] bcast_S_S8x256x8 main_cst_2
  let main_v11 : IVec S8x256x8 1 := cmpf .olt main_v9 main_v10
  let main_c_3 : IVec S_ 1 := constantI S_ 1 1#1
  let main_v12 : IVec S_ 1 := (fun x v => Host.reduce IntOp.andi x v reducesTo_S8x256x8_S_d0_1_2 h_S_) main_v11 main_c_3
  let main_v13 : IVec S_ 1 := andi main_v8 main_v12
  let main_v14 : FVec F S8x256x8 .f32 := Host.absf main_arg3
  let main_cst_4 : FVec F S_ .f32 := constant S_ .f32 0x7F800000#32
  let main_v15 : FVec F S8x256x8 .f32 := broadcastInDim S8x256x8 ![] bcast_S_S8x256x8 main_cst_4
  let main_v16 : IVec S8x256x8 1 := cmpf .olt main_v14 main_v15
  fn_part1 (F := F) main_v13 main_v16
-- ==== Kernel.lean ====
abbrev S8x256x8192 : Shape := ⟨3, ![8, 256, 8192]⟩
abbrev S8x256x25 : Shape := ⟨3, ![8, 256, 25]⟩
abbrev S8x256x8 : Shape := ⟨3, ![8, 256, 8]⟩
abbrev S8x256 : Shape := ⟨2, ![8, 256]⟩
abbrev S8x256x256 : Shape := ⟨3, ![8, 256, 256]⟩
abbrev S1x256x2048 : Shape := ⟨3, ![1, 256, 2048]⟩
abbrev S1x256x256 : Shape := ⟨3, ![1, 256, 256]⟩
abbrev S256x256 : Shape := ⟨2, ![256, 256]⟩
abbrev S256x1 : Shape := ⟨2, ![256, 1]⟩
abbrev S256x2048 : Shape := ⟨2, ![256, 2048]⟩
abbrev S256 : Shape := ⟨1, ![256]⟩
abbrev S1x256 : Shape := ⟨2, ![1, 256]⟩
abbrev S_ : Shape := ⟨0, ![]⟩
abbrev S8 : Shape := ⟨1, ![8]⟩
abbrev S8x25 : Shape := ⟨2, ![8, 25]⟩
abbrev S8x1x25 : Shape := ⟨3, ![8, 1, 25]⟩
abbrev S8x256x25x1 : Shape := ⟨4, ![8, 256, 25, 1]⟩
abbrev S1 : Shape := ⟨1, ![1]⟩
abbrev S1x1x1x1 : Shape := ⟨4, ![1, 1, 1, 1]⟩
abbrev S8x256x1 : Shape := ⟨3, ![8, 256, 1]⟩
abbrev S8x256x1x8 : Shape := ⟨4, ![8, 256, 1, 8]⟩
abbrev S8x1x256x8 : Shape := ⟨4, ![8, 1, 256, 8]⟩
abbrev S8x256x256x8 : Shape := ⟨4, ![8, 256, 256, 8]⟩
abbrev S8x1 : Shape := ⟨2, ![8, 1]⟩
abbrev S8x1x256 : Shape := ⟨3, ![8, 1, 256]⟩

abbrev nBuf : Space → Nat
  | .hbm => 87
  | .vmem => 12
  | .smem => 0
  | _ => 0

abbrev bufTy : (tb : Table) → Fin (tcTables nBuf tb) → BufTy
  | .hbm, ⟨0, _⟩ => ⟨S8x256x8192, .f32⟩
  | .hbm, ⟨1, _⟩ => ⟨S8x256x25, .f32⟩
  | .hbm, ⟨2, _⟩ => ⟨S8x256x8, .f32⟩
  | .hbm, ⟨3, _⟩ => ⟨S8x256x8, .f32⟩
  | .hbm, ⟨4, _⟩ => ⟨S8x256, .i32⟩
  | .hbm, ⟨5, _⟩ => ⟨S8x256x8192, .i32⟩
  | .hbm, ⟨6, _⟩ => ⟨S8x256x256, .f32⟩
  | .hbm, ⟨7, _⟩ => ⟨S_, .i32⟩
  | .hbm, ⟨8, _⟩ => ⟨S8x256, .i32⟩
  | .hbm, ⟨9, _⟩ => ⟨S8x256, .i1⟩
  | .hbm, ⟨10, _⟩ => ⟨S8x256, .i32⟩
  | .hbm, ⟨11, _⟩ => ⟨S_, .i32⟩
  | .hbm, ⟨12, _⟩ => ⟨S8, .i32⟩
  | .hbm, ⟨13, _⟩ => ⟨S8x25, .i32⟩
  | .hbm, ⟨14, _⟩ => ⟨S8x1x25, .i32⟩
  | .hbm, ⟨15, _⟩ => ⟨S8x256x25, .i32⟩
  | .hbm, ⟨16, _⟩ => ⟨S_, .i32⟩
  | .hbm, ⟨17, _⟩ => ⟨S8x256x25, .i32⟩
  | .hbm, ⟨18, _⟩ => ⟨S8x256x25, .i1⟩
  | .hbm, ⟨19, _⟩ => ⟨S8x256x25, .i32⟩
  | .hbm, ⟨20, _⟩ => ⟨S8x256x25, .i32⟩
  | .hbm, ⟨21, _⟩ => ⟨S_, .i32⟩
  | .hbm, ⟨22, _⟩ => ⟨S8x256x25, .i32⟩
  | .hbm, ⟨23, _⟩ => ⟨S8x256x25, .i1⟩
  | .hbm, ⟨24, _⟩ => ⟨S_, .i32⟩
  | .hbm, ⟨25, _⟩ => ⟨S8x256x25, .i32⟩
  | .hbm, ⟨26, _⟩ => ⟨S8x256x25, .i32⟩
  | .hbm, ⟨27, _⟩ => ⟨S8x256x25, .i32⟩
  | .hbm, ⟨28, _⟩ => ⟨S8x256x25x1, .i32⟩
  | .hbm, ⟨29, _⟩ => ⟨S1, .i32⟩
  | .hbm, ⟨30, _⟩ => ⟨S_, .i32⟩
  | .hbm, ⟨31, _⟩ => ⟨S8x256x25x1, .i32⟩
  | .hbm, ⟨32, _⟩ => ⟨S8x256x25x1, .i1⟩
  | .hbm, ⟨33, _⟩ => ⟨S1x1x1x1, .i32⟩
  | .hbm, ⟨34, _⟩ => ⟨S8x256x25x1, .i32⟩
  | .hbm, ⟨35, _⟩ => ⟨S8x256x25x1, .i1⟩
  | .hbm, ⟨36, _⟩ => ⟨S8x256x25x1, .i1⟩
  | .hbm, ⟨37, _⟩ => ⟨S_, .i1⟩
  | .hbm, ⟨38, _⟩ => ⟨S8x256x25, .i1⟩
  | .hbm, ⟨39, _⟩ => ⟨S8x256x25, .f32⟩
  | .hbm, ⟨40, _⟩ => ⟨S_, .f32⟩
  | .hbm, ⟨41, _⟩ => ⟨S8x256x25, .f32⟩
  | .hbm, ⟨42, _⟩ => ⟨S8x256x25, .f32⟩
  | .hbm, ⟨43, _⟩ => ⟨S8x256x25, .f32⟩
  | .hbm, ⟨44, _⟩ => ⟨S8x256x25, .f32⟩
  | .hbm, ⟨45, _⟩ => ⟨S_, .f32⟩
  | .hbm, ⟨46, _⟩ => ⟨S8x256x256, .f32⟩
  | .hbm, ⟨47, _⟩ => ⟨S8x256x25, .f32⟩
  | .hbm, ⟨48, _⟩ => ⟨S_, .i32⟩
  | .hbm, ⟨49, _⟩ => ⟨S1, .i32⟩
  | .hbm, ⟨50, _⟩ => ⟨S8x256x256, .f32⟩
  | .hbm, ⟨51, _⟩ => ⟨S_, .f32⟩
  | .hbm, ⟨52, _⟩ => ⟨S8x256x256, .f32⟩
  | .hbm, ⟨53, _⟩ => ⟨S8x256x256, .f32⟩
  | .hbm, ⟨54, _⟩ => ⟨S8x256x256, .f32⟩
  | .hbm, ⟨55, _⟩ => ⟨S8x256x1, .i1⟩
  | .hbm, ⟨56, _⟩ => ⟨S8x256x1, .f32⟩
  | .hbm, ⟨57, _⟩ => ⟨S8x256x8, .f32⟩
  | .hbm, ⟨58, _⟩ => ⟨S8x256x8, .f32⟩
  | .hbm, ⟨59, _⟩ => ⟨S8x256x1x8, .f32⟩
  | .hbm, ⟨60, _⟩ => ⟨S8x1x256x8, .f32⟩
  | .hbm, ⟨61, _⟩ => ⟨S8x256x256x8, .f32⟩
  | .hbm, ⟨62, _⟩ => ⟨S8x256x256x8, .f32⟩
  | .hbm, ⟨63, _⟩ => ⟨S8x256x256x8, .f32⟩
  | .hbm, ⟨64, _⟩ => ⟨S8x256x256x8, .f32⟩
  | .hbm, ⟨65, _⟩ => ⟨S_, .f32⟩
  | .hbm, ⟨66, _⟩ => ⟨S8x256x256, .f32⟩
  | .hbm, ⟨67, _⟩ => ⟨S_, .f32⟩
  | .hbm, ⟨68, _⟩ => ⟨S8x256x256, .f32⟩
  | .hbm, ⟨69, _⟩ => ⟨S8x256x256, .f32⟩
  | .hbm, ⟨70, _⟩ => ⟨S_, .f32⟩
  | .hbm, ⟨71, _⟩ => ⟨S8x256x256, .f32⟩
  | .hbm, ⟨72, _⟩ => ⟨S8x256x256, .f32⟩
  | .hbm, ⟨73, _⟩ => ⟨S8x256x256, .f32⟩
  | .hbm, ⟨74, _⟩ => ⟨S256, .i32⟩
  | .hbm, ⟨75, _⟩ => ⟨S1x256, .i32⟩
  | .hbm, ⟨76, _⟩ => ⟨S8x1, .i32⟩
  | .hbm, ⟨77, _⟩ => ⟨S8x256, .i32⟩
  | .hbm, ⟨78, _⟩ => ⟨S8x256, .i32⟩
  | .hbm, ⟨79, _⟩ => ⟨S8x256, .i1⟩
  | .hbm, ⟨80, _⟩ => ⟨S8x1x256, .i1⟩
  | .hbm, ⟨81, _⟩ => ⟨S_, .f32⟩
  | .hbm, ⟨82, _⟩ => ⟨S_, .f32⟩
  | .hbm, ⟨83, _⟩ => ⟨S8x256x256, .i1⟩
  | .hbm, ⟨84, _⟩ => ⟨S8x256x256, .f32⟩
  | .hbm, ⟨85, _⟩ => ⟨S8x256x256, .f32⟩
  | .hbm, ⟨86, _⟩ => ⟨S8x1, .i32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .i32⟩
  | .local _ .vmem, ⟨3, _⟩ => ⟨S1x256x2048, .i32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S8x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_c_2 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_cst_6 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v45 : Ref sig .tc := ⟨.hbm, 85, rfl⟩
abbrev main_v46 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v81 : BitVec 1 := Scalar.cmpi .eq arg1 c3_i32
  let v82 : BitVec 32 := Scalar.extui v81
  let c0_i32_41 : BitVec 32 := 0#32
  let v83 : BitVec 1 := Scalar.cmpi .ne v82 c0_i32_41
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  reduces_S256x2048_S256 : S256x2048.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  bcast_S_S8x256 : S_.BroadcastsInDim S8x256 (![] : Fin 0 → Fin S8x256.rank)
  natLt_1_32 : 1 < 32
  reducesTo_S8x256_S8_d1 : S8x256.ReducesTo [1] S8
  h_S_ : 0 < S_.numel
  slices_S8x256_S8x25_0_0 : S8x256.Slices ![0, 0] S8x25
  bcast_S8x25_S8x1x25_0_2 : S8x25.BroadcastsInDim S8x1x25 (![0, 2] : Fin 2 → Fin S8x1x25.rank)
  bcast_S8x1x25_S8x256x25_0_1_2 : S8x1x25.BroadcastsInDim S8x256x25 (![0, 1, 2] : Fin 3 → Fin S8x256x25.rank)
  bcast_S_S8x256x25 : S_.BroadcastsInDim S8x256x25 (![] : Fin 0 → Fin S8x256x25.rank)
  shapeCasts_S8x256x25_S8x256x25x1 : S8x256x25.ShapeCasts S8x256x25x1
  bcast_S_S8x256x25x1 : S_.BroadcastsInDim S8x256x25x1 (![] : Fin 0 → Fin S8x256x25x1.rank)
  bcast_S1_S1x1x1x1_3 : S1.BroadcastsInDim S1x1x1x1 (![3] : Fin 1 → Fin S1x1x1x1.rank)
  bcast_S1x1x1x1_S8x256x25x1_0_1_2_3 : S1x1x1x1.BroadcastsInDim S8x256x25x1 (![0, 1, 2, 3] : Fin 4 → Fin S8x256x25x1.rank)
  reducesTo_S8x256x25x1_S8x256x25_d3 : S8x256x25x1.ReducesTo [3] S8x256x25
  bcast_S_S8x256x256 : S_.BroadcastsInDim S8x256x256 (![] : Fin 0 → Fin S8x256x256.rank)
  bcast_S_S1 : S_.BroadcastsInDim S1 (![] : Fin 0 → Fin S1.rank)
  bcast_S8x256_S8x256x1_0_1 : S8x256.BroadcastsInDim S8x256x1 (![0, 1] : Fin 2 → Fin S8x256x1.rank)
  bcast_S8x256x1_S8x256x8_0_1_2 : S8x256x1.BroadcastsInDim S8x256x8 (![0, 1, 2] : Fin 3 → Fin S8x256x8.rank)
  bcast_S8x256x8_S8x256x1x8_0_1_3 : S8x256x8.BroadcastsInDim S8x256x1x8 (![0, 1, 3] : Fin 3 → Fin S8x256x1x8.rank)
  bcast_S8x256x8_S8x1x256x8_0_2_3 : S8x256x8.BroadcastsInDim S8x1x256x8 (![0, 2, 3] : Fin 3 → Fin S8x1x256x8.rank)
  bcast_S8x256x1x8_S8x256x256x8_0_1_2_3 : S8x256x1x8.BroadcastsInDim S8x256x256x8 (![0, 1, 2, 3] : Fin 4 → Fin S8x256x256x8.rank)
  bcast_S8x1x256x8_S8x256x256x8_0_1_2_3 : S8x1x256x8.BroadcastsInDim S8x256x256x8 (![0, 1, 2, 3] : Fin 4 → Fin S8x256x256x8.rank)
  reducesTo_S8x256x256x8_S8x256x256_d3 : S8x256x256x8.ReducesTo [3] S8x256x256
  bcast_S256_S1x256_1 : S256.BroadcastsInDim S1x256 (![1] : Fin 1 → Fin S1x256.rank)
  bcast_S8_S8x1_0 : S8.BroadcastsInDim S8x1 (![0] : Fin 1 → Fin S8x1.rank)
  bcast_S1x256_S8x256_0_1 : S1x256.BroadcastsInDim S8x256 (![0, 1] : Fin 2 → Fin S8x256.rank)
  bcast_S8x1_S8x256_0_1 : S8x1.BroadcastsInDim S8x256 (![0, 1] : Fin 2 → Fin S8x256.rank)
  bcast_S8x256_S8x1x256_0_2 : S8x256.BroadcastsInDim S8x1x256 (![0, 2] : Fin 2 → Fin S8x1x256.rank)
  bcast_S8x1x256_S8x256x256_0_1_2 : S8x1x256.BroadcastsInDim S8x256x256 (![0, 1, 2] : Fin 3 → Fin S8x256x256.rank)
  dot_S256x2048_S256x2048_S256x256_1_1_0_0_n_n_wf : DotDims.WF S256x2048 S256x2048 S256x256 [1] [1] [0] [0] [] []
  gather_S8x256x25_S8x256x25x1_S8x256x25_n_2_01_01_2_3_111_wf : GatherDims.WF S8x256x25 S8x256x25x1 S8x256x25 [] [2] [0, 1] [2] [0, 1] 3 ![1, 1, 1]
  scatter_S8x256x256_S1_S8x256x25_012_n_2_0_wf : ScatterDims.WF S8x256x256 S1 S8x256x25 [0, 1, 2] [] [2] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x8192.size a
  hwx0_0 : ∀ i : grid0.Coords, EltTy.bits .f32 = 32 ∨ (Rect.block (s := S8x256x8192) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x256x8192.size a
  hwx0_1 : ∀ i : grid0.Coords, EltTy.bits .i32 = 32 ∨ (Rect.block (s := S8x256x8192) S1x256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .f32 = 32 ∨ (Rect.block (s := S8x256x256) S1x256x256.size (cc0_transform_2 i) (hinb0_2 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def gather_S8x256x25_S8x256x25x1_S8x256x25_n_2_01_01_2_3_111 : GatherDims S8x256x25 S8x256x25x1 S8x256x25 where
  offsetDims := []
  collapsedSliceDims := [2]
  operandBatchingDims := [0, 1]
  startIndicesBatchingDims := [0, 1]
  startIndexMap := [2]
  indexVectorDim := 3
  sliceSizes := ![1, 1, 1]
  wf := gather_S8x256x25_S8x256x25x1_S8x256x25_n_2_01_01_2_3_111_wf
def scatter_S8x256x256_S1_S8x256x25_012_n_2_0 : ScatterDims S8x256x256 S1 S8x256x25 where
  updateWindowDims := [0, 1, 2]
  insertedWindowDims := []
  scatterDimsToOperandDims := [2]
  indexVectorDim := 0
  wf := scatter_S8x256x256_S1_S8x256x25_012_n_2_0_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x256x8192 : Shape := ⟨3, ![8, 256, 8192]⟩
abbrev S8x256x25 : Shape := ⟨3, ![8, 256, 25]⟩
abbrev S8x256x8 : Shape := ⟨3, ![8, 256, 8]⟩
abbrev S8x256 : Shape := ⟨2, ![8, 256]⟩
abbrev S_ : Shape := ⟨0, ![]⟩
abbrev S8 : Shape := ⟨1, ![8]⟩
abbrev S8x25 : Shape := ⟨2, ![8, 25]⟩
abbrev S8x1x25 : Shape := ⟨3, ![8, 1, 25]⟩
abbrev S8x256x25x1 : Shape := ⟨4, ![8, 256, 25, 1]⟩
abbrev S1 : Shape := ⟨1, ![1]⟩
abbrev S1x1x1x1 : Shape := ⟨4, ![1, 1, 1, 1]⟩
abbrev S8x256x256 : Shape := ⟨3, ![8, 256, 256]⟩
abbrev S8x256x1 : Shape := ⟨3, ![8, 256, 1]⟩
abbrev S8x1x256 : Shape := ⟨3, ![8, 1, 256]⟩
abbrev S8x256x1x8 : Shape := ⟨4, ![8, 256, 1, 8]⟩
abbrev S8x1x256x8 : Shape := ⟨4, ![8, 1, 256, 8]⟩
abbrev S8x256x256x8 : Shape := ⟨4, ![8, 256, 256, 8]⟩
abbrev S256 : Shape := ⟨1, ![256]⟩
abbrev S1x256 : Shape := ⟨2, ![1, 256]⟩
abbrev S8x1 : Shape := ⟨2, ![8, 1]⟩

abbrev nBuf : Space → Nat
  | .hbm => 187
  | .vmem => 0
  | .smem => 0
  | _ => 0

abbrev hbmTy0_0 (i : Nat) : BufTy := match i % 128 with
  | 0 => ⟨S8x256x8192, .f32⟩
  | 1 => ⟨S8x256x25, .f32⟩
  | 2 => ⟨S8x256x8, .f32⟩
  | 3 => ⟨S8x256x8, .f32⟩
  | 4 => ⟨S8x256, .i32⟩
  | 5 => ⟨S8x256x8192, .i32⟩
  | 6 => ⟨S8x256x8192, .f32⟩
  | 7 => ⟨S_, .i32⟩
  | 8 => ⟨S8x256, .i32⟩
  | 9 => ⟨S8x256, .i1⟩
  | 10 => ⟨S8x256, .i32⟩
  | 11 => ⟨S_, .i32⟩
  | 12 => ⟨S8, .i32⟩
  | 13 => ⟨S8x25, .i32⟩
  | 14 => ⟨S8x1x25, .i32⟩
  | 15 => ⟨S8x256x25, .i32⟩
  | 16 => ⟨S_, .i32⟩
  | 17 => ⟨S8x256x25, .i32⟩
  | 18 => ⟨S8x256x25, .i1⟩
  | 19 => ⟨S8x256x25, .i32⟩
  | 20 => ⟨S8x256x25, .i32⟩
  | 21 => ⟨S_, .i32⟩
  | 22 => ⟨S8x256x25, .i32⟩
  | 23 => ⟨S8x256x25, .i1⟩
  | 24 => ⟨S_, .i32⟩
  | 25 => ⟨S8x256x25, .i32⟩
  | 26 => ⟨S8x256x25, .i32⟩
  | 27 => ⟨S8x256x25, .i32⟩
  | 28 => ⟨S8x256x25x1, .i32⟩
  | 29 => ⟨S1, .i32⟩
  | 30 => ⟨S_, .i32⟩
  | 31 => ⟨S8x256x25x1, .i32⟩
  | 32 => ⟨S8x256x25x1, .i1⟩
  | 33 => ⟨S1x1x1x1, .i32⟩
  | 34 => ⟨S8x256x25x1, .i32⟩
  | 35 => ⟨S8x256x25x1, .i1⟩
  | 36 => ⟨S8x256x25x1, .i1⟩
  | 37 => ⟨S_, .i1⟩
  | 38 => ⟨S8x256x25, .i1⟩
  | 39 => ⟨S8x256x25, .f32⟩
  | 40 => ⟨S_, .f32⟩
  | 41 => ⟨S8x256x25, .f32⟩
  | 42 => ⟨S8x256x25, .f32⟩
  | 43 => ⟨S8x256x25, .f32⟩
  | 44 => ⟨S8x256x25, .f32⟩
  | 45 => ⟨S_, .f32⟩
  | 46 => ⟨S8x256x256, .f32⟩
  | 47 => ⟨S8x256x25, .f32⟩
  | 48 => ⟨S_, .i32⟩
  | 49 => ⟨S1, .i32⟩
  | 50 => ⟨S8x256x256, .f32⟩
  | 51 => ⟨S_, .f32⟩
  | 52 => ⟨S8x256x256, .f32⟩
  | 53 => ⟨S8x256x256, .f32⟩
  | 54 => ⟨S8x256x8192, .f32⟩
  | 55 => ⟨S8x256x8192, .f32⟩
  | 56 => ⟨S_, .f32⟩
  | 57 => ⟨S8x256x8192, .f32⟩
  | 58 => ⟨S8x256x8192, .f32⟩
  | 59 => ⟨S_, .f32⟩
  | 60 => ⟨S8x256x8192, .f32⟩
  | 61 => ⟨S8x256x8192, .f32⟩
  | 62 => ⟨S8x256x256, .f32⟩
  | 63 => ⟨S_, .f32⟩
  | 64 => ⟨S8x256x256, .f32⟩
  | 65 => ⟨S8x256x256, .f32⟩
  | 66 => ⟨S_, .f32⟩
  | 67 => ⟨S8x256, .f32⟩
  | 68 => ⟨S8x256x1, .f32⟩
  | 69 => ⟨S_, .f32⟩
  | 70 => ⟨S8x256, .f32⟩
  | 71 => ⟨S8x1x256, .f32⟩
  | 72 => ⟨S8x256x256, .f32⟩
  | 73 => ⟨S8x256x256, .f32⟩
  | 74 => ⟨S8x256x256, .f32⟩
  | 75 => ⟨S_, .f32⟩
  | 76 => ⟨S8x256x256, .f32⟩
  | 77 => ⟨S8x256x256, .f32⟩
  | 78 => ⟨S_, .f32⟩
  | 79 => ⟨S8x256x256, .f32⟩
  | 80 => ⟨S8x256x256, .f32⟩
  | 81 => ⟨S8x256x256, .f32⟩
  | 82 => ⟨S_, .f32⟩
  | 83 => ⟨S8x256x256, .f32⟩
  | 84 => ⟨S8x256x256, .f32⟩
  | 85 => ⟨S_, .f32⟩
  | 86 => ⟨S8x256x256, .f32⟩
  | 87 => ⟨S8x256x256, .f32⟩
  | 88 => ⟨S8x256x256, .f32⟩
  | 89 => ⟨S8x256x8192, .f32⟩
  | 90 => ⟨S_, .f32⟩
  | 91 => ⟨S8x256x8192, .f32⟩
  | 92 => ⟨S8x256x8192, .f32⟩
  | 93 => ⟨S8x256x8192, .f32⟩
  | 94 => ⟨S8x256x8192, .f32⟩
  | 95 => ⟨S8x256x8192, .i1⟩
  | 96 => ⟨S8x256x8192, .f32⟩
  | 97 => ⟨S8x256x8192, .f32⟩
  | 98 => ⟨S8x256x8192, .f32⟩
  | 99 => ⟨S8x256x8192, .f32⟩
  | 100 => ⟨S8x256x8192, .f32⟩
  | 101 => ⟨S8x256x8192, .f32⟩
  | 102 => ⟨S8x256x8192, .f32⟩
  | 103 => ⟨S8x256x8192, .f32⟩
  | 104 => ⟨S_, .f32⟩
  | 105 => ⟨S8x256x8192, .f32⟩
  | 106 => ⟨S8x256x8192, .f32⟩
  | 107 => ⟨S8x256x8192, .f32⟩
  | 108 => ⟨S8x256x8192, .f32⟩
  | 109 => ⟨S8x256x8192, .i1⟩
  | 110 => ⟨S8x256x8192, .f32⟩
  | 111 => ⟨S8x256x8192, .f32⟩
  | 112 => ⟨S8x256x8192, .f32⟩
  | 113 => ⟨S8x256x8192, .f32⟩
  | 114 => ⟨S8x256x8192, .f32⟩
  | 115 => ⟨S8x256x8192, .f32⟩
  | 116 => ⟨S8x256x8192, .f32⟩
  | 117 => ⟨S8x256x8192, .f32⟩
  | 118 => ⟨S8x256x256, .f32⟩
  | 119 => ⟨S_, .f32⟩
  | 120 => ⟨S8x256x8192, .f32⟩
  | 121 => ⟨S8x256x8192, .f32⟩
  | 122 => ⟨S8x256x256, .f32⟩
  | 123 => ⟨S8x256x256, .f32⟩
  | 124 => ⟨S_, .f32⟩
  | 125 => ⟨S8x256x256, .f32⟩
  | 126 => ⟨S8x256x256, .f32⟩
  | 127 => ⟨S_, .f32⟩
  | _ => ⟨S8x256x8192, .f32⟩

abbrev hbmTy0_1 (i : Nat) : BufTy := match i % 128 with
  | 0 => ⟨S8x256x256, .f32⟩
  | 1 => ⟨S8x256x256, .f32⟩
  | 2 => ⟨S8x256x256, .f32⟩
  | 3 => ⟨S_, .f32⟩
  | 4 => ⟨S8x256x8192, .f32⟩
  | 5 => ⟨S8x256x8192, .f32⟩
  | 6 => ⟨S_, .f32⟩
  | 7 => ⟨S8x256x8192, .f32⟩
  | 8 => ⟨S8x256x8192, .f32⟩
  | 9 => ⟨S8x256x8192, .f32⟩
  | 10 => ⟨S_, .f32⟩
  | 11 => ⟨S8x256x8192, .f32⟩
  | 12 => ⟨S8x256x8192, .f32⟩
  | 13 => ⟨S8x256x8192, .f32⟩
  | 14 => ⟨S8x256x256, .f32⟩
  | 15 => ⟨S_, .f32⟩
  | 16 => ⟨S8x256x8192, .f32⟩
  | 17 => ⟨S8x256x8192, .f32⟩
  | 18 => ⟨S8x256x256, .f32⟩
  | 19 => ⟨S8x256x256, .f32⟩
  | 20 => ⟨S_, .f32⟩
  | 21 => ⟨S8x256x256, .f32⟩
  | 22 => ⟨S8x256x256, .f32⟩
  | 23 => ⟨S_, .f32⟩
  | 24 => ⟨S8x256x256, .f32⟩
  | 25 => ⟨S8x256x256, .f32⟩
  | 26 => ⟨S8x256x256, .f32⟩
  | 27 => ⟨S8x256x1, .i1⟩
  | 28 => ⟨S8x256x1, .f32⟩
  | 29 => ⟨S8x256x8, .f32⟩
  | 30 => ⟨S8x256x8, .f32⟩
  | 31 => ⟨S8x256x1x8, .f32⟩
  | 32 => ⟨S8x1x256x8, .f32⟩
  | 33 => ⟨S8x256x256x8, .f32⟩
  | 34 => ⟨S8x256x256x8, .f32⟩
  | 35 => ⟨S8x256x256x8, .f32⟩
  | 36 => ⟨S8x256x256x8, .f32⟩
  | 37 => ⟨S_, .f32⟩
  | 38 => ⟨S8x256x256, .f32⟩
  | 39 => ⟨S_, .f32⟩
  | 40 => ⟨S8x256x256, .f32⟩
  | 41 => ⟨S8x256x256, .f32⟩
  | 42 => ⟨S_, .f32⟩
  | 43 => ⟨S8x256x256, .f32⟩
  | 44 => ⟨S8x256x256, .f32⟩
  | 45 => ⟨S8x256x256, .f32⟩
  | 46 => ⟨S256, .i32⟩
  | 47 => ⟨S1x256, .i32⟩
  | 48 => ⟨S8x1, .i32⟩
  | 49 => ⟨S8x256, .i32⟩
  | 50 => ⟨S8x256, .i32⟩
  | 51 => ⟨S8x256, .i1⟩
  | 52 => ⟨S8x1x256, .i1⟩
  | 53 => ⟨S_, .f32⟩
  | 54 => ⟨S_, .f32⟩
  | 55 => ⟨S8x256x256, .i1⟩
  | 56 => ⟨S8x256x256, .f32⟩
  | 57 => ⟨S8x256x256, .f32⟩
  | 58 => ⟨S8x1, .i32⟩
  | _ => ⟨S8x256x8192, .f32⟩

abbrev hbmTy (i : Nat) : BufTy := match i / 128 with
  | 0 => hbmTy0_0 i
  | 1 => hbmTy0_1 i
  | _ => ⟨S8x256x8192, .f32⟩

abbrev bufTy : (tb : Table) → Fin (tcTables nBuf tb) → BufTy
  | .hbm, ⟨i, _⟩ => hbmTy i
  | _, _ => ⟨S8x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_c_2 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_cst_8 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_11 : Ref sig .tc := ⟨.hbm, 82, rfl⟩
abbrev main_v42 : Ref sig .tc := ⟨.hbm, 83, rfl⟩
abbrev main_v43 : Ref sig .tc := ⟨.hbm, 84, rfl⟩
abbrev main_cst_12 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_v48 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_v49 : Ref sig .tc := ⟨.hbm, 117, rfl⟩
abbrev main_v50 : Ref sig .tc := ⟨.hbm, 118, rfl⟩
abbrev main_cst_13 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_14 : Ref sig .tc := ⟨.hbm, 124, rfl⟩
abbrev main_v55 : Ref sig .tc := ⟨.hbm, 125, rfl⟩
abbrev main_v56 : Ref sig .tc := ⟨.hbm, 126, rfl⟩
abbrev main_cst_15 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_16 : Ref sig .tc := ⟨.hbm, 131, rfl⟩
abbrev main_v60 : Ref sig .tc := ⟨.hbm, 132, rfl⟩
abbrev main_v61 : Ref sig .tc := ⟨.hbm, 133, rfl⟩
abbrev main_cst_17 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_18 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_19 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_20 : Ref sig .tc := ⟨.hbm, 148, rfl⟩
abbrev main_v73 : Ref sig .tc := ⟨.hbm, 149, rfl⟩
abbrev main_v74 : Ref sig .tc := ⟨.hbm, 150, rfl⟩
abbrev main_cst_21 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_22 : Ref sig .tc := ⟨.hbm, 165, rfl⟩
abbrev main_v88 : Ref sig .tc := ⟨.hbm, 166, rfl⟩
abbrev main_cst_23 : Ref sig .tc := ⟨.hbm, 167, rfl⟩
abbrev main_v89 : Ref sig .tc := ⟨.hbm, 168, rfl⟩
abbrev main_v90 : Ref sig .tc := ⟨.hbm, 169, rfl⟩
abbrev main_cst_24 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_25 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v101 : Ref sig .tc := ⟨.hbm, 185, rfl⟩
abbrev main_v102 : Ref sig .tc := ⟨.hbm, 186, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  natLt_1_32 : 1 < 32
  reducesTo_S8x256_S8_d1 : S8x256.ReducesTo [1] S8
  h_S_ : 0 < S_.numel
  slices_S8x256_S8x25_0_0 : S8x256.Slices ![0, 0] S8x25
  bcast_S8x25_S8x1x25_0_2 : S8x25.BroadcastsInDim S8x1x25 (![0, 2] : Fin 2 → Fin S8x1x25.rank)
  bcast_S8x1x25_S8x256x25_0_1_2 : S8x1x25.BroadcastsInDim S8x256x25 (![0, 1, 2] : Fin 3 → Fin S8x256x25.rank)
  bcast_S_S8x256x25 : S_.BroadcastsInDim S8x256x25 (![] : Fin 0 → Fin S8x256x25.rank)
  shapeCasts_S8x256x25_S8x256x25x1 : S8x256x25.ShapeCasts S8x256x25x1
  bcast_S_S8x256x25x1 : S_.BroadcastsInDim S8x256x25x1 (![] : Fin 0 → Fin S8x256x25x1.rank)
  bcast_S1_S1x1x1x1_3 : S1.BroadcastsInDim S1x1x1x1 (![3] : Fin 1 → Fin S1x1x1x1.rank)
  bcast_S1x1x1x1_S8x256x25x1_0_1_2_3 : S1x1x1x1.BroadcastsInDim S8x256x25x1 (![0, 1, 2, 3] : Fin 4 → Fin S8x256x25x1.rank)
  reducesTo_S8x256x25x1_S8x256x25_d3 : S8x256x25x1.ReducesTo [3] S8x256x25
  bcast_S_S8x256x256 : S_.BroadcastsInDim S8x256x256 (![] : Fin 0 → Fin S8x256x256.rank)
  bcast_S_S1 : S_.BroadcastsInDim S1 (![] : Fin 0 → Fin S1.rank)
  bcast_S_S8x256x8192 : S_.BroadcastsInDim S8x256x8192 (![] : Fin 0 → Fin S8x256x8192.rank)
  reducesTo_S8x256x8192_S8x256_d2 : S8x256x8192.ReducesTo [2] S8x256
  bcast_S8x256_S8x256x1_0_1 : S8x256.BroadcastsInDim S8x256x1 (![0, 1] : Fin 2 → Fin S8x256x1.rank)
  bcast_S8x256_S8x1x256_0_2 : S8x256.BroadcastsInDim S8x1x256 (![0, 2] : Fin 2 → Fin S8x1x256.rank)
  bcast_S8x256x1_S8x256x256_0_1_2 : S8x256x1.BroadcastsInDim S8x256x256 (![0, 1, 2] : Fin 3 → Fin S8x256x256.rank)
  bcast_S8x1x256_S8x256x256_0_1_2 : S8x1x256.BroadcastsInDim S8x256x256 (![0, 1, 2] : Fin 3 → Fin S8x256x256.rank)
  bcast_S8x256x1_S8x256x8_0_1_2 : S8x256x1.BroadcastsInDim S8x256x8 (![0, 1, 2] : Fin 3 → Fin S8x256x8.rank)
  bcast_S8x256x8_S8x256x1x8_0_1_3 : S8x256x8.BroadcastsInDim S8x256x1x8 (![0, 1, 3] : Fin 3 → Fin S8x256x1x8.rank)
  bcast_S8x256x8_S8x1x256x8_0_2_3 : S8x256x8.BroadcastsInDim S8x1x256x8 (![0, 2, 3] : Fin 3 → Fin S8x1x256x8.rank)
  bcast_S8x256x1x8_S8x256x256x8_0_1_2_3 : S8x256x1x8.BroadcastsInDim S8x256x256x8 (![0, 1, 2, 3] : Fin 4 → Fin S8x256x256x8.rank)
  bcast_S8x1x256x8_S8x256x256x8_0_1_2_3 : S8x1x256x8.BroadcastsInDim S8x256x256x8 (![0, 1, 2, 3] : Fin 4 → Fin S8x256x256x8.rank)
  reducesTo_S8x256x256x8_S8x256x256_d3 : S8x256x256x8.ReducesTo [3] S8x256x256
  bcast_S256_S1x256_1 : S256.BroadcastsInDim S1x256 (![1] : Fin 1 → Fin S1x256.rank)
  bcast_S8_S8x1_0 : S8.BroadcastsInDim S8x1 (![0] : Fin 1 → Fin S8x1.rank)
  bcast_S1x256_S8x256_0_1 : S1x256.BroadcastsInDim S8x256 (![0, 1] : Fin 2 → Fin S8x256.rank)
  bcast_S8x1_S8x256_0_1 : S8x1.BroadcastsInDim S8x256 (![0, 1] : Fin 2 → Fin S8x256.rank)
  gather_S8x256x25_S8x256x25x1_S8x256x25_n_2_01_01_2_3_111_wf : GatherDims.WF S8x256x25 S8x256x25x1 S8x256x25 [] [2] [0, 1] [2] [0, 1] 3 ![1, 1, 1]
  scatter_S8x256x256_S1_S8x256x25_012_n_2_0_wf : ScatterDims.WF S8x256x256 S1 S8x256x25 [0, 1, 2] [] [2] 0
  dot_S8x256x8192_S8x256x8192_S8x256x256_2_2_1_1_0_0_wf : DotDims.WF S8x256x8192 S8x256x8192 S8x256x256 [2] [2] [1] [1] [0] [0]

variable [Facts₀]

def gather_S8x256x25_S8x256x25x1_S8x256x25_n_2_01_01_2_3_111 : GatherDims S8x256x25 S8x256x25x1 S8x256x25 where
  offsetDims := []
  collapsedSliceDims := [2]
  operandBatchingDims := [0, 1]
  startIndicesBatchingDims := [0, 1]
  startIndexMap := [2]
  indexVectorDim := 3
  sliceSizes := ![1, 1, 1]
  wf := gather_S8x256x25_S8x256x25x1_S8x256x25_n_2_01_01_2_3_111_wf
def scatter_S8x256x256_S1_S8x256x25_012_n_2_0 : ScatterDims S8x256x256 S1 S8x256x25 where
  updateWindowDims := [0, 1, 2]
  insertedWindowDims := []
  scatterDimsToOperandDims := [2]
  indexVectorDim := 0
  wf := scatter_S8x256x256_S1_S8x256x25_012_n_2_0_wf
def dot_S8x256x8192_S8x256x8192_S8x256x256_2_2_1_1_0_0 : DotDims S8x256x8192 S8x256x8192 S8x256x256 where
  lhsContracting := [2]
  rhsContracting := [2]
  lhsNonContracting := [1]
  rhsNonContracting := [1]
  lhsBatch := [0]
  rhsBatch := [0]
  wf := dot_S8x256x8192_S8x256x8192_S8x256x256_2_2_1_1_0_0_wf

class Facts : Prop extends Facts₀ where

variable [Facts]
-- ==== Proof.KFrameKit.lean ====
/-
  What the three control cases of the mask-cost kernel's body share in the proof that the program runs to the
  end, faults nowhere and leaves its arguments unchanged: the program around its one pipelined region (no host
  line before it, five stretches of host lines after it, none of which writes an array the pipeline stages),
  the blocks the region finds in its two input windows, the two branch conditions of the body decided over the
  8 × 4 grid (the first tile of a batch resets the six running sums, the last tile writes the cost block out),
  where the output window is idle, and the six scratch buffers the kernel carries from tile to tile.
-/
import proofs.«133761_j85890755985627_2_alg».proof.Proof.Gen.Kernel.Launch
import proofs.«133761_j85890755985627_2_alg».proof.Proof.Gen.Kernel.Skeleton
import proofs.«133761_j85890755985627_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents on core `c` when the region is entered: no host line runs before it. -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- No later host line writes an array the pipeline stages: each writes its own result buffer only. -/
theorem keeps_of (ops : List (HloOp τ sig (Elt F)))
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

/-- One stretch's operations each write their own result buffer, which is none of the three staged arrays. -/
local macro "keeps_stretch" : tactic => `(tactic| (
  simp only [List.Forall]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_stretch
theorem hostOps1_1_keeps : (hostOps1_1 : List (HloOp τ sig (Elt F))).Forall fun op => ∀ w, Proc.devRef .tc (Pipeline.arrRef spec0 w) ∉ op.writes := by
  keeps_stretch
theorem hostOps1_2_keeps : (hostOps1_2 : List (HloOp τ sig (Elt F))).Forall fun op => ∀ w, Proc.devRef .tc (Pipeline.arrRef spec0 w) ∉ op.writes := by
  keeps_stretch
theorem hostOps1_3_keeps : (hostOps1_3 : List (HloOp τ sig (Elt F))).Forall fun op => ∀ w, Proc.devRef .tc (Pipeline.arrRef spec0 w) ∉ op.writes := by
  keeps_stretch
theorem hostOps1_4_keeps : (hostOps1_4 : List (HloOp τ sig (Elt F))).Forall fun op => ∀ w, Proc.devRef .tc (Pipeline.arrRef spec0 w) ∉ op.writes := by
  keeps_stretch

/-- The later lines touch the pipeline's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact keeps_of _ hostOps1_keeps op hop
  · exact keeps_of _ hostOps1_1_keeps op hop
  · exact keeps_of _ hostOps1_2_keeps op hop
  · exact keeps_of _ hostOps1_3_keeps op hop
  · exact keeps_of _ hostOps1_4_keeps op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-- No later host line writes `main_arg1`, which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No later host line writes `main_arg2`, which no window stages: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No later host line writes `main_arg3`, which no window stages: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No later host line writes `main_arg4`, which no window stages: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The prediction window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The target window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the
    frame claim: the two staged arguments by the library's reading of an input array, the four others by the
    post's second clause and the tail's silence about them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 1).trans (((dats 0 c).arrAt_in 1 rfl _).trans ((hA c 1).trans (V_main_arg5 m c)))⟩) h

/-! ## The body's two branch conditions -/

/-- "This tile opens a batch" (the column-tile coordinate is 0), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This tile closes a batch" (the column-tile coordinate is 3), as the body computes it. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before a batch's last tile nothing is stored into the output window, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a batch's last tile the output window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
/-- The six scratch operands: whole scoped buffers of the kernel's own. -/
abbrev scM0_0 : Memref sig .tc .vmem S256x256 .f32 := Memref.whole cc0_scratch0
abbrev scM0_1 : Memref sig .tc .vmem S256x256 .f32 := Memref.whole cc0_scratch1
abbrev scM0_2 : Memref sig .tc .vmem S256x1 .f32 := Memref.whole cc0_scratch2
abbrev scM0_3 : Memref sig .tc .vmem S256x1 .f32 := Memref.whole cc0_scratch3
abbrev scM0_4 : Memref sig .tc .vmem S256x1 .f32 := Memref.whole cc0_scratch4
abbrev scM0_5 : Memref sig .tc .vmem S256x1 .f32 := Memref.whole cc0_scratch5

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.KMaskAcc.lean ====
/-
  The kernel keeps six running sums across the four column tiles of one batch: two 256×256 matrix accumulators
  (the sigmoid–target products and the combined cross-entropy/focal left factor against the targets) and four
  256×1 row sums (sigmoid, target, softplus, focal-negative). This module names that recursion over the payloads
  of the kernel's skeleton: the zero state written at a batch's first tile, one tile's update, the state after
  each grid point, and the block the last tile writes out.
-/
import proofs.«133761_j85890755985627_2_alg».proof.Proof.Gen.Kernel.Skeleton

noncomputable section

namespace Cert.Kernel.MaskAcc

open Idealize.ShloMosaic Cert.Kernel Cert.Kernel.Gen

variable {F : FTy → Type} [FloatOps F]

/-- The six running sums, in the order of the kernel's scratch operands. -/
structure Acc (F : FTy → Type) [FloatOps F] where
  num : Vec F S256x256 .f32
  lhs : Vec F S256x256 .f32
  ps : Vec F S256x1 .f32
  ms : Vec F S256x1 .f32
  ng : Vec F S256x1 .f32
  fg : Vec F S256x1 .f32

/-- The state a batch's first tile starts from: every sum zero. -/
def zero : Acc F := ⟨k0_pay3, k0_pay4, k0_pay5, k0_pay6, k0_pay7, k0_pay8⟩

/-- One tile's update: `x` the tile of predictions, `t` the tile of integer targets. -/
def step (x : Vec F S1x256x2048 .f32) (t : Vec F S1x256x2048 .i32) (a : Acc F) : Acc F :=
  ⟨k0_pay17 (k0_pay14 x) (k0_pay15 t) a.num, k0_pay18 (k0_pay15 t) (k0_pay16 x) a.lhs,
   k0_pay19 (k0_pay11 x) a.ps, k0_pay20 (k0_pay10 t) a.ms, k0_pay21 (k0_pay12 x) a.ng,
   k0_pay1 (k0_pay13 x) a.fg⟩

/-- The cost block the last tile of a batch writes out, from the finished sums. -/
def out (a : Acc F) : Vec F S1x256x256 .f32 := k0_pay2 a.ms a.ps a.num a.ng a.fg a.lhs

/-- The sums after grid point `n` (points in row-major order, four tiles per batch): a tile that opens a batch
    restarts from zero, any other continues from the point before. -/
def accAt (xb : ℕ → Vec F S1x256x2048 .f32) (tb : ℕ → Vec F S1x256x2048 .i32) : ℕ → Acc F
  | 0 => step (xb 0) (tb 0) zero
  | n + 1 => if (n + 1) % 4 = 0 then step (xb (n + 1)) (tb (n + 1)) zero
      else step (xb (n + 1)) (tb (n + 1)) (accAt xb tb n)

/-- A batch's finished sums are the four updates of its own tiles from zero. -/
theorem accAt_last (xb : ℕ → Vec F S1x256x2048 .f32) (tb : ℕ → Vec F S1x256x2048 .i32) (b : ℕ) :
    accAt xb tb (4 * b + 3) = step (xb (4 * b + 3)) (tb (4 * b + 3)) (step (xb (4 * b + 2)) (tb (4 * b + 2))
      (step (xb (4 * b + 1)) (tb (4 * b + 1)) (step (xb (4 * b)) (tb (4 * b)) zero))) := by
  have h0 : accAt xb tb (4 * b) = step (xb (4 * b)) (tb (4 * b)) zero := by
    cases b with
    | zero => rfl
    | succ b =>
      have e : 4 * (b + 1) = 4 * b + 3 + 1 := by omega
      rw [e, accAt, if_pos (by omega)]
  have h1 : accAt xb tb (4 * b + 1) = step (xb (4 * b + 1)) (tb (4 * b + 1)) (accAt xb tb (4 * b)) := by
    rw [accAt, if_neg (by omega)]
  have h2 : accAt xb tb (4 * b + 2) = step (xb (4 * b + 2)) (tb (4 * b + 2)) (accAt xb tb (4 * b + 1)) := by
    rw [accAt, if_neg (by omega)]
  have h3 : accAt xb tb (4 * b + 3) = step (xb (4 * b + 3)) (tb (4 * b + 3)) (accAt xb tb (4 * b + 2)) := by
    rw [accAt, if_neg (by omega)]
  rw [h3, h2, h1, h0]

end Cert.Kernel.MaskAcc

end
-- ==== Proof.LibWholeStore.lean ====
/-
  A buffer read after a store that covers it whole.

  A store through the unit rectangle at zero offsets of the buffer's own extents overwrites every element; made last
  in a list of stores, it is what a read of the buffer returns, whatever the earlier stores and the contents before
  them. (For a scratch accumulator that a kernel body stores whole and loads back, trip after trip.)
-/
import Idealize.ShloMosaic.Lib.Pipeline.Value

noncomputable section

namespace WholeStore

open Idealize.ShloMosaic Idealize.SL.Sem

/-- After a store that covers the whole buffer, made last, the buffer reads as the stored value, whatever the earlier
    stores and the contents before them. -/
theorem read_after_whole_store {Val : EltTy → Type} [∀ e, Nonempty (Val e)] {sig : RefSig} {κ : Kind} {sp : Space}
    {S : Shape} {e : EltTy} (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- The zero offsets of a rank-2 buffer, as the constant function. -/
theorem zero_off2 : (![0, 0] : Fin 2 → ℕ) = fun _ => 0 := by
  funext a; match a with | ⟨0, _⟩ => rfl | ⟨1, _⟩ => rfl

/-- The zero offsets of a rank-3 buffer, as the constant function. -/
theorem zero_off3 : (![0, 0, 0] : Fin 3 → ℕ) = fun _ => 0 := by
  funext a; match a with | ⟨0, _⟩ => rfl | ⟨1, _⟩ => rfl | ⟨2, _⟩ => rfl

end WholeStore

end
-- ==== Proof.KRunA.lean ====
/-
  The kernel body at a tile that opens a batch (the first of its four column tiles, not the last): it zeroes the
  six running sums and then adds this tile's contributions, so each scratch buffer ends at one update from zero;
  the two input buffers and the idle output buffer are handed back as found. The body's text is its skeleton of
  loads and stores over named payloads; symbolic execution runs it, both branches decided by the tile's position,
  and every buffer is stored whole, so what it reads afterwards is the last stored value.
-/
import proofs.«133761_j85890755985627_2_alg».proof.Proof.KFrameKit
import proofs.«133761_j85890755985627_2_alg».proof.Proof.KMaskAcc
import proofs.«133761_j85890755985627_2_alg».proof.Proof.LibWholeStore

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.MaskAcc (Acc step zero out)

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1x256x2048 .f32) (harg2 : arg2.IsWhole) (arg3 : Memref sig .tc .vmem S1x256x2048 .i32) (harg3 : arg3.IsWhole) (arg4 : Memref sig .tc .vmem S1x256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : ¬cond0_1 i)
    (x0 : Vec F S1x256x2048 .f32) (x1 : Vec F S1x256x2048 .i32) (xi2 : Vec F S1x256x256 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (step x0 x1 zero).num ∗ owns (c : Thread nD τ) arg6 fullShare (step x0 x1 zero).lhs ∗ owns (c : Thread nD τ) arg7 fullShare (step x0 x1 zero).ps ∗ owns (c : Thread nD τ) arg8 fullShare (step x0 x1 zero).ms ∗ owns (c : Thread nD τ) arg9 fullShare (step x0 x1 zero).ng ∗ owns (c : Thread nD τ) arg10 fullShare (step x0 x1 zero).fg) -∗ K ⟨⟩))
      ⊢ wp frame (wpE (defs₀ (F := F)) Variants.none c none) E (cc0__mask_cost_kernel i arg2 harg2 arg3 harg3 arg4 harg4 arg5 harg5 arg6 harg6 arg7 harg7 arg8 harg8 arg9 harg9 arg10 harg10) K := by
  simp only [cc0__mask_cost_kernel_eq_skeleton]; unfold cc0__mask_cost_kernel_skel
  unfold owns
  iintro ⟨⟨%f0, %hf0, H0⟩, ⟨%f1, %hf1, H1⟩, ⟨%f2, %hf2, H2⟩, ⟨%d5, %f5, %hf5, HS5⟩, ⟨%d6, %f6, %hf6, HS6⟩, ⟨%d7, %f7, %hf7, HS7⟩, ⟨%d8, %f8, %hf8, HS8⟩, ⟨%d9, %f9, %hf9, HS9⟩, ⟨%d10, %f10, %hf10, HS10⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS5]
  · iexists _; isplitr
    swap; · iexact HS5
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS6]
  · iexists _; isplitr
    swap; · iexact HS6
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS7]
  · iexists _; isplitr
    swap; · iexact HS7
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS8]
  · iexists _; isplitr
    swap; · iexact HS8
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS9]
  · iexists _; isplitr
    swap; · iexact HS9
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  iexists _; isplitr
  swap; · iexact HS10
  ipureintro
  rw [WholeStore.read_after_whole_store _ _ WholeStore.zero_off2]
  sl_unfold_run_names
  simp only [View.readAt_eq_ld, harg2.read_unread, harg3.read_unread, harg5.read_unread, harg6.read_unread, harg7.read_unread, harg8.read_unread, harg9.read_unread, harg10.read_unread,
    View.ld_unit_zero (S := S1x256x2048) WholeStore.zero_off3, View.ld_unit_zero (S := S256x256) WholeStore.zero_off2, View.ld_unit_zero (S := S256x1) WholeStore.zero_off2,
    View.readCov_unit_zero (S := S256x256) _ WholeStore.zero_off2, View.readCov_unit_zero (S := S256x1) _ WholeStore.zero_off2]
  rfl

end Cert.Kernel.Gen

end
-- ==== Proof.KRunB.lean ====
/-
  The kernel body at a tile in the middle of a batch (neither its first nor its last column tile): no reset and
  no output; each of the six scratch buffers, found at the sums the tile before left, ends at one more update.
-/
import proofs.«133761_j85890755985627_2_alg».proof.Proof.KRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.MaskAcc (Acc step zero out)

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1x256x2048 .f32) (harg2 : arg2.IsWhole) (arg3 : Memref sig .tc .vmem S1x256x2048 .i32) (harg3 : arg3.IsWhole) (arg4 : Memref sig .tc .vmem S1x256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i)
    (x0 : Vec F S1x256x2048 .f32) (x1 : Vec F S1x256x2048 .i32) (xi2 : Vec F S1x256x256 .f32) (a : Acc F) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare (a).num ∗ owns (c : Thread nD τ) arg6 fullShare (a).lhs ∗ owns (c : Thread nD τ) arg7 fullShare (a).ps ∗ owns (c : Thread nD τ) arg8 fullShare (a).ms ∗ owns (c : Thread nD τ) arg9 fullShare (a).ng ∗ owns (c : Thread nD τ) arg10 fullShare (a).fg
        ∗ (iprop(owns (c : Thread nD τ) arg2 fullShare x0 ∗ owns (c : Thread nD τ) arg3 fullShare x1 ∗ owns (c : Thread nD τ) arg4 fullShare xi2
            ∗ owns (c : Thread nD τ) arg5 fullShare (step x0 x1 a).num ∗ owns (c : Thread nD τ) arg6 fullShare (step x0 x1 a).lhs ∗ owns (c : Thread nD τ) arg7 fullShare (step x0 x1 a).ps ∗ owns (c : Thread nD τ) arg8 fullShare (step x0 x1 a).ms ∗ owns (c : Thread nD τ) arg9 fullShare (step x0 x1 a).ng ∗ owns (c : Thread nD τ) arg10 fullShare (step x0 x1 a).fg) -∗ K ⟨⟩))
      ⊢ wp frame (wpE (defs₀ (F := F)) Variants.none c none) E (cc0__mask_cost_kernel i arg2 harg2 arg3 harg3 arg4 harg4 arg5 harg5 arg6 harg6 arg7 harg7 arg8 harg8 arg9 harg9 arg10 harg10) K := by
  simp only [cc0__mask_cost_kernel_eq_skeleton]; unfold cc0__mask_cost_kernel_skel
  unfold owns
  iintro ⟨⟨%f0, %hf0, H0⟩, ⟨%f1, %hf1, H1⟩, ⟨%f2, %hf2, H2⟩, ⟨%f5, %hf5, HS5⟩, ⟨%f6, %hf6, HS6⟩, ⟨%f7, %hf7, HS7⟩, ⟨%f8, %hf8, HS8⟩, ⟨%f9, %hf9, HS9⟩, ⟨%f10, %hf10, HS10⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS5]
  · iexists _; isplitr
    swap; · iexact HS5
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS6]
  · iexists _; isplitr
    swap; · iexact HS6
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS7]
  · iexists _; isplitr
    swap; · iexact HS7
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS8]
  · iexists _; isplitr
    swap; · iexact HS8
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS9]
  · iexists _; isplitr
    swap; · iexact HS9
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  iexists _; isplitr
  swap; · iexact HS10
  ipureintro
  rw [WholeStore.read_after_whole_store _ _ WholeStore.zero_off2]
  sl_unfold_run_names
  simp only [View.readAt_eq_ld, harg2.read_unread, harg3.read_unread, harg5.read_unread, harg6.read_unread, harg7.read_unread, harg8.read_unread, harg9.read_unread, harg10.read_unread,
    View.ld_unit_zero (S := S1x256x2048) WholeStore.zero_off3, View.ld_unit_zero (S := S256x256) WholeStore.zero_off2, View.ld_unit_zero (S := S256x1) WholeStore.zero_off2,
    View.readCov_unit_zero (S := S256x256) _ WholeStore.zero_off2, View.readCov_unit_zero (S := S256x1) _ WholeStore.zero_off2]
  rfl

end Cert.Kernel.Gen

end
-- ==== Proof.KRunC.lean ====
/-
  The kernel body at a batch's last column tile: the six sums get their last update and the cost block computed
  from the finished sums is stored, whole, into the output window's buffer (found at anything).
-/
import proofs.«133761_j85890755985627_2_alg».proof.Proof.KRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.MaskAcc (Acc step zero out)

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S1x256x2048 .f32) (harg2 : arg2.IsWhole) (arg3 : Memref sig .tc .vmem S1x256x2048 .i32) (harg3 : arg3.IsWhole) (arg4 : Memref sig .tc .vmem S1x256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i)
    (x0 : Vec F S1x256x2048 .f32) (x1 : Vec F S1x256x2048 .i32) (a : Acc F) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare (a).num ∗ owns (c : Thread nD τ) arg6 fullShare (a).lhs ∗ owns (c : Thread nD τ) arg7 fullShare (a).ps ∗ owns (c : Thread nD τ) arg8 fullShare (a).ms ∗ owns (c : Thread nD τ) arg9 fullShare (a).ng ∗ owns (c : Thread nD τ) arg10 fullShare (a).fg
        ∗ (iprop(owns (c : Thread nD τ) arg2 fullShare x0 ∗ owns (c : Thread nD τ) arg3 fullShare x1 ∗ owns (c : Thread nD τ) arg4 fullShare (out (step x0 x1 a))
            ∗ owns (c : Thread nD τ) arg5 fullShare (step x0 x1 a).num ∗ owns (c : Thread nD τ) arg6 fullShare (step x0 x1 a).lhs ∗ owns (c : Thread nD τ) arg7 fullShare (step x0 x1 a).ps ∗ owns (c : Thread nD τ) arg8 fullShare (step x0 x1 a).ms ∗ owns (c : Thread nD τ) arg9 fullShare (step x0 x1 a).ng ∗ owns (c : Thread nD τ) arg10 fullShare (step x0 x1 a).fg) -∗ K ⟨⟩))
      ⊢ wp frame (wpE (defs₀ (F := F)) Variants.none c none) E (cc0__mask_cost_kernel i arg2 harg2 arg3 harg3 arg4 harg4 arg5 harg5 arg6 harg6 arg7 harg7 arg8 harg8 arg9 harg9 arg10 harg10) K := by
  simp only [cc0__mask_cost_kernel_eq_skeleton]; unfold cc0__mask_cost_kernel_skel
  unfold owns
  iintro ⟨⟨%f0, %hf0, H0⟩, ⟨%f1, %hf1, H1⟩, ⟨%d2, %f2, %hf2, H2⟩, ⟨%f5, %hf5, HS5⟩, ⟨%f6, %hf6, HS6⟩, ⟨%f7, %hf7, HS7⟩, ⟨%f8, %hf8, HS8⟩, ⟨%f9, %hf9, HS9⟩, ⟨%f10, %hf10, HS10⟩, Hk⟩
  obtain rfl := harg2.eq_unread hf0; obtain rfl := harg3.eq_unread hf1
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [WholeStore.read_after_whole_store (S := S1x256x256) _ _ WholeStore.zero_off3]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS5]
  · iexists _; isplitr
    swap; · iexact HS5
    ipureintro
    sl_unfold_run_names
    rw [WholeStore.read_after_whole_store (S := S256x256) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS6]
  · iexists _; isplitr
    swap; · iexact HS6
    ipureintro
    sl_unfold_run_names
    rw [WholeStore.read_after_whole_store (S := S256x256) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS7]
  · iexists _; isplitr
    swap; · iexact HS7
    ipureintro
    sl_unfold_run_names
    rw [WholeStore.read_after_whole_store (S := S256x1) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS8]
  · iexists _; isplitr
    swap; · iexact HS8
    ipureintro
    sl_unfold_run_names
    rw [WholeStore.read_after_whole_store (S := S256x1) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS9]
  · iexists _; isplitr
    swap; · iexact HS9
    ipureintro
    sl_unfold_run_names
    rw [WholeStore.read_after_whole_store (S := S256x1) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  iexists _; isplitr
  swap; · iexact HS10
  ipureintro
  sl_unfold_run_names
  rw [WholeStore.read_after_whole_store (S := S256x1) _ _ WholeStore.zero_off2]
  simp only [View.readAt_eq_ld, harg2.read_unread, harg3.read_unread, harg5.read_unread, harg6.read_unread, harg7.read_unread, harg8.read_unread, harg9.read_unread, harg10.read_unread,
    View.ld_unit_zero (S := S1x256x2048) WholeStore.zero_off3, View.ld_unit_zero (S := S256x256) WholeStore.zero_off2, View.ld_unit_zero (S := S256x1) WholeStore.zero_off2,
    View.readCov_unit_zero (S := S256x256) _ WholeStore.zero_off2, View.readCov_unit_zero (S := S256x1) _ WholeStore.zero_off2]
  rfl

end Cert.Kernel.Gen

end
-- ==== Proof.KFrame.lean ====
/-
  The mask-cost kernel runs to the end, faults nowhere and leaves its arguments unchanged. The six running sums
  live in scratch buffers the pipeline does not stage, so the region's invariant carries them: before the first
  grid point they hold anything; after point n they hold the sums after n (a batch's first tile restarts them
  from zero, every other tile adds to what the tile before left). The two input windows are handed back as
  found; the output window is idle until a batch's last tile, which stores the cost block computed from the
  finished sums. The body's obligation follows by cases on the tile's position in its batch from the three
  runs of the body; the launch theorem for a region continued by host lines then gives the run.
-/
import proofs.«133761_j85890755985627_2_alg».proof.Proof.KRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.MaskAcc (Acc step zero out accAt)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The sums after each grid point -/

theorem N_pos : 0 < cfg0.N := by rw [show cfg0.N = 32 from N_0]; omega

/-- The prediction tile at point `n` (beyond the grid: the first tile, never consulted). -/
def xb (c : Dev nD) (n : ℕ) : Vec F S1x256x2048 .f32 :=
  if h : n < cfg0.N then iblk m c 0 ⟨n, h⟩ else iblk m c 0 ⟨0, N_pos⟩
/-- The target tile at point `n`. -/
def tb (c : Dev nD) (n : ℕ) : Vec F S1x256x2048 .i32 :=
  if h : n < cfg0.N then iblk m c 1 ⟨n, h⟩ else iblk m c 1 ⟨0, N_pos⟩

theorem xb_val (c : Dev nD) (t : Fin cfg0.N) : xb m c t.val = iblk m c 0 t := by
  unfold xb; rw [dif_pos t.isLt]
theorem tb_val (c : Dev nD) (t : Fin cfg0.N) : tb m c t.val = iblk m c 1 t := by
  unfold tb; rw [dif_pos t.isLt]

/-- The six sums after point `n`. -/
def accS (c : Dev nD) (n : ℕ) : Acc F := accAt (xb m c) (tb m c) n

/-- At a tile that opens a batch: one update from zero. -/
theorem accS_first (c : Dev nD) (t : Fin cfg0.N) (h0 : t.val % 4 = 0) :
    accS m c t.val = step (iblk m c 0 t) (iblk m c 1 t) zero := by
  unfold accS
  obtain ⟨n, hn⟩ := t
  cases n with
  | zero => show step (xb m c 0) (tb m c 0) zero = _; rw [← xb_val m c ⟨0, hn⟩, ← tb_val m c ⟨0, hn⟩]
  | succ n =>
    rw [accAt, if_pos h0, ← xb_val m c ⟨n + 1, hn⟩, ← tb_val m c ⟨n + 1, hn⟩]

/-- At any other tile: one update of what the point before left. -/
theorem accS_next (c : Dev nD) (t : Fin cfg0.N) (h0 : ¬t.val % 4 = 0) :
    accS m c t.val = step (iblk m c 0 t) (iblk m c 1 t) (accS m c (t.val - 1)) := by
  unfold accS
  obtain ⟨n, hn⟩ := t
  cases n with
  | zero => exact absurd (Nat.zero_mod _) h0
  | succ n =>
    rw [accAt, if_neg h0, ← xb_val m c ⟨n + 1, hn⟩, ← tb_val m c ⟨n + 1, hn⟩]; rfl

/-! ## The region's invariant -/

/-- Before point `n`: anything before the first; afterwards the six scratch buffers at the sums after `n - 1`. -/
def PhiS (c : Dev nD) : (n : ℕ) → sProp 𝕄
  | 0 => Pipeline.ΦA spec0 c
  | n + 1 => iprop(iprop(owns (c : Thread nD τ) scM0_0 fullShare (accS m c n).num ∗ owns (c : Thread nD τ) scM0_1 fullShare (accS m c n).lhs ∗ owns (c : Thread nD τ) scM0_2 fullShare (accS m c n).ps ∗ owns (c : Thread nD τ) scM0_3 fullShare (accS m c n).ms ∗ owns (c : Thread nD τ) scM0_4 fullShare (accS m c n).ng ∗ owns (c : Thread nD τ) scM0_5 fullShare (accS m c n).fg) ∗ (∃ r, prngReg c r))

theorem PhiS_succ (c : Dev nD) (n : ℕ) :
    PhiS m c (n + 1) = iprop(iprop(owns (c : Thread nD τ) scM0_0 fullShare (accS m c n).num ∗ owns (c : Thread nD τ) scM0_1 fullShare (accS m c n).lhs ∗ owns (c : Thread nD τ) scM0_2 fullShare (accS m c n).ps ∗ owns (c : Thread nD τ) scM0_3 fullShare (accS m c n).ms ∗ owns (c : Thread nD τ) scM0_4 fullShare (accS m c n).ng ∗ owns (c : Thread nD τ) scM0_5 fullShare (accS m c n).fg) ∗ (∃ r, prngReg c r)) := rfl

theorem PhiS_pos (c : Dev nD) (n : ℕ) (hz : n ≠ 0) :
    PhiS m c n = iprop(iprop(owns (c : Thread nD τ) scM0_0 fullShare (accS m c (n - 1)).num ∗ owns (c : Thread nD τ) scM0_1 fullShare (accS m c (n - 1)).lhs ∗ owns (c : Thread nD τ) scM0_2 fullShare (accS m c (n - 1)).ps ∗ owns (c : Thread nD τ) scM0_3 fullShare (accS m c (n - 1)).ms ∗ owns (c : Thread nD τ) scM0_4 fullShare (accS m c (n - 1)).ng ∗ owns (c : Thread nD τ) scM0_5 fullShare (accS m c (n - 1)).fg) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (accS m c t.val)
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out (accS m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the tile's position in its batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 4 = 3
  · have h0 : ¬t.val % 4 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [accS_next m c t h0, PhiS_castSucc m c t, PhiS_pos m c _ hz]
    iintro ⟨⟨⟨HS0, HS1, HS2, HS3, HS4, HS5⟩, Hg⟩, Ho, ⟨%d0, H0⟩, ⟨%d1, H1⟩, ⟨%d2, H2⟩⟩
    iapply (runC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (accS m c (t.val - 1)) Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    iexact H2
  · rw [Dat.leavesExact_idle (dats m 0 c) 2 t (idleAt0_2 t (fun h => h1 ((hcond0_1 t).mp h))) (noFlush0_2 t (fun h => h1 ((hcond0_1 t).mp h)))]
    by_cases h0 : t.val % 4 = 0
    · rw [accS_first m c t h0]
      by_cases hz : t.val = 0
      · rw [PhiS_castSucc m c t, hz, show PhiS m c 0 = Pipeline.ΦA spec0 c from rfl, PhiA0_eq]
        iintro ⟨⟨⟨HS0, HS1, HS2, HS3, HS4, HS5⟩, Hg⟩, Ho, ⟨%d0, H0⟩, ⟨%d1, H1⟩, ⟨%d2, H2⟩⟩
        iapply (runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        iexists _; iexact H2
      · rw [PhiS_castSucc m c t, PhiS_pos m c _ hz]
        iintro ⟨⟨⟨HS0, HS1, HS2, HS3, HS4, HS5⟩, Hg⟩, Ho, ⟨%d0, H0⟩, ⟨%d1, H1⟩, ⟨%d2, H2⟩⟩
        iapply (runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        iintro ⟨H0, H1, H2, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        iexists _; iexact H2
    · have hz : t.val ≠ 0 := fun h => h0 (by rw [h])
      rw [accS_next m c t h0, PhiS_castSucc m c t, PhiS_pos m c _ hz]
      iintro ⟨⟨⟨HS0, HS1, HS2, HS3, HS4, HS5⟩, Hg⟩, Ho, ⟨%d0, H0⟩, ⟨%d1, H1⟩, ⟨%d2, H2⟩⟩
      iapply (runB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) _ (accS m c (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, show PhiS m c 0 = Pipeline.ΦA spec0 c from rfl]
  try exact Idealize.SL.BI.Entails.refl _

/-- After the last point the invariant gives the scratch buffers back at some contents. -/
theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val from rfl,
    PhiS_pos m c _ (by rw [Fin.val_last]; omega), PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run and the frame -/

set_option backward.isDefEq.respectTransparency.types false in
/-- Every weakly fair execution of the program terminates, nothing faulting, with every array of the pipeline at
    what the library computes from the proof data and every other buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.KIFrameKit.lean ====
/-
  What the three control cases of the mask-cost kernel's body share in the proof that the program runs to the
  end, faults nowhere and leaves its arguments unchanged: the program around its one pipelined region (no host
  line before it, five stretches of host lines after it, none of which writes an array the pipeline stages),
  the blocks the region finds in its two input windows, the two branch conditions of the body decided over the
  8 × 4 grid (the first tile of a batch resets the six running sums, the last tile writes the cost block out),
  where the output window is idle, and the six scratch buffers the kernel carries from tile to tile.
-/
import proofs.«133761_j85890755985627_2_alg».proof.Proof.Gen.KernelIdeal.Launch
import proofs.«133761_j85890755985627_2_alg».proof.Proof.Gen.KernelIdeal.Skeleton
import proofs.«133761_j85890755985627_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents on core `c` when the region is entered: no host line runs before it. -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- The host lines after the region, stretch by stretch. -/
abbrev tailOps : List (List (HloOp τ sig (Elt F))) := [hostOps1, hostOps1_1, hostOps1_2, hostOps1_3, hostOps1_4]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- No later host line writes an array the pipeline stages: each writes its own result buffer only. -/
theorem keeps_of (ops : List (HloOp τ sig (Elt F)))
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

/-- One stretch's operations each write their own result buffer, which is none of the three staged arrays. -/
local macro "keeps_stretch" : tactic => `(tactic| (
  simp only [List.Forall]; repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_stretch
theorem hostOps1_1_keeps : (hostOps1_1 : List (HloOp τ sig (Elt F))).Forall fun op => ∀ w, Proc.devRef .tc (Pipeline.arrRef spec0 w) ∉ op.writes := by
  keeps_stretch
theorem hostOps1_2_keeps : (hostOps1_2 : List (HloOp τ sig (Elt F))).Forall fun op => ∀ w, Proc.devRef .tc (Pipeline.arrRef spec0 w) ∉ op.writes := by
  keeps_stretch
theorem hostOps1_3_keeps : (hostOps1_3 : List (HloOp τ sig (Elt F))).Forall fun op => ∀ w, Proc.devRef .tc (Pipeline.arrRef spec0 w) ∉ op.writes := by
  keeps_stretch
theorem hostOps1_4_keeps : (hostOps1_4 : List (HloOp τ sig (Elt F))).Forall fun op => ∀ w, Proc.devRef .tc (Pipeline.arrRef spec0 w) ∉ op.writes := by
  keeps_stretch

/-- The later lines touch the pipeline's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact keeps_of _ hostOps1_keeps op hop
  · exact keeps_of _ hostOps1_1_keeps op hop
  · exact keeps_of _ hostOps1_2_keeps op hop
  · exact keeps_of _ hostOps1_3_keeps op hop
  · exact keeps_of _ hostOps1_4_keeps op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-- No later host line writes `main_arg1`, which no window stages: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No later host line writes `main_arg2`, which no window stages: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No later host line writes `main_arg3`, which no window stages: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No later host line writes `main_arg4`, which no window stages: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The prediction window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The target window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the
    frame claim: the two staged arguments by the library's reading of an input array, the four others by the
    post's second clause and the tail's silence about them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 1).trans (((dats 0 c).arrAt_in 1 rfl _).trans ((hA c 1).trans (V_main_arg5 m c)))⟩) h

/-! ## The body's two branch conditions -/

/-- "This tile opens a batch" (the column-tile coordinate is 0), as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This tile closes a batch" (the column-tile coordinate is 3), as the body computes it. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before a batch's last tile nothing is stored into the output window, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a batch's last tile the output window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
/-- The six scratch operands: whole scoped buffers of the kernel's own. -/
abbrev scM0_0 : Memref sig .tc .vmem S256x256 .f32 := Memref.whole cc0_scratch0
abbrev scM0_1 : Memref sig .tc .vmem S256x256 .f32 := Memref.whole cc0_scratch1
abbrev scM0_2 : Memref sig .tc .vmem S256x1 .f32 := Memref.whole cc0_scratch2
abbrev scM0_3 : Memref sig .tc .vmem S256x1 .f32 := Memref.whole cc0_scratch3
abbrev scM0_4 : Memref sig .tc .vmem S256x1 .f32 := Memref.whole cc0_scratch4
abbrev scM0_5 : Memref sig .tc .vmem S256x1 .f32 := Memref.whole cc0_scratch5

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.MaskAcc.lean ====
/-
  The kernel keeps six running sums across the four column tiles of one batch: two 256×256 matrix accumulators
  (the sigmoid–target products and the combined cross-entropy/focal left factor against the targets) and four
  256×1 row sums (sigmoid, target, softplus, focal-negative). This module names that recursion over the payloads
  of the kernel's skeleton: the zero state written at a batch's first tile, one tile's update, the state after
  each grid point, and the block the last tile writes out.
-/
import proofs.«133761_j85890755985627_2_alg».proof.Proof.Gen.KernelIdeal.Skeleton

noncomputable section

namespace Cert.KernelIdeal.MaskAcc

open Idealize.ShloMosaic Cert.KernelIdeal Cert.KernelIdeal.Gen

variable {F : FTy → Type} [FloatOps F]

/-- The six running sums, in the order of the kernel's scratch operands. -/
structure Acc (F : FTy → Type) [FloatOps F] where
  num : Vec F S256x256 .f32
  lhs : Vec F S256x256 .f32
  ps : Vec F S256x1 .f32
  ms : Vec F S256x1 .f32
  ng : Vec F S256x1 .f32
  fg : Vec F S256x1 .f32

/-- The state a batch's first tile starts from: every sum zero. -/
def zero : Acc F := ⟨k0_pay3, k0_pay4, k0_pay5, k0_pay6, k0_pay7, k0_pay8⟩

/-- One tile's update: `x` the tile of predictions, `t` the tile of integer targets. -/
def step (x : Vec F S1x256x2048 .f32) (t : Vec F S1x256x2048 .i32) (a : Acc F) : Acc F :=
  ⟨k0_pay17 (k0_pay14 x) (k0_pay15 t) a.num, k0_pay18 (k0_pay15 t) (k0_pay16 x) a.lhs,
   k0_pay19 (k0_pay11 x) a.ps, k0_pay20 (k0_pay10 t) a.ms, k0_pay21 (k0_pay12 x) a.ng,
   k0_pay1 (k0_pay13 x) a.fg⟩

/-- The cost block the last tile of a batch writes out, from the finished sums. -/
def out (a : Acc F) : Vec F S1x256x256 .f32 := k0_pay2 a.ms a.ps a.num a.ng a.fg a.lhs

/-- The sums after grid point `n` (points in row-major order, four tiles per batch): a tile that opens a batch
    restarts from zero, any other continues from the point before. -/
def accAt (xb : ℕ → Vec F S1x256x2048 .f32) (tb : ℕ → Vec F S1x256x2048 .i32) : ℕ → Acc F
  | 0 => step (xb 0) (tb 0) zero
  | n + 1 => if (n + 1) % 4 = 0 then step (xb (n + 1)) (tb (n + 1)) zero
      else step (xb (n + 1)) (tb (n + 1)) (accAt xb tb n)

/-- A batch's finished sums are the four updates of its own tiles from zero. -/
theorem accAt_last (xb : ℕ → Vec F S1x256x2048 .f32) (tb : ℕ → Vec F S1x256x2048 .i32) (b : ℕ) :
    accAt xb tb (4 * b + 3) = step (xb (4 * b + 3)) (tb (4 * b + 3)) (step (xb (4 * b + 2)) (tb (4 * b + 2))
      (step (xb (4 * b + 1)) (tb (4 * b + 1)) (step (xb (4 * b)) (tb (4 * b)) zero))) := by
  have h0 : accAt xb tb (4 * b) = step (xb (4 * b)) (tb (4 * b)) zero := by
    cases b with
    | zero => rfl
    | succ b =>
      have e : 4 * (b + 1) = 4 * b + 3 + 1 := by omega
      rw [e, accAt, if_pos (by omega)]
  have h1 : accAt xb tb (4 * b + 1) = step (xb (4 * b + 1)) (tb (4 * b + 1)) (accAt xb tb (4 * b)) := by
    rw [accAt, if_neg (by omega)]
  have h2 : accAt xb tb (4 * b + 2) = step (xb (4 * b + 2)) (tb (4 * b + 2)) (accAt xb tb (4 * b + 1)) := by
    rw [accAt, if_neg (by omega)]
  have h3 : accAt xb tb (4 * b + 3) = step (xb (4 * b + 3)) (tb (4 * b + 3)) (accAt xb tb (4 * b + 2)) := by
    rw [accAt, if_neg (by omega)]
  rw [h3, h2, h1, h0]

end Cert.KernelIdeal.MaskAcc

end
-- ==== Proof.KIRunA.lean ====
/-
  The kernel body at a tile that opens a batch (the first of its four column tiles, not the last): it zeroes the
  six running sums and then adds this tile's contributions, so each scratch buffer ends at one update from zero;
  the two input buffers and the idle output buffer are handed back as found. The body's text is its skeleton of
  loads and stores over named payloads; symbolic execution runs it, both branches decided by the tile's position,
  and every buffer is stored whole, so what it reads afterwards is the last stored value.
-/
import proofs.«133761_j85890755985627_2_alg».proof.Proof.KIFrameKit
import proofs.«133761_j85890755985627_2_alg».proof.Proof.MaskAcc
import proofs.«133761_j85890755985627_2_alg».proof.Proof.LibWholeStore

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.MaskAcc (Acc step zero out)

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1x256x2048 .f32) (harg2 : arg2.IsWhole) (arg3 : Memref sig .tc .vmem S1x256x2048 .i32) (harg3 : arg3.IsWhole) (arg4 : Memref sig .tc .vmem S1x256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : ¬cond0_1 i)
    (x0 : Vec F S1x256x2048 .f32) (x1 : Vec F S1x256x2048 .i32) (xi2 : Vec F S1x256x256 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (step x0 x1 zero).num ∗ owns (c : Thread nD τ) arg6 fullShare (step x0 x1 zero).lhs ∗ owns (c : Thread nD τ) arg7 fullShare (step x0 x1 zero).ps ∗ owns (c : Thread nD τ) arg8 fullShare (step x0 x1 zero).ms ∗ owns (c : Thread nD τ) arg9 fullShare (step x0 x1 zero).ng ∗ owns (c : Thread nD τ) arg10 fullShare (step x0 x1 zero).fg) -∗ K ⟨⟩))
      ⊢ wp frame (wpE (defs₀ (F := F)) Variants.none c none) E (cc0__mask_cost_kernel i arg2 harg2 arg3 harg3 arg4 harg4 arg5 harg5 arg6 harg6 arg7 harg7 arg8 harg8 arg9 harg9 arg10 harg10) K := by
  simp only [cc0__mask_cost_kernel_eq_skeleton]; unfold cc0__mask_cost_kernel_skel
  unfold owns
  iintro ⟨⟨%f0, %hf0, H0⟩, ⟨%f1, %hf1, H1⟩, ⟨%f2, %hf2, H2⟩, ⟨%d5, %f5, %hf5, HS5⟩, ⟨%d6, %f6, %hf6, HS6⟩, ⟨%d7, %f7, %hf7, HS7⟩, ⟨%d8, %f8, %hf8, HS8⟩, ⟨%d9, %f9, %hf9, HS9⟩, ⟨%d10, %f10, %hf10, HS10⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS5]
  · iexists _; isplitr
    swap; · iexact HS5
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS6]
  · iexists _; isplitr
    swap; · iexact HS6
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS7]
  · iexists _; isplitr
    swap; · iexact HS7
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS8]
  · iexists _; isplitr
    swap; · iexact HS8
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS9]
  · iexists _; isplitr
    swap; · iexact HS9
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  iexists _; isplitr
  swap; · iexact HS10
  ipureintro
  rw [WholeStore.read_after_whole_store _ _ WholeStore.zero_off2]
  sl_unfold_run_names
  simp only [View.readAt_eq_ld, harg2.read_unread, harg3.read_unread, harg5.read_unread, harg6.read_unread, harg7.read_unread, harg8.read_unread, harg9.read_unread, harg10.read_unread,
    View.ld_unit_zero (S := S1x256x2048) WholeStore.zero_off3, View.ld_unit_zero (S := S256x256) WholeStore.zero_off2, View.ld_unit_zero (S := S256x1) WholeStore.zero_off2,
    View.readCov_unit_zero (S := S256x256) _ WholeStore.zero_off2, View.readCov_unit_zero (S := S256x1) _ WholeStore.zero_off2]
  rfl

end Cert.KernelIdeal.Gen

end
-- ==== Proof.KIRunB.lean ====
/-
  The kernel body at a tile in the middle of a batch (neither its first nor its last column tile): no reset and
  no output; each of the six scratch buffers, found at the sums the tile before left, ends at one more update.
-/
import proofs.«133761_j85890755985627_2_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.MaskAcc (Acc step zero out)

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1x256x2048 .f32) (harg2 : arg2.IsWhole) (arg3 : Memref sig .tc .vmem S1x256x2048 .i32) (harg3 : arg3.IsWhole) (arg4 : Memref sig .tc .vmem S1x256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i)
    (x0 : Vec F S1x256x2048 .f32) (x1 : Vec F S1x256x2048 .i32) (xi2 : Vec F S1x256x256 .f32) (a : Acc F) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare (a).num ∗ owns (c : Thread nD τ) arg6 fullShare (a).lhs ∗ owns (c : Thread nD τ) arg7 fullShare (a).ps ∗ owns (c : Thread nD τ) arg8 fullShare (a).ms ∗ owns (c : Thread nD τ) arg9 fullShare (a).ng ∗ owns (c : Thread nD τ) arg10 fullShare (a).fg
        ∗ (iprop(owns (c : Thread nD τ) arg2 fullShare x0 ∗ owns (c : Thread nD τ) arg3 fullShare x1 ∗ owns (c : Thread nD τ) arg4 fullShare xi2
            ∗ owns (c : Thread nD τ) arg5 fullShare (step x0 x1 a).num ∗ owns (c : Thread nD τ) arg6 fullShare (step x0 x1 a).lhs ∗ owns (c : Thread nD τ) arg7 fullShare (step x0 x1 a).ps ∗ owns (c : Thread nD τ) arg8 fullShare (step x0 x1 a).ms ∗ owns (c : Thread nD τ) arg9 fullShare (step x0 x1 a).ng ∗ owns (c : Thread nD τ) arg10 fullShare (step x0 x1 a).fg) -∗ K ⟨⟩))
      ⊢ wp frame (wpE (defs₀ (F := F)) Variants.none c none) E (cc0__mask_cost_kernel i arg2 harg2 arg3 harg3 arg4 harg4 arg5 harg5 arg6 harg6 arg7 harg7 arg8 harg8 arg9 harg9 arg10 harg10) K := by
  simp only [cc0__mask_cost_kernel_eq_skeleton]; unfold cc0__mask_cost_kernel_skel
  unfold owns
  iintro ⟨⟨%f0, %hf0, H0⟩, ⟨%f1, %hf1, H1⟩, ⟨%f2, %hf2, H2⟩, ⟨%f5, %hf5, HS5⟩, ⟨%f6, %hf6, HS6⟩, ⟨%f7, %hf7, HS7⟩, ⟨%f8, %hf8, HS8⟩, ⟨%f9, %hf9, HS9⟩, ⟨%f10, %hf10, HS10⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS5]
  · iexists _; isplitr
    swap; · iexact HS5
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS6]
  · iexists _; isplitr
    swap; · iexact HS6
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS7]
  · iexists _; isplitr
    swap; · iexact HS7
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS8]
  · iexists _; isplitr
    swap; · iexact HS8
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS9]
  · iexists _; isplitr
    swap; · iexact HS9
    ipureintro
    rw [WholeStore.read_after_whole_store _ _ WholeStore.zero_off2]
    sl_unfold_run_names
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  iexists _; isplitr
  swap; · iexact HS10
  ipureintro
  rw [WholeStore.read_after_whole_store _ _ WholeStore.zero_off2]
  sl_unfold_run_names
  simp only [View.readAt_eq_ld, harg2.read_unread, harg3.read_unread, harg5.read_unread, harg6.read_unread, harg7.read_unread, harg8.read_unread, harg9.read_unread, harg10.read_unread,
    View.ld_unit_zero (S := S1x256x2048) WholeStore.zero_off3, View.ld_unit_zero (S := S256x256) WholeStore.zero_off2, View.ld_unit_zero (S := S256x1) WholeStore.zero_off2,
    View.readCov_unit_zero (S := S256x256) _ WholeStore.zero_off2, View.readCov_unit_zero (S := S256x1) _ WholeStore.zero_off2]
  rfl

end Cert.KernelIdeal.Gen

end
-- ==== Proof.KIRunC.lean ====
/-
  The kernel body at a batch's last column tile: the six sums get their last update and the cost block computed
  from the finished sums is stored, whole, into the output window's buffer (found at anything).
-/
import proofs.«133761_j85890755985627_2_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.MaskAcc (Acc step zero out)

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S1x256x2048 .f32) (harg2 : arg2.IsWhole) (arg3 : Memref sig .tc .vmem S1x256x2048 .i32) (harg3 : arg3.IsWhole) (arg4 : Memref sig .tc .vmem S1x256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i)
    (x0 : Vec F S1x256x2048 .f32) (x1 : Vec F S1x256x2048 .i32) (a : Acc F) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare (a).num ∗ owns (c : Thread nD τ) arg6 fullShare (a).lhs ∗ owns (c : Thread nD τ) arg7 fullShare (a).ps ∗ owns (c : Thread nD τ) arg8 fullShare (a).ms ∗ owns (c : Thread nD τ) arg9 fullShare (a).ng ∗ owns (c : Thread nD τ) arg10 fullShare (a).fg
        ∗ (iprop(owns (c : Thread nD τ) arg2 fullShare x0 ∗ owns (c : Thread nD τ) arg3 fullShare x1 ∗ owns (c : Thread nD τ) arg4 fullShare (out (step x0 x1 a))
            ∗ owns (c : Thread nD τ) arg5 fullShare (step x0 x1 a).num ∗ owns (c : Thread nD τ) arg6 fullShare (step x0 x1 a).lhs ∗ owns (c : Thread nD τ) arg7 fullShare (step x0 x1 a).ps ∗ owns (c : Thread nD τ) arg8 fullShare (step x0 x1 a).ms ∗ owns (c : Thread nD τ) arg9 fullShare (step x0 x1 a).ng ∗ owns (c : Thread nD τ) arg10 fullShare (step x0 x1 a).fg) -∗ K ⟨⟩))
      ⊢ wp frame (wpE (defs₀ (F := F)) Variants.none c none) E (cc0__mask_cost_kernel i arg2 harg2 arg3 harg3 arg4 harg4 arg5 harg5 arg6 harg6 arg7 harg7 arg8 harg8 arg9 harg9 arg10 harg10) K := by
  simp only [cc0__mask_cost_kernel_eq_skeleton]; unfold cc0__mask_cost_kernel_skel
  unfold owns
  iintro ⟨⟨%f0, %hf0, H0⟩, ⟨%f1, %hf1, H1⟩, ⟨%d2, %f2, %hf2, H2⟩, ⟨%f5, %hf5, HS5⟩, ⟨%f6, %hf6, HS6⟩, ⟨%f7, %hf7, HS7⟩, ⟨%f8, %hf8, HS8⟩, ⟨%f9, %hf9, HS9⟩, ⟨%f10, %hf10, HS10⟩, Hk⟩
  obtain rfl := harg2.eq_unread hf0; obtain rfl := harg3.eq_unread hf1
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [WholeStore.read_after_whole_store (S := S1x256x256) _ _ WholeStore.zero_off3]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS5]
  · iexists _; isplitr
    swap; · iexact HS5
    ipureintro
    sl_unfold_run_names
    rw [WholeStore.read_after_whole_store (S := S256x256) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS6]
  · iexists _; isplitr
    swap; · iexact HS6
    ipureintro
    sl_unfold_run_names
    rw [WholeStore.read_after_whole_store (S := S256x256) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS7]
  · iexists _; isplitr
    swap; · iexact HS7
    ipureintro
    sl_unfold_run_names
    rw [WholeStore.read_after_whole_store (S := S256x1) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS8]
  · iexists _; isplitr
    swap; · iexact HS8
    ipureintro
    sl_unfold_run_names
    rw [WholeStore.read_after_whole_store (S := S256x1) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  isplitl [HS9]
  · iexists _; isplitr
    swap; · iexact HS9
    ipureintro
    sl_unfold_run_names
    rw [WholeStore.read_after_whole_store (S := S256x1) _ _ WholeStore.zero_off2]
    simp only [View.readAt_eq_ld, harg2.read_unread, harg3.read_unread, harg5.read_unread, harg6.read_unread, harg7.read_unread, harg8.read_unread, harg9.read_unread, harg10.read_unread,
      View.ld_unit_zero (S := S1x256x2048) WholeStore.zero_off3, View.ld_unit_zero (S := S256x256) WholeStore.zero_off2, View.ld_unit_zero (S := S256x1) WholeStore.zero_off2,
      View.readCov_unit_zero (S := S256x256) _ WholeStore.zero_off2, View.readCov_unit_zero (S := S256x1) _ WholeStore.zero_off2]
    rfl
  iexists _; isplitr
  swap; · iexact HS10
  ipureintro
  sl_unfold_run_names
  rw [WholeStore.read_after_whole_store (S := S256x1) _ _ WholeStore.zero_off2]
  simp only [View.readAt_eq_ld, harg2.read_unread, harg3.read_unread, harg5.read_unread, harg6.read_unread, harg7.read_unread, harg8.read_unread, harg9.read_unread, harg10.read_unread,
    View.ld_unit_zero (S := S1x256x2048) WholeStore.zero_off3, View.ld_unit_zero (S := S256x256) WholeStore.zero_off2, View.ld_unit_zero (S := S256x1) WholeStore.zero_off2,
    View.readCov_unit_zero (S := S256x256) _ WholeStore.zero_off2, View.readCov_unit_zero (S := S256x1) _ WholeStore.zero_off2]
  rfl

end Cert.KernelIdeal.Gen

end
-- ==== Proof.KIFrame.lean ====
/-
  The mask-cost kernel runs to the end, faults nowhere and leaves its arguments unchanged. The six running sums
  live in scratch buffers the pipeline does not stage, so the region's invariant carries them: before the first
  grid point they hold anything; after point n they hold the sums after n (a batch's first tile restarts them
  from zero, every other tile adds to what the tile before left). The two input windows are handed back as
  found; the output window is idle until a batch's last tile, which stores the cost block computed from the
  finished sums. The body's obligation follows by cases on the tile's position in its batch from the three
  runs of the body; the launch theorem for a region continued by host lines then gives the run.
-/
import proofs.«133761_j85890755985627_2_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.MaskAcc (Acc step zero out accAt)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The sums after each grid point -/

theorem N_pos : 0 < cfg0.N := by rw [show cfg0.N = 32 from N_0]; omega

/-- The prediction tile at point `n` (beyond the grid: the first tile, never consulted). -/
def xb (c : Dev nD) (n : ℕ) : Vec F S1x256x2048 .f32 :=
  if h : n < cfg0.N then iblk m c 0 ⟨n, h⟩ else iblk m c 0 ⟨0, N_pos⟩
/-- The target tile at point `n`. -/
def tb (c : Dev nD) (n : ℕ) : Vec F S1x256x2048 .i32 :=
  if h : n < cfg0.N then iblk m c 1 ⟨n, h⟩ else iblk m c 1 ⟨0, N_pos⟩

theorem xb_val (c : Dev nD) (t : Fin cfg0.N) : xb m c t.val = iblk m c 0 t := by
  unfold xb; rw [dif_pos t.isLt]
theorem tb_val (c : Dev nD) (t : Fin cfg0.N) : tb m c t.val = iblk m c 1 t := by
  unfold tb; rw [dif_pos t.isLt]

/-- The six sums after point `n`. -/
def accS (c : Dev nD) (n : ℕ) : Acc F := accAt (xb m c) (tb m c) n

/-- At a tile that opens a batch: one update from zero. -/
theorem accS_first (c : Dev nD) (t : Fin cfg0.N) (h0 : t.val % 4 = 0) :
    accS m c t.val = step (iblk m c 0 t) (iblk m c 1 t) zero := by
  unfold accS
  obtain ⟨n, hn⟩ := t
  cases n with
  | zero => show step (xb m c 0) (tb m c 0) zero = _; rw [← xb_val m c ⟨0, hn⟩, ← tb_val m c ⟨0, hn⟩]
  | succ n =>
    rw [accAt, if_pos h0, ← xb_val m c ⟨n + 1, hn⟩, ← tb_val m c ⟨n + 1, hn⟩]

/-- At any other tile: one update of what the point before left. -/
theorem accS_next (c : Dev nD) (t : Fin cfg0.N) (h0 : ¬t.val % 4 = 0) :
    accS m c t.val = step (iblk m c 0 t) (iblk m c 1 t) (accS m c (t.val - 1)) := by
  unfold accS
  obtain ⟨n, hn⟩ := t
  cases n with
  | zero => exact absurd (Nat.zero_mod _) h0
  | succ n =>
    rw [accAt, if_neg h0, ← xb_val m c ⟨n + 1, hn⟩, ← tb_val m c ⟨n + 1, hn⟩]; rfl

/-! ## The region's invariant -/

/-- Before point `n`: anything before the first; afterwards the six scratch buffers at the sums after `n - 1`. -/
def PhiS (c : Dev nD) : (n : ℕ) → sProp 𝕄
  | 0 => Pipeline.ΦA spec0 c
  | n + 1 => iprop(iprop(owns (c : Thread nD τ) scM0_0 fullShare (accS m c n).num ∗ owns (c : Thread nD τ) scM0_1 fullShare (accS m c n).lhs ∗ owns (c : Thread nD τ) scM0_2 fullShare (accS m c n).ps ∗ owns (c : Thread nD τ) scM0_3 fullShare (accS m c n).ms ∗ owns (c : Thread nD τ) scM0_4 fullShare (accS m c n).ng ∗ owns (c : Thread nD τ) scM0_5 fullShare (accS m c n).fg) ∗ (∃ r, prngReg c r))

theorem PhiS_succ (c : Dev nD) (n : ℕ) :
    PhiS m c (n + 1) = iprop(iprop(owns (c : Thread nD τ) scM0_0 fullShare (accS m c n).num ∗ owns (c : Thread nD τ) scM0_1 fullShare (accS m c n).lhs ∗ owns (c : Thread nD τ) scM0_2 fullShare (accS m c n).ps ∗ owns (c : Thread nD τ) scM0_3 fullShare (accS m c n).ms ∗ owns (c : Thread nD τ) scM0_4 fullShare (accS m c n).ng ∗ owns (c : Thread nD τ) scM0_5 fullShare (accS m c n).fg) ∗ (∃ r, prngReg c r)) := rfl

theorem PhiS_pos (c : Dev nD) (n : ℕ) (hz : n ≠ 0) :
    PhiS m c n = iprop(iprop(owns (c : Thread nD τ) scM0_0 fullShare (accS m c (n - 1)).num ∗ owns (c : Thread nD τ) scM0_1 fullShare (accS m c (n - 1)).lhs ∗ owns (c : Thread nD τ) scM0_2 fullShare (accS m c (n - 1)).ps ∗ owns (c : Thread nD τ) scM0_3 fullShare (accS m c (n - 1)).ms ∗ owns (c : Thread nD τ) scM0_4 fullShare (accS m c (n - 1)).ng ∗ owns (c : Thread nD τ) scM0_5 fullShare (accS m c (n - 1)).fg) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (accS m c t.val)
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out (accS m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the tile's position in its batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 4 = 3
  · have h0 : ¬t.val % 4 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [accS_next m c t h0, PhiS_castSucc m c t, PhiS_pos m c _ hz]
    iintro ⟨⟨⟨HS0, HS1, HS2, HS3, HS4, HS5⟩, Hg⟩, Ho, ⟨%d0, H0⟩, ⟨%d1, H1⟩, ⟨%d2, H2⟩⟩
    iapply (runC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (accS m c (t.val - 1)) Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    iexact H2
  · rw [Dat.leavesExact_idle (dats m 0 c) 2 t (idleAt0_2 t (fun h => h1 ((hcond0_1 t).mp h))) (noFlush0_2 t (fun h => h1 ((hcond0_1 t).mp h)))]
    by_cases h0 : t.val % 4 = 0
    · rw [accS_first m c t h0]
      by_cases hz : t.val = 0
      · rw [PhiS_castSucc m c t, hz, show PhiS m c 0 = Pipeline.ΦA spec0 c from rfl, PhiA0_eq]
        iintro ⟨⟨⟨HS0, HS1, HS2, HS3, HS4, HS5⟩, Hg⟩, Ho, ⟨%d0, H0⟩, ⟨%d1, H1⟩, ⟨%d2, H2⟩⟩
        iapply (runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        iexists _; iexact H2
      · rw [PhiS_castSucc m c t, PhiS_pos m c _ hz]
        iintro ⟨⟨⟨HS0, HS1, HS2, HS3, HS4, HS5⟩, Hg⟩, Ho, ⟨%d0, H0⟩, ⟨%d1, H1⟩, ⟨%d2, H2⟩⟩
        iapply (runA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        iintro ⟨H0, H1, H2, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        iexists _; iexact H2
    · have hz : t.val ≠ 0 := fun h => h0 (by rw [h])
      rw [accS_next m c t h0, PhiS_castSucc m c t, PhiS_pos m c _ hz]
      iintro ⟨⟨⟨HS0, HS1, HS2, HS3, HS4, HS5⟩, Hg⟩, Ho, ⟨%d0, H0⟩, ⟨%d1, H1⟩, ⟨%d2, H2⟩⟩
      iapply (runB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) _ (accS m c (t.val - 1)) Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, show PhiS m c 0 = Pipeline.ΦA spec0 c from rfl]
  try exact Idealize.SL.BI.Entails.refl _

/-- After the last point the invariant gives the scratch buffers back at some contents. -/
theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val from rfl,
    PhiS_pos m c _ (by rw [Fin.val_last]; omega), PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run and the frame -/

set_option backward.isDefEq.respectTransparency.types false in
/-- Every weakly fair execution of the program terminates, nothing faulting, with every array of the pipeline at
    what the library computes from the proof data and every other buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.MaskValue.lean ====
/-
  The running sums of the mask-cost kernel read entry by entry over the extended reals. The scalar functions the body
  applies pointwise are named (the logistic, the stable softplus max(x,0) + log(1 + exp(-|x|)), the focal-negative term,
  the combined left factor of the second matrix product, a target word read as a signed integer); then each component of
  the zero state, of one tile's update and of the final cost block is given at an index as a plain finite sum or a
  closed expression of the sums, and last the four updates of one batch composed from zero.
-/
import proofs.«133761_j85890755985627_2_alg».proof.Proof.MaskAcc
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.MaskValue

open Idealize.ShloMosaic Idealize.ShloMosaic.ValueIdx Cert.KernelIdeal Cert.KernelIdeal.Gen Cert.KernelIdeal.MaskAcc

/-- The word for 1.0. -/
def one : EReal := Ideal.ofBits .f32 0x3F800000#32
/-- The word for 2.0. -/
def two : EReal := Ideal.ofBits .f32 0x40000000#32
/-- The word for 5.0. -/
def five : EReal := Ideal.ofBits .f32 0x40A00000#32
/-- The word for 2⁻¹³. -/
def cinv : EReal := Ideal.ofBits .f32 0x39000000#32

/-- The logistic function. -/
def sg (x : EReal) : EReal := Ideal.logistic x
/-- The softplus, in the numerically stable form the kernel uses: max(x,0) + log(1 + exp(-|x|)). -/
def sp (x : EReal) : EReal := max x 0 + Ideal.log1p (Ideal.exp (0 - max (x - 0) (-(x - 0))))
/-- The focal weight of the negative class times the softplus. -/
def fn (x : EReal) : EReal := sg x * sg x * sp x
/-- The left factor of the second matrix product. -/
def lf (x : EReal) : EReal := five * (0 - x) + five * ((one - sg x) * (one - sg x) * (sp x - x) - fn x)
/-- A target word read as a signed integer. -/
def tf (b : BitVec 32) : EReal := ((b.toInt : ℝ) : EReal)

theorem pay9_apply (x : Vec Ideal S1x256x2048 .f32) (n : Fin 256) (k : Fin 2048) :
    k0_pay9 (F := Ideal) x (ix2 n k) = x (ix3 0 n k) :=
  shapeCast_1ab_ab_apply x _ n k

theorem pay10_apply (t : Vec Ideal S1x256x2048 .i32) (n : Fin 256) (k : Fin 2048) :
    k0_pay10 (F := Ideal) t (ix2 n k) = tf (t (ix3 0 n k)) := by
  show Scalar.sitofp (F := Ideal) .f32 (shapeCast S256x2048 t shapeCasts_S1x256x2048_S256x2048 (ix2 n k)) = _
  rw [shapeCast_1ab_ab_apply t _ n k]
  rfl

theorem pay11_apply (x : Vec Ideal S1x256x2048 .f32) (n : Fin 256) (k : Fin 2048) :
    k0_pay11 (F := Ideal) x (ix2 n k) = sg (x (ix3 0 n k)) := by
  show Ideal.logistic (k0_pay9 (F := Ideal) x (ix2 n k)) = _
  rw [pay9_apply]; rfl

/-- A value is never "ordered and different" from itself. -/
theorem cmp_one_self (a : EReal) : Ideal.cmp .one a a = 0#1 := by
  simp [Ideal.cmp]

theorem pay12_apply (x : Vec Ideal S1x256x2048 .f32) (n : Fin 256) (k : Fin 2048) :
    k0_pay12 (F := Ideal) x (ix2 n k) = sp (x (ix3 0 n k)) := by
  unfold k0_pay12
  simp only [select_apply, cmpf_apply, Ideal.cmpf_def, cmp_one_self, select_zero]
  show max (k0_pay9 (F := Ideal) x (ix2 n k)) (Ideal.ofBits .f32 0x00000000#32)
      + Ideal.log1p (Ideal.exp (Ideal.ofBits .f32 0x00000000#32
          - max (k0_pay9 (F := Ideal) x (ix2 n k) - Ideal.ofBits .f32 0x00000000#32)
              (-(k0_pay9 (F := Ideal) x (ix2 n k) - Ideal.ofBits .f32 0x00000000#32)))) = _
  rw [pay9_apply, Ideal.ofBits_zero_f32]
  rfl

theorem pay13_apply (x : Vec Ideal S1x256x2048 .f32) (n : Fin 256) (k : Fin 2048) :
    k0_pay13 (F := Ideal) x (ix2 n k) = fn (x (ix3 0 n k)) := by
  show k0_pay11 (F := Ideal) x (ix2 n k) * k0_pay11 (F := Ideal) x (ix2 n k) * k0_pay12 (F := Ideal) x (ix2 n k) = _
  rw [pay11_apply, pay12_apply]; rfl

theorem pay14_apply (x : Vec Ideal S1x256x2048 .f32) (n : Fin 256) (k : Fin 2048) :
    k0_pay14 (F := Ideal) x (ix2 n k) = sg (x (ix3 0 n k)) := pay11_apply x n k

theorem pay15_apply (t : Vec Ideal S1x256x2048 .i32) (n : Fin 256) (k : Fin 2048) :
    k0_pay15 (F := Ideal) t (ix2 n k) = tf (t (ix3 0 n k)) := pay10_apply t n k

theorem pay16_apply (x : Vec Ideal S1x256x2048 .f32) (n : Fin 256) (k : Fin 2048) :
    k0_pay16 (F := Ideal) x (ix2 n k) = lf (x (ix3 0 n k)) := by
  show Ideal.ofBits .f32 0x40A00000#32 * (Ideal.ofBits .f32 0x00000000#32 - k0_pay9 (F := Ideal) x (ix2 n k))
      + Ideal.ofBits .f32 0x40A00000#32 *
        ((Ideal.ofBits .f32 0x3F800000#32 - k0_pay11 (F := Ideal) x (ix2 n k))
            * (Ideal.ofBits .f32 0x3F800000#32 - k0_pay11 (F := Ideal) x (ix2 n k))
            * (k0_pay12 (F := Ideal) x (ix2 n k) - k0_pay9 (F := Ideal) x (ix2 n k))
          - k0_pay13 (F := Ideal) x (ix2 n k)) = _
  rw [pay9_apply, pay11_apply, pay12_apply, pay13_apply, Ideal.ofBits_zero_f32]
  rfl

/-! ## The two layout readings the library lacks: a column broadcast along the rows, a vector cast to a column -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A lane sum and the matrix product, read at an index -/

/-- The sum over the 2048 lanes of a 256×2048 tile, cast to a column, at row `n`. -/
theorem laneSum_apply (v : FVec Ideal S256x2048 .f32) (hφ : FKind.Formats .f32)
    (hacc : (0x00000000#32 : BitVec 32) = FKind.add.neutral .f32 hφ) (n : Fin 256) :
    shapeCast S256x1 (multiReduction .add [1] S256 v 0x00000000#32 reduces_S256x2048_S256 hφ hacc) shapeCasts_S256_S256x1
        (ix2 n (0 : Fin 1)) = ∑ k : Fin 2048, v (ix2 n k) := by
  rw [shapeCast_a_a1_apply _ _ n 0, Ideal.multiReduction_add_single]
  refine Finset.sum_congr rfl fun k _ => congrArg v ?_
  funext a
  apply Fin.ext
  match a with
  | ⟨0, _⟩ => rfl
  | ⟨1, _⟩ => rfl

/-- The product of a 256×2048 tile with the transpose of another (both contract their lane axis), into a zero
    accumulator, at `(n, m)`. -/
theorem matmulNT_apply {φ₁ φ₂ : FTy} (A : FVec Ideal S256x2048 φ₁) (B : FVec Ideal S256x2048 φ₂) (n m : Fin 256) :
    matmul dot_S256x2048_S256x2048_S256x256_1_1_0_0_n_n none A B (constant (F := Ideal) S256x256 .f32 0x00000000#32) (ix2 n m)
      = ∑ k : Fin 2048, A (ix2 n k) * B (ix2 m k) := by
  show FloatOps.matmul dot_S256x2048_S256x2048_S256x256_1_1_0_0_n_n none A B (constant (F := Ideal) S256x256 .f32 0x00000000#32) (ix2 n m) = _
  rw [Ideal.matmul_constant_zero_apply,
    ← Equiv.sum_comp (contrEquiv1 dot_S256x2048_S256x2048_S256x256_1_1_0_0_n_n 2048 rfl rfl).symm]
  refine Finset.sum_congr rfl fun c _ => ?_
  have c2 := contrEquiv1_symm_val dot_S256x2048_S256x2048_S256x256_1_1_0_0_n_n 2048 rfl rfl c
  have l2 : dot_S256x2048_S256x2048_S256x256_1_1_0_0_n_n.lhsIdx (ix2 n m) ((contrEquiv1 _ 2048 rfl rfl).symm c) = ix2 n c := by
    funext ax; apply Fin.ext
    match ax with
    | ⟨0, _⟩ => simp [DotDims.lhsIdx, dot_S256x2048_S256x2048_S256x256_1_1_0_0_n_n]; rfl
    | ⟨1, _⟩ => simp [DotDims.lhsIdx, dot_S256x2048_S256x2048_S256x256_1_1_0_0_n_n]; exact c2
  have r2 : dot_S256x2048_S256x2048_S256x256_1_1_0_0_n_n.rhsIdx (ix2 n m) ((contrEquiv1 _ 2048 rfl rfl).symm c) = ix2 m c := by
    funext ax; apply Fin.ext
    match ax with
    | ⟨0, _⟩ => simp [DotDims.rhsIdx, dot_S256x2048_S256x2048_S256x256_1_1_0_0_n_n]; rfl
    | ⟨1, _⟩ => simp [DotDims.rhsIdx, dot_S256x2048_S256x2048_S256x256_1_1_0_0_n_n]; exact c2
  rw [l2, r2]

/-! ## (A) The zero state -/

theorem zero_num (j : S256x256.Idx) : (zero (F := Ideal)).num j = 0 := by
  show shapeCast S256x256 (broadcast S256x256 (Scalar.ofBits (F := Ideal) .f32 0x00000000#32)) shapeCasts_S256x256_S256x256 j = 0
  rw [shapeCast_self]; exact Ideal.ofBits_zero_f32
theorem zero_lhs (j : S256x256.Idx) : (zero (F := Ideal)).lhs j = 0 := by
  show shapeCast S256x256 (broadcast S256x256 (Scalar.ofBits (F := Ideal) .f32 0x00000000#32)) shapeCasts_S256x256_S256x256 j = 0
  rw [shapeCast_self]; exact Ideal.ofBits_zero_f32
theorem zero_ps (j : S256x1.Idx) : (zero (F := Ideal)).ps j = 0 := by
  show shapeCast S256x1 (broadcast S256x1 (Scalar.ofBits (F := Ideal) .f32 0x00000000#32)) shapeCasts_S256x1_S256x1 j = 0
  rw [shapeCast_self]; exact Ideal.ofBits_zero_f32
theorem zero_ms (j : S256x1.Idx) : (zero (F := Ideal)).ms j = 0 := by
  show shapeCast S256x1 (broadcast S256x1 (Scalar.ofBits (F := Ideal) .f32 0x00000000#32)) shapeCasts_S256x1_S256x1 j = 0
  rw [shapeCast_self]; exact Ideal.ofBits_zero_f32
theorem zero_ng (j : S256x1.Idx) : (zero (F := Ideal)).ng j = 0 := by
  show shapeCast S256x1 (broadcast S256x1 (Scalar.ofBits (F := Ideal) .f32 0x00000000#32)) shapeCasts_S256x1_S256x1 j = 0
  rw [shapeCast_self]; exact Ideal.ofBits_zero_f32
theorem zero_fg (j : S256x1.Idx) : (zero (F := Ideal)).fg j = 0 := by
  show shapeCast S256x1 (broadcast S256x1 (Scalar.ofBits (F := Ideal) .f32 0x00000000#32)) shapeCasts_S256x1_S256x1 j = 0
  rw [shapeCast_self]; exact Ideal.ofBits_zero_f32

/-! ## (B) One tile's update -/

theorem step_num (x : Vec Ideal S1x256x2048 .f32) (t : Vec Ideal S1x256x2048 .i32) (a : Acc Ideal) (n m : Fin 256) :
    (step x t a).num (ix2 n m) = (a.num (ix2 n m) : EReal) + ∑ k : Fin 2048, sg (x (ix3 0 n k)) * tf (t (ix3 0 m k)) := by
  have e : k0_pay17 (F := Ideal) (k0_pay14 x) (k0_pay15 t) a.num
      = addf a.num (matmul dot_S256x2048_S256x2048_S256x256_1_1_0_0_n_n none (k0_pay14 (F := Ideal) x) (k0_pay15 (F := Ideal) t)
          (constant (F := Ideal) S256x256 .f32 0x00000000#32)) := shapeCast_self _ _
  show k0_pay17 (F := Ideal) (k0_pay14 x) (k0_pay15 t) a.num (ix2 n m) = _
  rw [e, addf_apply, matmulNT_apply]
  exact congrArg (a.num (ix2 n m) + ·) (Finset.sum_congr rfl fun k _ => by rw [pay14_apply, pay15_apply])

theorem step_lhs (x : Vec Ideal S1x256x2048 .f32) (t : Vec Ideal S1x256x2048 .i32) (a : Acc Ideal) (n m : Fin 256) :
    (step x t a).lhs (ix2 n m) = (a.lhs (ix2 n m) : EReal) + ∑ k : Fin 2048, lf (x (ix3 0 n k)) * tf (t (ix3 0 m k)) := by
  have e : k0_pay18 (F := Ideal) (k0_pay15 t) (k0_pay16 x) a.lhs
      = addf a.lhs (matmul dot_S256x2048_S256x2048_S256x256_1_1_0_0_n_n none (k0_pay16 (F := Ideal) x) (k0_pay15 (F := Ideal) t)
          (constant (F := Ideal) S256x256 .f32 0x00000000#32)) := shapeCast_self _ _
  show k0_pay18 (F := Ideal) (k0_pay15 t) (k0_pay16 x) a.lhs (ix2 n m) = _
  rw [e, addf_apply, matmulNT_apply]
  exact congrArg (a.lhs (ix2 n m) + ·) (Finset.sum_congr rfl fun k _ => by rw [pay16_apply, pay15_apply])

theorem step_ps (x : Vec Ideal S1x256x2048 .f32) (t : Vec Ideal S1x256x2048 .i32) (a : Acc Ideal) (n : Fin 256) :
    (step x t a).ps (ix2 n (0 : Fin 1)) = (a.ps (ix2 n (0 : Fin 1)) : EReal) + ∑ k : Fin 2048, sg (x (ix3 0 n k)) := by
  have e : k0_pay19 (F := Ideal) (k0_pay11 x) a.ps
      = addf a.ps (shapeCast S256x1 (multiReduction .add [1] S256 (k0_pay11 (F := Ideal) x) 0x00000000#32 reduces_S256x2048_S256 (.inl rfl) rfl)
          shapeCasts_S256_S256x1) := shapeCast_self _ _
  show k0_pay19 (F := Ideal) (k0_pay11 x) a.ps (ix2 n (0 : Fin 1)) = _
  rw [e, addf_apply]
  exact congrArg (a.ps (ix2 n (0 : Fin 1)) + ·) ((laneSum_apply _ _ _ n).trans (Finset.sum_congr rfl fun k _ => pay11_apply x n k))

theorem step_ms (x : Vec Ideal S1x256x2048 .f32) (t : Vec Ideal S1x256x2048 .i32) (a : Acc Ideal) (n : Fin 256) :
    (step x t a).ms (ix2 n (0 : Fin 1)) = (a.ms (ix2 n (0 : Fin 1)) : EReal) + ∑ k : Fin 2048, tf (t (ix3 0 n k)) := by
  have e : k0_pay20 (F := Ideal) (k0_pay10 t) a.ms
      = addf a.ms (shapeCast S256x1 (multiReduction .add [1] S256 (k0_pay10 (F := Ideal) t) 0x00000000#32 reduces_S256x2048_S256 (.inl rfl) rfl)
          shapeCasts_S256_S256x1) := shapeCast_self _ _
  show k0_pay20 (F := Ideal) (k0_pay10 t) a.ms (ix2 n (0 : Fin 1)) = _
  rw [e, addf_apply]
  exact congrArg (a.ms (ix2 n (0 : Fin 1)) + ·) ((laneSum_apply _ _ _ n).trans (Finset.sum_congr rfl fun k _ => pay10_apply t n k))

theorem step_ng (x : Vec Ideal S1x256x2048 .f32) (t : Vec Ideal S1x256x2048 .i32) (a : Acc Ideal) (n : Fin 256) :
    (step x t a).ng (ix2 n (0 : Fin 1)) = (a.ng (ix2 n (0 : Fin 1)) : EReal) + ∑ k : Fin 2048, sp (x (ix3 0 n k)) := by
  have e : k0_pay21 (F := Ideal) (k0_pay12 x) a.ng
      = addf a.ng (shapeCast S256x1 (multiReduction .add [1] S256 (k0_pay12 (F := Ideal) x) 0x00000000#32 reduces_S256x2048_S256 (.inl rfl) rfl)
          shapeCasts_S256_S256x1) := shapeCast_self _ _
  show k0_pay21 (F := Ideal) (k0_pay12 x) a.ng (ix2 n (0 : Fin 1)) = _
  rw [e, addf_apply]
  exact congrArg (a.ng (ix2 n (0 : Fin 1)) + ·) ((laneSum_apply _ _ _ n).trans (Finset.sum_congr rfl fun k _ => pay12_apply x n k))

theorem step_fg (x : Vec Ideal S1x256x2048 .f32) (t : Vec Ideal S1x256x2048 .i32) (a : Acc Ideal) (n : Fin 256) :
    (step x t a).fg (ix2 n (0 : Fin 1)) = (a.fg (ix2 n (0 : Fin 1)) : EReal) + ∑ k : Fin 2048, fn (x (ix3 0 n k)) := by
  have e : k0_pay1 (F := Ideal) (k0_pay13 x) a.fg
      = addf a.fg (shapeCast S256x1 (multiReduction .add [1] S256 (k0_pay13 (F := Ideal) x) 0x00000000#32 reduces_S256x2048_S256 (.inl rfl) rfl)
          shapeCasts_S256_S256x1) := shapeCast_self _ _
  show k0_pay1 (F := Ideal) (k0_pay13 x) a.fg (ix2 n (0 : Fin 1)) = _
  rw [e, addf_apply]
  exact congrArg (a.fg (ix2 n (0 : Fin 1)) + ·) ((laneSum_apply _ _ _ n).trans (Finset.sum_congr rfl fun k _ => pay13_apply x n k))

/-! ## (C) The cost block from finished sums -/

theorem out_apply (a : Acc Ideal) (n m : Fin 256) :
    out a (ix3 (0 : Fin 1) n m)
      = two * (one - Ideal.div (two * a.num (ix2 n m) + one) ((a.ps (ix2 n (0 : Fin 1)) + a.ms (ix2 m (0 : Fin 1))) + one))
        + (a.lhs (ix2 n m) * cinv + ((five * a.ng (ix2 n (0 : Fin 1)) + five * a.fg (ix2 n (0 : Fin 1))) * cinv)) := by
  show k0_pay2 (F := Ideal) a.ms a.ps a.num a.ng a.fg a.lhs (ix3 (0 : Fin 1) n m) = _
  have ht : transpose S1x256 [1, 0] a.ms transposes_S256x1_p1_0_S1x256 (ix2 (0 : Fin 1) m) = a.ms (ix2 m (0 : Fin 1)) :=
    transpose_ix2_apply a.ms transposes_S256x1_p1_0_S1x256 (0 : Fin 1) m
  unfold k0_pay2
  simp only [shapeCast_ab_1ab_apply, addf_apply, mulf_apply, subf_apply, divf_apply, broadcast_apply, broadcastTo_a1_ab_apply,
    broadcastTo_1b_ab_apply, ht]
  rfl

/-! ## (D) Four tiles from zero -/

/-- The sums after a batch's four tiles. -/
def acc4 (X : Fin 4 → Vec Ideal S1x256x2048 .f32) (T : Fin 4 → Vec Ideal S1x256x2048 .i32) : Acc Ideal :=
  step (X 3) (T 3) (step (X 2) (T 2) (step (X 1) (T 1) (step (X 0) (T 0) zero)))

/-- Σ over tiles and lanes of sigmoid(row n) · target(row m). -/
def numS (X : Fin 4 → Vec Ideal S1x256x2048 .f32) (T : Fin 4 → Vec Ideal S1x256x2048 .i32) (n m : Fin 256) : EReal :=
  ∑ i : Fin 4, ∑ k : Fin 2048, sg (X i (ix3 0 n k)) * tf (T i (ix3 0 m k))
/-- Σ over tiles and lanes of the left factor(row n) · target(row m). -/
def lhsS (X : Fin 4 → Vec Ideal S1x256x2048 .f32) (T : Fin 4 → Vec Ideal S1x256x2048 .i32) (n m : Fin 256) : EReal :=
  ∑ i : Fin 4, ∑ k : Fin 2048, lf (X i (ix3 0 n k)) * tf (T i (ix3 0 m k))
/-- Σ over tiles and lanes of sigmoid(row n). -/
def psS (X : Fin 4 → Vec Ideal S1x256x2048 .f32) (n : Fin 256) : EReal := ∑ i : Fin 4, ∑ k : Fin 2048, sg (X i (ix3 0 n k))
/-- Σ over tiles and lanes of target(row m). -/
def msS (T : Fin 4 → Vec Ideal S1x256x2048 .i32) (m : Fin 256) : EReal := ∑ i : Fin 4, ∑ k : Fin 2048, tf (T i (ix3 0 m k))
/-- Σ over tiles and lanes of softplus(row n). -/
def ngS (X : Fin 4 → Vec Ideal S1x256x2048 .f32) (n : Fin 256) : EReal := ∑ i : Fin 4, ∑ k : Fin 2048, sp (X i (ix3 0 n k))
/-- Σ over tiles and lanes of the focal-negative term(row n). -/
def fgS (X : Fin 4 → Vec Ideal S1x256x2048 .f32) (n : Fin 256) : EReal := ∑ i : Fin 4, ∑ k : Fin 2048, fn (X i (ix3 0 n k))

theorem acc4_num (X : Fin 4 → Vec Ideal S1x256x2048 .f32) (T : Fin 4 → Vec Ideal S1x256x2048 .i32) (n m : Fin 256) :
    (acc4 X T).num (ix2 n m) = numS X T n m := by
  unfold acc4 numS
  rw [step_num, step_num, step_num, step_num, zero_num, zero_add, Fin.sum_univ_four]

theorem acc4_lhs (X : Fin 4 → Vec Ideal S1x256x2048 .f32) (T : Fin 4 → Vec Ideal S1x256x2048 .i32) (n m : Fin 256) :
    (acc4 X T).lhs (ix2 n m) = lhsS X T n m := by
  unfold acc4 lhsS
  rw [step_lhs, step_lhs, step_lhs, step_lhs, zero_lhs, zero_add, Fin.sum_univ_four]

theorem acc4_ps (X : Fin 4 → Vec Ideal S1x256x2048 .f32) (T : Fin 4 → Vec Ideal S1x256x2048 .i32) (n : Fin 256) :
    (acc4 X T).ps (ix2 n (0 : Fin 1)) = psS X n := by
  unfold acc4 psS
  rw [step_ps, step_ps, step_ps, step_ps, zero_ps, zero_add, Fin.sum_univ_four]

theorem acc4_ms (X : Fin 4 → Vec Ideal S1x256x2048 .f32) (T : Fin 4 → Vec Ideal S1x256x2048 .i32) (m : Fin 256) :
    (acc4 X T).ms (ix2 m (0 : Fin 1)) = msS T m := by
  unfold acc4 msS
  rw [step_ms, step_ms, step_ms, step_ms, zero_ms, zero_add, Fin.sum_univ_four]

theorem acc4_ng (X : Fin 4 → Vec Ideal S1x256x2048 .f32) (T : Fin 4 → Vec Ideal S1x256x2048 .i32) (n : Fin 256) :
    (acc4 X T).ng (ix2 n (0 : Fin 1)) = ngS X n := by
  unfold acc4 ngS
  rw [step_ng, step_ng, step_ng, step_ng, zero_ng, zero_add, Fin.sum_univ_four]

theorem acc4_fg (X : Fin 4 → Vec Ideal S1x256x2048 .f32) (T : Fin 4 → Vec Ideal S1x256x2048 .i32) (n : Fin 256) :
    (acc4 X T).fg (ix2 n (0 : Fin 1)) = fgS X n := by
  unfold acc4 fgS
  rw [step_fg, step_fg, step_fg, step_fg, zero_fg, zero_add, Fin.sum_univ_four]

/-- The cost block a batch's last tile writes, at `(0, n, m)`, from the batch's four tiles. -/
theorem out_acc4 (X : Fin 4 → Vec Ideal S1x256x2048 .f32) (T : Fin 4 → Vec Ideal S1x256x2048 .i32) (n m : Fin 256) :
    out (acc4 X T) (ix3 (0 : Fin 1) n m)
      = two * (one - Ideal.div (two * numS X T n m + one) ((psS X n + msS T m) + one))
        + (lhsS X T n m * cinv + ((five * ngS X n + five * fgS X n) * cinv)) := by
  rw [out_apply, acc4_num, acc4_lhs, acc4_ps, acc4_ms, acc4_ng, acc4_fg]

end Cert.KernelIdeal.MaskValue

end
-- ==== Proof.LibMaskAlgebra.lean ====
/-
  The algebra behind a matching-cost matrix whose cross-entropy and focal parts are folded into one
  contraction.

  For a prediction x write  p = 1/(1+e^(-x)),  neg = softplus x = max x 0 + log (1 + e^(-|x|))  and
  pos = softplus (-x).  Since  softplus (-x) = softplus x - x,  the two target-weighted sums
      ∑ pos·t + ∑ neg·(1-t)          and          ∑ (1-p)²·pos·t + ∑ p²·neg·(1-t)
  are  ∑ (-x)·t + ∑ neg  and  ∑ ((1-p)²·pos - p²·neg)·t + ∑ p²·neg : what multiplies the target is
  collected into one family, what does not is a plain row sum.  Over the reals this is distributivity;
  nothing is assumed about the targets t (they need not be 0 or 1).

  The extended reals are not a ring (a product does not distribute over a sum when an infinity meets a
  sum of opposite signs), so the identity is transferred to them only for families all of whose entries
  are real numbers: every such expression is the image of the same expression over ℝ.  The file also reads
  the operations of the extended-real instance on real arguments, names the constants that occur, and
  regroups a sum over 4 × 2048 tiled positions into a sum over 8192 positions.
-/
import Idealize.ShloMosaic.PureOps.Ideal
import Mathlib.Tactic
import Mathlib.Algebra.BigOperators.Fin
import Mathlib.Logic.Equiv.Fin.Basic

noncomputable section

namespace MaskAlgebra

open scoped BigOperators
open Idealize.ShloMosaic

/-! ### Over the reals -/

/-- The softplus of x written with a maximum and an absolute value. -/
def softplus (x : ℝ) : ℝ := max x 0 + Real.log (1 + Real.exp (-|x|))

/-- softplus (-x) = softplus x - x : the absolute value does not see the sign, and
    max (-x) 0 = max x 0 - x. -/
theorem softplus_neg (x : ℝ) :
    max (-x) 0 + Real.log (1 + Real.exp (-|-x|))
      = (max x 0 + Real.log (1 + Real.exp (-|x|))) - x := by
  rw [abs_neg]
  rcases le_total 0 x with h | h
  · rw [max_eq_right (by linarith), max_eq_left h]; ring
  · rw [max_eq_left (by linarith), max_eq_right h]; ring

/-- A real power with exponent 2 is the product of the base with itself, for every real base. -/
theorem rpow_two_eq_mul (y : ℝ) : Real.rpow y 2 = y * y := by
  show y ^ (2 : ℝ) = y * y
  rw [Real.rpow_two, sq]

/-- The folding identity over the reals, for any divisor d (d = 0 included: both sides then divide by
    zero in the same way): the cross-entropy and focal sums against a target t and its complement are
    one sum against t plus two row sums. -/
theorem fold_real {ι : Type*} (s : Finset ι) (x p neg t : ι → ℝ) (d : ℝ) :
    5 * ((∑ i ∈ s, (neg i - x i) * t i + ∑ i ∈ s, neg i * (1 - t i)) / d)
      + 5 * ((∑ i ∈ s, ((1 - p i) ^ 2 * (neg i - x i)) * t i
              + ∑ i ∈ s, (p i ^ 2 * neg i) * (1 - t i)) / d)
    = (∑ i ∈ s, (5 * (0 - x i)
          + 5 * ((1 - p i) * (1 - p i) * (neg i - x i) - p i * p i * neg i)) * t i) * (1 / d)
      + (5 * ∑ i ∈ s, neg i + 5 * ∑ i ∈ s, p i * p i * neg i) * (1 / d) := by
  have key : ∀ i, 5 * ((neg i - x i) * t i + neg i * (1 - t i))
        + 5 * (((1 - p i) ^ 2 * (neg i - x i)) * t i + (p i ^ 2 * neg i) * (1 - t i))
      = (5 * (0 - x i) + 5 * ((1 - p i) * (1 - p i) * (neg i - x i) - p i * p i * neg i)) * t i
        + (5 * neg i + 5 * (p i * p i * neg i)) := fun i => by ring
  have hL : 5 * ((∑ i ∈ s, (neg i - x i) * t i + ∑ i ∈ s, neg i * (1 - t i)) / d)
      + 5 * ((∑ i ∈ s, ((1 - p i) ^ 2 * (neg i - x i)) * t i
              + ∑ i ∈ s, (p i ^ 2 * neg i) * (1 - t i)) / d)
      = (∑ i ∈ s, (5 * ((neg i - x i) * t i + neg i * (1 - t i))
        + 5 * (((1 - p i) ^ 2 * (neg i - x i)) * t i + (p i ^ 2 * neg i) * (1 - t i)))) * (1 / d) := by
    simp only [Finset.sum_add_distrib, ← Finset.mul_sum]; ring
  rw [hL, Finset.sum_congr rfl (fun i _ => key i)]
  simp only [Finset.sum_add_distrib, ← Finset.mul_sum]; ring

/-! ### Real members of the extended reals -/

/-- An extended real that is a real number. -/
def IsReal (a : EReal) : Prop := ∃ r : ℝ, a = (r : EReal)

/-- A real number is real. -/
theorem isReal_coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- A real member is neither infinity. -/
theorem IsReal.ne_bot_top {a : EReal} (h : IsReal a) : a ≠ ⊥ ∧ a ≠ ⊤ := by
  obtain ⟨r, rfl⟩ := h
  exact ⟨EReal.coe_ne_bot r, EReal.coe_ne_top r⟩

/-- An extended real that is neither infinity is real. -/
theorem isReal_of_ne {a : EReal} (hb : a ≠ ⊥) (ht : a ≠ ⊤) : IsReal a :=
  ⟨a.toReal, (EReal.coe_toReal ht hb).symm⟩

/-- Sums of reals are real. -/
theorem IsReal.add {a b : EReal} (ha : IsReal a) (hb : IsReal b) : IsReal (a + b) := by
  obtain ⟨r, rfl⟩ := ha; obtain ⟨s, rfl⟩ := hb
  exact ⟨r + s, (EReal.coe_add r s).symm⟩

/-- Differences of reals are real. -/
theorem IsReal.sub {a b : EReal} (ha : IsReal a) (hb : IsReal b) : IsReal (a - b) := by
  obtain ⟨r, rfl⟩ := ha; obtain ⟨s, rfl⟩ := hb
  exact ⟨r - s, (EReal.coe_sub r s).symm⟩

/-- Products of reals are real. -/
theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- The opposite of a real is real. -/
theorem IsReal.neg {a : EReal} (ha : IsReal a) : IsReal (-a) := by
  obtain ⟨r, rfl⟩ := ha
  exact ⟨-r, (EReal.coe_neg r).symm⟩

/-- The coercion of the reals into the extended reals commutes with the maximum. -/
theorem coe_max (r s : ℝ) : max (r : EReal) (s : EReal) = ((max r s : ℝ) : EReal) :=
  (EReal.coe_strictMono.monotone.map_max).symm

/-- The maximum of two reals is real. -/
theorem IsReal.max {a b : EReal} (ha : IsReal a) (hb : IsReal b) : IsReal (max a b) := by
  obtain ⟨r, rfl⟩ := ha; obtain ⟨s, rfl⟩ := hb
  exact ⟨Max.max r s, coe_max r s⟩

/-- The absolute value, written max a (-a), of a real number. -/
theorem abs_coe (r : ℝ) : max (r : EReal) (-(r : EReal)) = ((|r| : ℝ) : EReal) := by
  rw [← EReal.coe_neg, coe_max]; rfl

/-- The absolute value max a (-a) of a real is real. -/
theorem IsReal.abs {a : EReal} (ha : IsReal a) : IsReal (Max.max a (-a)) :=
  ha.max ha.neg

/-- The coercion of the reals into the extended reals commutes with a finite sum. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A family of real members is the image of a real family. -/
theorem exists_real_fun {ι : Type*} (y : ι → EReal) (hy : ∀ i, IsReal (y i)) :
    ∃ y' : ι → ℝ, y = fun i => ((y' i : ℝ) : EReal) := by
  choose y' hy' using hy
  exact ⟨y', funext hy'⟩

/-! ### The operations of the extended-real instance on real arguments -/

/-- The exponential of a real is real. -/
theorem IsReal.exp {a : EReal} (ha : IsReal a) : IsReal (Ideal.exp a) := by
  obtain ⟨r, rfl⟩ := ha
  exact ⟨Real.exp r, Ideal.exp_coe r⟩

/-- log (1 + r) for a real r > -1, read in the extended reals. -/
theorem log1p_coe {r : ℝ} (hr : -1 < r) :
    Ideal.log1p (r : EReal) = ((Real.log (1 + r) : ℝ) : EReal) := by
  have h : (1 : EReal) + (r : EReal) = ((1 + r : ℝ) : EReal) := by
    rw [EReal.coe_add, EReal.coe_one]
  rw [Ideal.log1p, h, Ideal.log_coe, if_neg (by linarith)]

/-- log (1 + e^r), read in the extended reals. -/
theorem log1p_exp_coe (r : ℝ) :
    Ideal.log1p (Ideal.exp (r : EReal)) = ((Real.log (1 + Real.exp r) : ℝ) : EReal) := by
  rw [Ideal.exp_coe, log1p_coe (by linarith [Real.exp_pos r])]

/-- log (1 + r) is real for a real r > -1. -/
theorem isReal_log1p {r : ℝ} (hr : -1 < r) : IsReal (Ideal.log1p (r : EReal)) :=
  ⟨_, log1p_coe hr⟩

/-- log (1 + e^a) is real for a real a. -/
theorem IsReal.log1p_exp {a : EReal} (ha : IsReal a) : IsReal (Ideal.log1p (Ideal.exp a)) := by
  obtain ⟨r, rfl⟩ := ha
  exact ⟨_, log1p_exp_coe r⟩

/-- The logistic function of a real is real. -/
theorem IsReal.logistic {a : EReal} (ha : IsReal a) : IsReal (Ideal.logistic a) := by
  obtain ⟨r, rfl⟩ := ha
  exact ⟨_, Ideal.logistic_coe r⟩

/-- The quotient of two reals, the divisor not zero, read in the extended reals. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The quotient of a real by a nonzero real is real. -/
theorem IsReal.div_coe {a : EReal} (ha : IsReal a) {n : ℝ} (hn : n ≠ 0) :
    IsReal (Ideal.div a (n : EReal)) := by
  obtain ⟨r, rfl⟩ := ha
  exact ⟨_, div_coe_coe r hn⟩

/-- A real power of a real is real. -/
theorem IsReal.pow {a b : EReal} (ha : IsReal a) (hb : IsReal b) : IsReal (Ideal.pow a b) := by
  obtain ⟨r, rfl⟩ := ha; obtain ⟨s, rfl⟩ := hb
  exact ⟨_, Ideal.pow_coe_coe r s⟩

/-- The power with exponent 2 of a real, read in the extended reals, is the square. -/
theorem pow_two_coe (r : ℝ) : Ideal.pow (r : EReal) ((2 : ℝ) : EReal) = ((r * r : ℝ) : EReal) := by
  rw [Ideal.pow_coe_coe, rpow_two_eq_mul]

/-- The softplus max a 0 + log (1 + e^(-|a|)) of a real, read in the extended reals. -/
theorem softplus_coe (r : ℝ) :
    max (r : EReal) 0 + Ideal.log1p (Ideal.exp (-(max (r : EReal) (-(r : EReal)))))
      = ((softplus r : ℝ) : EReal) := by
  rw [abs_coe, ← EReal.coe_neg, log1p_exp_coe, ← EReal.coe_zero, coe_max, ← EReal.coe_add]
  rfl

/-- The softplus of the opposite of a real is the softplus minus the real, in the extended reals. -/
theorem softplus_neg_coe (r : ℝ) :
    max (-(r : EReal)) 0 + Ideal.log1p (Ideal.exp (-(max (-(r : EReal)) (-(-(r : EReal))))))
      = (max (r : EReal) 0 + Ideal.log1p (Ideal.exp (-(max (r : EReal) (-(r : EReal)))))) - (r : EReal) := by
  rw [softplus_coe, ← EReal.coe_neg, softplus_coe, ← EReal.coe_sub]
  exact congrArg _ (softplus_neg r)

/-! ### The folding identity in the extended reals -/

/-- The folding identity over the reals with the squares written as products. -/
theorem fold_real_mul {ι : Type*} (s : Finset ι) (x p neg t : ι → ℝ) (d : ℝ) :
    5 * ((∑ i ∈ s, (neg i - x i) * t i + ∑ i ∈ s, neg i * (1 - t i)) / d)
      + 5 * ((∑ i ∈ s, ((1 - p i) * (1 - p i) * (neg i - x i)) * t i
              + ∑ i ∈ s, (p i * p i * neg i) * (1 - t i)) / d)
    = (∑ i ∈ s, (5 * (0 - x i)
          + 5 * ((1 - p i) * (1 - p i) * (neg i - x i) - p i * p i * neg i)) * t i) * (1 / d)
      + (5 * ∑ i ∈ s, neg i + 5 * ∑ i ∈ s, p i * p i * neg i) * (1 / d) := by
  simpa only [sq] using fold_real s x p neg t d

/-- The folding identity in the extended reals, for families all of whose entries are real. -/
theorem fold_ereal {ι : Type*} (s : Finset ι) (X P NEG T : ι → EReal)
    (hX : ∀ i, IsReal (X i)) (hP : ∀ i, IsReal (P i)) (hN : ∀ i, IsReal (NEG i))
    (hT : ∀ i, IsReal (T i)) {d : ℝ} (hd : d ≠ 0) :
    ((5 : ℝ) : EReal) * Ideal.div (∑ i ∈ s, (NEG i - X i) * T i + ∑ i ∈ s, NEG i * (1 - T i)) (d : EReal)
      + ((5 : ℝ) : EReal) * Ideal.div (∑ i ∈ s, (Ideal.pow (1 - P i) ((2 : ℝ) : EReal) * (NEG i - X i)) * T i
              + ∑ i ∈ s, (Ideal.pow (P i) ((2 : ℝ) : EReal) * NEG i) * (1 - T i)) (d : EReal)
    = (∑ i ∈ s, (((5 : ℝ) : EReal) * (0 - X i)
          + ((5 : ℝ) : EReal) * ((1 - P i) * (1 - P i) * (NEG i - X i) - P i * P i * NEG i)) * T i)
          * ((1 / d : ℝ) : EReal)
      + (((5 : ℝ) : EReal) * ∑ i ∈ s, NEG i + ((5 : ℝ) : EReal) * ∑ i ∈ s, P i * P i * NEG i)
          * ((1 / d : ℝ) : EReal) := by
  obtain ⟨x, rfl⟩ := exists_real_fun X hX
  obtain ⟨p, rfl⟩ := exists_real_fun P hP
  obtain ⟨neg, rfl⟩ := exists_real_fun NEG hN
  obtain ⟨t, rfl⟩ := exists_real_fun T hT
  simp only [← EReal.coe_one, ← EReal.coe_zero, ← EReal.coe_sub, pow_two_coe, ← EReal.coe_mul,
    ← EReal.coe_add, coe_sum, div_coe_coe _ hd]
  exact congrArg _ (fold_real_mul s x p neg t d)

/-! ### The constants -/

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of 5.0 denotes 5. -/
theorem ofBits_five : Ideal.ofBits .f32 0x40A00000#32 = ((5 : ℝ) : EReal) := by
  simp [Ideal.ofBits, Ideal.ieee, -EReal.coe_mul]; norm_num

/-- The pattern of 8192.0 denotes 8192. -/
theorem ofBits_8192 : Ideal.ofBits .f32 0x46000000#32 = ((8192 : ℝ) : EReal) := by
  simp [Ideal.ofBits, Ideal.ieee, -EReal.coe_mul]; norm_num

/-- The pattern of 2⁻¹³ denotes 1/8192. -/
theorem ofBits_inv_8192 : Ideal.ofBits .f32 0x39000000#32 = ((1 / 8192 : ℝ) : EReal) := by
  simp [Ideal.ofBits, Ideal.ieee, -EReal.coe_mul]; norm_num

/-! ### Tiled sums -/

/-- A sum over 4 tiles of 2048 consecutive positions is the sum over the 8192 positions, in any additive
    commutative monoid (nothing is assumed finite). -/
theorem sum_tiles {M : Type*} [AddCommMonoid M] (a b : ℕ) (f : ℕ → M) :
    ∑ j : Fin a, ∑ k : Fin b, f (b * j.val + k.val) = ∑ c : Fin (a * b), f c.val := by
  rw [← Fintype.sum_prod_type' (f := fun (j : Fin a) (k : Fin b) => f (b * j.val + k.val))]
  refine Fintype.sum_equiv finProdFinEquiv _ _ ?_
  rintro ⟨j, k⟩
  show f (b * j.val + k.val) = f (finProdFinEquiv (j, k)).val
  congr 1
  simp only [finProdFinEquiv_apply_val]
  rw [Nat.add_comm]

end MaskAlgebra

end
-- ==== Proof.MaskBlocks.lean ====
/-
  From column tiles to whole rows. One batch's row of 8192 positions is read by the kernel as four consecutive tiles
  of 2048; the sums the four updates accumulate, each a double sum over (tile, position in the tile), are regrouped
  into single sums over the 8192 positions of the row, and the batch's cost block is restated over those row sums.
-/
import proofs.«133761_j85890755985627_2_alg».proof.Proof.MaskValue
import proofs.«133761_j85890755985627_2_alg».proof.Proof.LibMaskAlgebra

noncomputable section

open scoped BigOperators

namespace Cert.KernelIdeal.MaskBlocks

open Idealize.ShloMosaic Idealize.ShloMosaic.ValueIdx Cert.KernelIdeal Cert.KernelIdeal.Gen Cert.KernelIdeal.MaskAcc
  Cert.KernelIdeal.MaskValue

/-- Position `k` of tile `i` is position `2048·i + k` of the row. -/
theorem tile_lt (i : Fin 4) (k : Fin 2048) : 2048 * i.val + k.val < 8192 := by
  have := i.isLt; have := k.isLt; omega

/-- Tile `i` (of 4, 2048 columns each) of batch `b` of a whole `8 × 256 × 8192` array: entry `(u, r, k)` of the
    tile is entry `(b, r, 2048·i + k)` of the array. -/
def tile {α : Type} (A : S8x256x8192.Idx → α) (b : Fin 8) (i : Fin 4) : S1x256x2048.Idx → α :=
  fun y => A (ix3 b (y 1 : Fin 256) (⟨2048 * i.val + (y 2 : Fin 2048).val, tile_lt i (y 2 : Fin 2048)⟩ : Fin 8192))

/-- The tile at an index given by coordinates. -/
theorem tile_ix3 {α : Type} (A : S8x256x8192.Idx → α) (b : Fin 8) (i : Fin 4) (u : Fin 1) (r : Fin 256) (k : Fin 2048) :
    tile A b i (ix3 u r k) = A (ix3 b r ⟨2048 * i.val + k.val, tile_lt i k⟩) := rfl

/-- The tile at `y` is the array at any index with the coordinates `(b, y₁, 2048·i + y₂)`. -/
theorem tile_eq_of_val {α : Type} (A : S8x256x8192.Idx → α) (b : Fin 8) (i : Fin 4) (y : S1x256x2048.Idx) (j : S8x256x8192.Idx)
    (h0 : (j 0).val = b.val) (h1 : (j 1).val = (y 1).val) (h2 : (j 2).val = 2048 * i.val + (y 2).val) :
    tile A b i y = A j := by
  unfold tile
  refine congrArg A (funext fun a => Fin.ext ?_)
  match a with
  | ⟨0, _⟩ => exact h0.symm
  | ⟨1, _⟩ => exact h1.symm
  | ⟨2, _⟩ => exact h2.symm

/-- A double sum over (tile, position in the tile) is the sum over the row's 8192 positions. -/
theorem sum_tile_rows {M : Type*} [AddCommMonoid M] (g : Fin 8192 → M) :
    ∑ i : Fin 4, ∑ k : Fin 2048, g ⟨2048 * i.val + k.val, tile_lt i k⟩ = ∑ c : Fin 8192, g c := by
  have h := MaskAlgebra.sum_tiles 4 2048 (fun c => if h : c < 8192 then g ⟨c, h⟩ else 0)
  have hl : ∑ i : Fin 4, ∑ k : Fin 2048, g ⟨2048 * i.val + k.val, tile_lt i k⟩
      = ∑ j : Fin 4, ∑ k : Fin 2048, (fun c => if h : c < 8192 then g ⟨c, h⟩ else 0) (2048 * j.val + k.val) :=
    Finset.sum_congr rfl fun i _ => Finset.sum_congr rfl fun k _ => by
      show g _ = dite (2048 * i.val + k.val < 8192) (fun h => g ⟨2048 * i.val + k.val, h⟩) (fun _ => 0)
      rw [dif_pos (tile_lt i k)]
  have hr : ∑ c : Fin (4 * 2048), (fun c => if h : c < 8192 then g ⟨c, h⟩ else 0) c.val = ∑ c : Fin 8192, g c :=
    Finset.sum_congr rfl fun c _ => by
      show dite (c.val < 8192) (fun h => g ⟨c.val, h⟩) (fun _ => 0) = g c
      rw [dif_pos c.isLt]
  exact hl.trans (h.trans hr)

/-! ## The six sums of a batch over its whole rows -/

variable (P : Vec Ideal S8x256x8192 .f32) (Q : Vec Ideal S8x256x8192 .i32)

/-- Σ over the row of sigmoid(prediction row n) · target(row m). -/
def numR (b : Fin 8) (n m : Fin 256) : EReal := ∑ c : Fin 8192, sg (P (ix3 b n c)) * tf (Q (ix3 b m c))
/-- Σ over the row of the left factor(prediction row n) · target(row m). -/
def lhsR (b : Fin 8) (n m : Fin 256) : EReal := ∑ c : Fin 8192, lf (P (ix3 b n c)) * tf (Q (ix3 b m c))
/-- Σ over the row of sigmoid(prediction row n). -/
def psR (b : Fin 8) (n : Fin 256) : EReal := ∑ c : Fin 8192, sg (P (ix3 b n c))
/-- Σ over the row of target(row m). -/
def msR (b : Fin 8) (m : Fin 256) : EReal := ∑ c : Fin 8192, tf (Q (ix3 b m c))
/-- Σ over the row of softplus(prediction row n). -/
def ngR (b : Fin 8) (n : Fin 256) : EReal := ∑ c : Fin 8192, sp (P (ix3 b n c))
/-- Σ over the row of the focal-negative term(prediction row n). -/
def fgR (b : Fin 8) (n : Fin 256) : EReal := ∑ c : Fin 8192, fn (P (ix3 b n c))

theorem numS_tile (b : Fin 8) (n m : Fin 256) : numS (tile P b) (tile Q b) n m = numR P Q b n m := by
  unfold numS numR
  exact sum_tile_rows (fun c => sg (P (ix3 b n c)) * tf (Q (ix3 b m c)))
theorem lhsS_tile (b : Fin 8) (n m : Fin 256) : lhsS (tile P b) (tile Q b) n m = lhsR P Q b n m := by
  unfold lhsS lhsR
  exact sum_tile_rows (fun c => lf (P (ix3 b n c)) * tf (Q (ix3 b m c)))
theorem psS_tile (b : Fin 8) (n : Fin 256) : psS (tile P b) n = psR P b n := by
  unfold psS psR
  exact sum_tile_rows (fun c => sg (P (ix3 b n c)))
theorem msS_tile (b : Fin 8) (m : Fin 256) : msS (tile Q b) m = msR Q b m := by
  unfold msS msR
  exact sum_tile_rows (fun c => tf (Q (ix3 b m c)))
theorem ngS_tile (b : Fin 8) (n : Fin 256) : ngS (tile P b) n = ngR P b n := by
  unfold ngS ngR
  exact sum_tile_rows (fun c => sp (P (ix3 b n c)))
theorem fgS_tile (b : Fin 8) (n : Fin 256) : fgS (tile P b) n = fgR P b n := by
  unfold fgS fgR
  exact sum_tile_rows (fun c => fn (P (ix3 b n c)))

/-- The cost block of batch `b` at `(0, n, m)`, over the whole rows. -/
theorem out_tiles (b : Fin 8) (n m : Fin 256) :
    out (acc4 (tile P b) (tile Q b)) (ix3 (0 : Fin 1) n m)
      = two * (one - Ideal.div (two * numR P Q b n m + one) ((psR P b n + msR Q b m) + one))
        + (lhsR P Q b n m * cinv + ((five * ngR P b n + five * fgR P b n) * cinv)) := by
  rw [out_acc4, numS_tile, lhsS_tile, psS_tile, msS_tile, ngS_tile, fgS_tile]

/-! ## The four literal words as real numbers -/

theorem one_eq : one = ((1 : ℝ) : EReal) := MaskAlgebra.ofBits_one
theorem two_eq : two = ((2 : ℝ) : EReal) := MaskAlgebra.ofBits_two
theorem five_eq : five = ((5 : ℝ) : EReal) := MaskAlgebra.ofBits_five
theorem cinv_eq : cinv = ((1 / 8192 : ℝ) : EReal) := MaskAlgebra.ofBits_inv_8192

end Cert.KernelIdeal.MaskBlocks

end
-- ==== Proof.KIFinal.lean ====
/-
  From blocks to the array, at the ideal instance. The grid runs over (batch b, column tile i) in row-major order,
  point 4·b + i; the prediction and target windows at that point hold tile i of batch b's rows, the output window's
  block is batch b's whole 256 × 256 cost matrix, written back at the batch's last tile only. So after the run
  the output array holds, at (b, n, m), the cost block computed from the sums of batch b's four tiles: the eight
  written-back blocks tile the array.
-/
import proofs.«133761_j85890755985627_2_alg».proof.Proof.KIFrame
import proofs.«133761_j85890755985627_2_alg».proof.Proof.MaskBlocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.MaskAcc (Acc step zero out accAt accAt_last)
open Cert.KernelIdeal.MaskValue (acc4)
open Cert.KernelIdeal.MaskBlocks (tile tile_eq_of_val)

variable (m : (ℓ : Loc nD τ sig) → Buf (Elt Ideal) ℓ) (ρ : Dev nD → PrngReg)

/-- The windows' block indices at grid point `t`: batch `t / 4`, column tile `t % 4`. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- The prediction array and the target array as the region finds them. -/
abbrev Parr (c : Dev nD) : Vec Ideal S8x256x8192 .f32 := V m c main_arg0
abbrev Qarr (c : Dev nD) : Vec Ideal S8x256x8192 .i32 := V m c main_arg5

/-- The prediction window's block at point 4·b + i is tile i of batch b. -/
theorem iblk0_eq (c : Dev nD) (t : Fin cfg0.N) (b : Fin 8) (i : Fin 4) (hb : t.val / 4 = b.val) (hi : t.val % 4 = i.val) :
    iblk m c 0 t = tile (Parr m c) b i := by
  obtain ⟨e0, e1, e2, -⟩ := idx_facts t
  funext y
  show V m c main_arg0 (((cfg0.win 0).blk t).view.emb y) = tile (Parr m c) b i y
  refine (tile_eq_of_val (Parr m c) b i y _ ?_ ?_ ?_).symm
  · show win0_0.index t (0 : Fin 3) * 1 + 1 * (y 0).val = b.val
    have hy : (y 0).val < 1 := (y 0).isLt
    omega
  · show win0_0.index t (1 : Fin 3) * 256 + 1 * (y 1).val = (y 1).val
    omega
  · show win0_0.index t (2 : Fin 3) * 2048 + 1 * (y 2).val = 2048 * i.val + (y 2).val
    omega

/-- The target window's block at point 4·b + i is tile i of batch b. -/
theorem iblk1_eq (c : Dev nD) (t : Fin cfg0.N) (b : Fin 8) (i : Fin 4) (hb : t.val / 4 = b.val) (hi : t.val % 4 = i.val) :
    iblk m c 1 t = tile (Qarr m c) b i := by
  obtain ⟨-, -, -, e0, e1, e2, -⟩ := idx_facts t
  funext y
  show V m c main_arg5 (((cfg0.win 1).blk t).view.emb y) = tile (Qarr m c) b i y
  refine (tile_eq_of_val (Qarr m c) b i y _ ?_ ?_ ?_).symm
  · show win0_1.index t (0 : Fin 3) * 1 + 1 * (y 0).val = b.val
    have hy : (y 0).val < 1 := (y 0).isLt
    omega
  · show win0_1.index t (1 : Fin 3) * 256 + 1 * (y 1).val = (y 1).val
    omega
  · show win0_1.index t (2 : Fin 3) * 2048 + 1 * (y 2).val = 2048 * i.val + (y 2).val
    omega

theorem xb_tile (c : Dev nD) (b : Fin 8) (i : Fin 4) : xb m c (4 * b.val + i.val) = tile (Parr m c) b i := by
  have h : 4 * b.val + i.val < cfg0.N := by rw [show cfg0.N = 32 from N_0]; omega
  rw [show xb m c (4 * b.val + i.val) = iblk m c 0 ⟨_, h⟩ from by unfold xb; rw [dif_pos h]]
  exact iblk0_eq m c ⟨_, h⟩ b i (by show (4 * b.val + i.val) / 4 = b.val; omega) (by show (4 * b.val + i.val) % 4 = i.val; omega)

theorem tb_tile (c : Dev nD) (b : Fin 8) (i : Fin 4) : tb m c (4 * b.val + i.val) = tile (Qarr m c) b i := by
  have h : 4 * b.val + i.val < cfg0.N := by rw [show cfg0.N = 32 from N_0]; omega
  rw [show tb m c (4 * b.val + i.val) = iblk m c 1 ⟨_, h⟩ from by unfold tb; rw [dif_pos h]]
  exact iblk1_eq m c ⟨_, h⟩ b i (by show (4 * b.val + i.val) / 4 = b.val; omega) (by show (4 * b.val + i.val) % 4 = i.val; omega)

/-- After a batch's last tile the six sums are the four updates of the batch's own tiles from zero. -/
theorem accS_last (c : Dev nD) (b : Fin 8) :
    accS m c (4 * b.val + 3) = acc4 (tile (Parr m c) b) (tile (Qarr m c) b) := by
  unfold accS acc4
  rw [accAt_last]
  rw [show xb m c (4 * b.val + 3) = tile (Parr m c) b 3 from xb_tile m c b 3,
    show xb m c (4 * b.val + 2) = tile (Parr m c) b 2 from xb_tile m c b 2,
    show xb m c (4 * b.val + 1) = tile (Parr m c) b 1 from xb_tile m c b 1,
    show xb m c (4 * b.val) = tile (Parr m c) b 0 from xb_tile m c b 0,
    show tb m c (4 * b.val + 3) = tile (Qarr m c) b 3 from tb_tile m c b 3,
    show tb m c (4 * b.val + 2) = tile (Qarr m c) b 2 from tb_tile m c b 2,
    show tb m c (4 * b.val + 1) = tile (Qarr m c) b 1 from tb_tile m c b 1,
    show tb m c (4 * b.val) = tile (Qarr m c) b 0 from tb_tile m c b 0]

/-- What the output array ends holding: at (b, n, m) the cost computed from batch b's finished sums. -/
def Gout (c : Dev nD) : S8x256x256.Idx → Elt Ideal .f32 := fun j =>
  out (acc4 (tile (Parr m c) (j 0 : Fin 8)) (tile (Qarr m c) (j 0 : Fin 8))) (ix3 (0 : Fin 1) (j 1 : Fin 256) (j 2 : Fin 256))

/-- What a batch's last point writes back is that batch's block of `Gout`. -/
theorem flushed2_eq (c : Dev nD) (t : Fin cfg0.N) (hf : (cfg0.win 2).flush t = true) :
    (dats m 0 c).flushed 2 t = ((cfg0.win 2).blk t).view.read (Elt Ideal) (Gout m c) := by
  have h3 : t.val % 4 = 3 := (flush0_2 t).mp hf
  have hN : t.val < 32 := lt_of_lt_of_eq t.isLt (show cfg0.N = 32 from N_0)
  obtain ⟨-, -, -, -, -, -, e0, e1, e2⟩ := idx_facts t
  show (cfg0.win 2).cut (grid0.coords t) ((dats m 0 c).after 2 t) = _
  rw [after0_2]
  have hb : t.val / 4 < 8 := by omega
  have ht : t.val = 4 * (⟨t.val / 4, hb⟩ : Fin 8).val + 3 := by show t.val = 4 * (t.val / 4) + 3; omega
  rw [ht, accS_last m c ⟨t.val / 4, hb⟩]
  funext (y : S1x256x256.Idx)
  show out (acc4 (tile (Parr m c) ⟨t.val / 4, hb⟩) (tile (Qarr m c) ⟨t.val / 4, hb⟩)) y
    = Gout m c (((cfg0.win 2).blk t).view.emb y)
  unfold Gout
  have h0 : ((((cfg0.win 2).blk t).view.emb y) 0 : Fin 8) = ⟨t.val / 4, hb⟩ := by
    apply Fin.ext
    show win0_2.index t (0 : Fin 3) * 1 + 1 * (y 0).val = t.val / 4
    have hy : (y 0).val < 1 := (y 0).isLt
    omega
  have h1 : ((((cfg0.win 2).blk t).view.emb y) 1 : Fin 256) = (y 1 : Fin 256) := by
    apply Fin.ext
    show win0_2.index t (1 : Fin 3) * 256 + 1 * (y 1).val = (y 1).val
    omega
  have h2 : ((((cfg0.win 2).blk t).view.emb y) 2 : Fin 256) = (y 2 : Fin 256) := by
    apply Fin.ext
    show win0_2.index t (2 : Fin 3) * 256 + 1 * (y 2).val = (y 2).val
    omega
  have hy0 : (y 0 : Fin 1) = (0 : Fin 1) := Fin.ext (by have h : (y 0).val < 1 := (y 0).isLt; show (y 0).val = 0; omega)
  rw [h0, h1, h2]
  exact congrArg _ ((eq_ix3 y).trans (congrArg (fun z : Fin 1 => ix3 z (y 1 : Fin 256) (y 2 : Fin 256)) hy0))

/-- Every index of the output array lies in the block of its batch's last point. -/
theorem covered2 (i : S8x256x256.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 256 := (i 2).isLt
  have hN : cfg0.N = 32 := N_0
  have hlt : 4 * (i 0).val + 3 < cfg0.N := by omega
  refine ⟨⟨4 * (i 0).val + 3, hlt⟩, (flush0_2 _).mpr (by show (4 * (i 0).val + 3) % 4 = 3; omega), ?_⟩
  obtain ⟨-, -, -, -, -, -, e0, e1, e2⟩ := idx_facts ⟨4 * (i 0).val + 3, hlt⟩
  show i ∈ ((View.whole main_v0).slice (win0_2.rect ⟨4 * (i 0).val + 3, hlt⟩)).set
  rw [View.set_slice_whole, Rect.mem_set_unit]
  intro a
  match a with
  | ⟨0, _⟩ =>
    show win0_2.index ⟨4 * (i 0).val + 3, _⟩ (0 : Fin 3) * 1 ≤ (i 0).val ∧ (i 0).val < win0_2.index ⟨4 * (i 0).val + 3, _⟩ (0 : Fin 3) * 1 + 1
    rw [e0]; show (4 * (i 0).val + 3) / 4 * 1 ≤ (i 0).val ∧ (i 0).val < (4 * (i 0).val + 3) / 4 * 1 + 1; omega
  | ⟨1, _⟩ =>
    show win0_2.index ⟨4 * (i 0).val + 3, _⟩ (1 : Fin 3) * 256 ≤ (i 1).val ∧ (i 1).val < win0_2.index ⟨4 * (i 0).val + 3, _⟩ (1 : Fin 3) * 256 + 256
    rw [e1]; omega
  | ⟨2, _⟩ =>
    show win0_2.index ⟨4 * (i 0).val + 3, _⟩ (2 : Fin 3) * 256 ≤ (i 2).val ∧ (i 2).val < win0_2.index ⟨4 * (i 0).val + 3, _⟩ (2 : Fin 3) * 256 + 256
    rw [e2]; omega

/-- The output array after the run. -/
theorem final2 (c : Dev nD) : (dats m 0 c).arrAt 2 cfg0.N = Gout m c :=
  (dats m 0 c).arrAt_eq_of_cover 2 (Gout m c) (fun t hf => flushed2_eq m c t hf) covered2

end Cert.KernelIdeal.Gen

end
-- ==== Proof.KITail.lean ====
/-
  The host lines that follow the kernel's region, folded into functions of the argument arrays. After the region has
  left the mask cost M, the program adds twice the class cost (a gather of the class scores at the labels, scattered
  over the label columns) and the box regression cost (a mean of absolute coordinate differences), and replaces the
  columns beyond a batch's object count by the NaN word; a second result is the column vector of object counts. Each
  stage below is the operation the program applies, over the stages it reads; the whole tail is then shown to leave
  these functions of the launch contents and of the region's output, and the last stage is read at an index.
-/
import proofs.«133761_j85890755985627_2_alg».proof.Proof.KIFrameKit
import Idealize.ShloMosaic.Lib.StableHlo.Run
import Idealize.ShloMosaic.Lib.Pipeline.Value
import Idealize.ShloMosaic.Lib.ValueIdx

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable {F : FTy → Type} [FloatOps F]

/-! ## The stages, one per host line, over the argument arrays `x1 … x4` and the region's output `M` -/

def st_main_c : (⟨S_, .i32⟩ : BufTy).Contents (Elt F) :=
  constantI S_ 32 25#32
def st_main_v1 : (⟨S8x256, .i32⟩ : BufTy).Contents (Elt F) :=
  broadcastInDim S8x256 ![] bcast_S_S8x256 (st_main_c (F := F))
def st_main_v2 (x4 : (⟨S8x256, .i32⟩ : BufTy).Contents (Elt F)) : (⟨S8x256, .i1⟩ : BufTy).Contents (Elt F) :=
  cmpi .ne (x4) (st_main_v1 (F := F))
def st_main_v3 (x4 : (⟨S8x256, .i32⟩ : BufTy).Contents (Elt F)) : (⟨S8x256, .i32⟩ : BufTy).Contents (Elt F) :=
  extui 32 (st_main_v2 (F := F) x4) natLt_1_32
def st_main_c_0 : (⟨S_, .i32⟩ : BufTy).Contents (Elt F) :=
  constantI S_ 32 0#32
def st_main_v4 (x4 : (⟨S8x256, .i32⟩ : BufTy).Contents (Elt F)) : (⟨S8, .i32⟩ : BufTy).Contents (Elt F) :=
  Host.reduce IntOp.addi (st_main_v3 (F := F) x4) (st_main_c_0 (F := F)) reducesTo_S8x256_S8_d1 h_S_
def st_main_v5 (x4 : (⟨S8x256, .i32⟩ : BufTy).Contents (Elt F)) : (⟨S8x25, .i32⟩ : BufTy).Contents (Elt F) :=
  extractStridedSlice S8x25 ![0, 0] (x4) slices_S8x256_S8x25_0_0
def st_main_v6 (x4 : (⟨S8x256, .i32⟩ : BufTy).Contents (Elt F)) : (⟨S8x1x25, .i32⟩ : BufTy).Contents (Elt F) :=
  broadcastInDim S8x1x25 ![0, 2] bcast_S8x25_S8x1x25_0_2 (st_main_v5 (F := F) x4)
def st_main_v7 (x4 : (⟨S8x256, .i32⟩ : BufTy).Contents (Elt F)) : (⟨S8x256x25, .i32⟩ : BufTy).Contents (Elt F) :=
  broadcastInDim S8x256x25 ![0, 1, 2] bcast_S8x1x25_S8x256x25_0_1_2 (st_main_v6 (F := F) x4)
def st_main_c_1 : (⟨S_, .i32⟩ : BufTy).Contents (Elt F) :=
  constantI S_ 32 25#32
def st_main_v8 : (⟨S8x256x25, .i32⟩ : BufTy).Contents (Elt F) :=
  broadcastInDim S8x256x25 ![] bcast_S_S8x256x25 (st_main_c_1 (F := F))
def st_main_v9 (x4 : (⟨S8x256, .i32⟩ : BufTy).Contents (Elt F)) : (⟨S8x256x25, .i1⟩ : BufTy).Contents (Elt F) :=
  cmpi .ne (st_main_v7 (F := F) x4) (st_main_v8 (F := F))
def st_main_v10 (x4 : (⟨S8x256, .i32⟩ : BufTy).Contents (Elt F)) : (⟨S8x256x25, .i32⟩ : BufTy).Contents (Elt F) :=
  extui 32 (st_main_v9 (F := F) x4) natLt_1_32
def st_main_v11 (x4 : (⟨S8x256, .i32⟩ : BufTy).Contents (Elt F)) : (⟨S8x256x25, .i32⟩ : BufTy).Contents (Elt F) :=
  muli (st_main_v7 (F := F) x4) (st_main_v10 (F := F) x4)
def st_main_call0_c : (⟨S_, .i32⟩ : BufTy).Contents (Elt F) :=
  constantI S_ 32 0#32
def st_main_call0_v0 : (⟨S8x256x25, .i32⟩ : BufTy).Contents (Elt F) :=
  broadcastInDim S8x256x25 ![] bcast_S_S8x256x25 (st_main_call0_c (F := F))
def st_main_call0_v1 (x4 : (⟨S8x256, .i32⟩ : BufTy).Contents (Elt F)) : (⟨S8x256x25, .i1⟩ : BufTy).Contents (Elt F) :=
  cmpi .slt (st_main_v11 (F := F) x4) (st_main_call0_v0 (F := F))
def st_main_call0_c_0 : (⟨S_, .i32⟩ : BufTy).Contents (Elt F) :=
  constantI S_ 32 25#32
def st_main_call0_v2 : (⟨S8x256x25, .i32⟩ : BufTy).Contents (Elt F) :=
  broadcastInDim S8x256x25 ![] bcast_S_S8x256x25 (st_main_call0_c_0 (F := F))
def st_main_call0_v3 (x4 : (⟨S8x256, .i32⟩ : BufTy).Contents (Elt F)) : (⟨S8x256x25, .i32⟩ : BufTy).Contents (Elt F) :=
  addi (st_main_v11 (F := F) x4) (st_main_call0_v2 (F := F))
def st_main_call0_v4 (x4 : (⟨S8x256, .i32⟩ : BufTy).Contents (Elt F)) : (⟨S8x256x25, .i32⟩ : BufTy).Contents (Elt F) :=
  select (st_main_call0_v1 (F := F) x4) (st_main_call0_v3 (F := F) x4) (st_main_v11 (F := F) x4)
def st_main_call0_v5 (x4 : (⟨S8x256, .i32⟩ : BufTy).Contents (Elt F)) : (⟨S8x256x25x1, .i32⟩ : BufTy).Contents (Elt F) :=
  shapeCast _ (st_main_call0_v4 (F := F) x4) shapeCasts_S8x256x25_S8x256x25x1
def st_main_call0_c_1 : (⟨S1, .i32⟩ : BufTy).Contents (Elt F) :=
  constantI S1 32 24#32
def st_main_call0_c_2 : (⟨S_, .i32⟩ : BufTy).Contents (Elt F) :=
  constantI S_ 32 0#32
def st_main_call0_v6 : (⟨S8x256x25x1, .i32⟩ : BufTy).Contents (Elt F) :=
  broadcastInDim S8x256x25x1 ![] bcast_S_S8x256x25x1 (st_main_call0_c_2 (F := F))
def st_main_call0_v7 (x4 : (⟨S8x256, .i32⟩ : BufTy).Contents (Elt F)) : (⟨S8x256x25x1, .i1⟩ : BufTy).Contents (Elt F) :=
  cmpi .sge (st_main_call0_v5 (F := F) x4) (st_main_call0_v6 (F := F))
def st_main_call0_v8 : (⟨S1x1x1x1, .i32⟩ : BufTy).Contents (Elt F) :=
  broadcastInDim S1x1x1x1 ![3] bcast_S1_S1x1x1x1_3 (st_main_call0_c_1 (F := F))
def st_main_call0_v9 : (⟨S8x256x25x1, .i32⟩ : BufTy).Contents (Elt F) :=
  broadcastInDim S8x256x25x1 ![0, 1, 2, 3] bcast_S1x1x1x1_S8x256x25x1_0_1_2_3 (st_main_call0_v8 (F := F))
def st_main_call0_v10 (x4 : (⟨S8x256, .i32⟩ : BufTy).Contents (Elt F)) : (⟨S8x256x25x1, .i1⟩ : BufTy).Contents (Elt F) :=
  cmpi .sle (st_main_call0_v5 (F := F) x4) (st_main_call0_v9 (F := F))
def st_main_call0_v11 (x4 : (⟨S8x256, .i32⟩ : BufTy).Contents (Elt F)) : (⟨S8x256x25x1, .i1⟩ : BufTy).Contents (Elt F) :=
  andi (st_main_call0_v7 (F := F) x4) (st_main_call0_v10 (F := F) x4)
def st_main_call0_c_3 : (⟨S_, .i1⟩ : BufTy).Contents (Elt F) :=
  constantI S_ 1 1#1
def st_main_call0_v12 (x4 : (⟨S8x256, .i32⟩ : BufTy).Contents (Elt F)) : (⟨S8x256x25, .i1⟩ : BufTy).Contents (Elt F) :=
  Host.reduce IntOp.andi (st_main_call0_v11 (F := F) x4) (st_main_call0_c_3 (F := F)) reducesTo_S8x256x25x1_S8x256x25_d3 h_S_
def st_main_call0_v13 (x1 : (⟨S8x256x25, .f32⟩ : BufTy).Contents (Elt F)) (x4 : (⟨S8x256, .i32⟩ : BufTy).Contents (Elt F)) : (⟨S8x256x25, .f32⟩ : BufTy).Contents (Elt F) :=
  Host.gather gather_S8x256x25_S8x256x25x1_S8x256x25_n_2_01_01_2_3_111 (x1) (st_main_call0_v5 (F := F) x4)
def st_main_call0_cst : (⟨S_, .f32⟩ : BufTy).Contents (Elt F) :=
  constant S_ .f32 0x7FC00000#32
def st_main_call0_v14 : (⟨S8x256x25, .f32⟩ : BufTy).Contents (Elt F) :=
  broadcastInDim S8x256x25 ![] bcast_S_S8x256x25 (st_main_call0_cst (F := F))
def st_main_v12 (x1 : (⟨S8x256x25, .f32⟩ : BufTy).Contents (Elt F)) (x4 : (⟨S8x256, .i32⟩ : BufTy).Contents (Elt F)) : (⟨S8x256x25, .f32⟩ : BufTy).Contents (Elt F) :=
  select (st_main_call0_v12 (F := F) x4) (st_main_call0_v13 (F := F) x1 x4) (st_main_call0_v14 (F := F))
def st_main_v13 (x4 : (⟨S8x256, .i32⟩ : BufTy).Contents (Elt F)) : (⟨S8x256x25, .f32⟩ : BufTy).Contents (Elt F) :=
  uitofp .f32 (st_main_v9 (F := F) x4)
def st_main_v14 (x1 : (⟨S8x256x25, .f32⟩ : BufTy).Contents (Elt F)) (x4 : (⟨S8x256, .i32⟩ : BufTy).Contents (Elt F)) : (⟨S8x256x25, .f32⟩ : BufTy).Contents (Elt F) :=
  mulf (st_main_v12 (F := F) x1 x4) (st_main_v13 (F := F) x4)
def st_main_cst : (⟨S_, .f32⟩ : BufTy).Contents (Elt F) :=
  constant S_ .f32 0x00000000#32
def st_main_v15 : (⟨S8x256x256, .f32⟩ : BufTy).Contents (Elt F) :=
  broadcastInDim S8x256x256 ![] bcast_S_S8x256x256 (st_main_cst (F := F))
def st_main_v16 (x1 : (⟨S8x256x25, .f32⟩ : BufTy).Contents (Elt F)) (x4 : (⟨S8x256, .i32⟩ : BufTy).Contents (Elt F)) : (⟨S8x256x25, .f32⟩ : BufTy).Contents (Elt F) :=
  Host.negf (st_main_v14 (F := F) x1 x4)
def st_main_c_2 : (⟨S_, .i32⟩ : BufTy).Contents (Elt F) :=
  constantI S_ 32 0#32
def st_main_v17 : (⟨S1, .i32⟩ : BufTy).Contents (Elt F) :=
  broadcastInDim S1 ![] bcast_S_S1 (st_main_c_2 (F := F))
def st_main_v18 (x1 : (⟨S8x256x25, .f32⟩ : BufTy).Contents (Elt F)) (x4 : (⟨S8x256, .i32⟩ : BufTy).Contents (Elt F)) : (⟨S8x256x256, .f32⟩ : BufTy).Contents (Elt F) :=
  Host.scatter scatter_S8x256x256_S1_S8x256x25_012_n_2_0 (fun _ b => b) (st_main_v15 (F := F)) (st_main_v17 (F := F)) (st_main_v16 (F := F) x1 x4)
def st_main_cst_3 : (⟨S_, .f32⟩ : BufTy).Contents (Elt F) :=
  constant S_ .f32 0x40000000#32
def st_main_v19 : (⟨S8x256x256, .f32⟩ : BufTy).Contents (Elt F) :=
  broadcastInDim S8x256x256 ![] bcast_S_S8x256x256 (st_main_cst_3 (F := F))
def st_main_v20 (x1 : (⟨S8x256x25, .f32⟩ : BufTy).Contents (Elt F)) (x4 : (⟨S8x256, .i32⟩ : BufTy).Contents (Elt F)) : (⟨S8x256x256, .f32⟩ : BufTy).Contents (Elt F) :=
  mulf (st_main_v19 (F := F)) (st_main_v18 (F := F) x1 x4)
def st_main_v21 (x1 : (⟨S8x256x25, .f32⟩ : BufTy).Contents (Elt F)) (x4 : (⟨S8x256, .i32⟩ : BufTy).Contents (Elt F)) (M : (⟨S8x256x256, .f32⟩ : BufTy).Contents (Elt F)) : (⟨S8x256x256, .f32⟩ : BufTy).Contents (Elt F) :=
  addf (st_main_v20 (F := F) x1 x4) (M)
def st_main_v22 (x4 : (⟨S8x256, .i32⟩ : BufTy).Contents (Elt F)) : (⟨S8x256x1, .i1⟩ : BufTy).Contents (Elt F) :=
  broadcastInDim S8x256x1 ![0, 1] bcast_S8x256_S8x256x1_0_1 (st_main_v2 (F := F) x4)
def st_main_v23 (x4 : (⟨S8x256, .i32⟩ : BufTy).Contents (Elt F)) : (⟨S8x256x1, .f32⟩ : BufTy).Contents (Elt F) :=
  uitofp .f32 (st_main_v22 (F := F) x4)
def st_main_v24 (x4 : (⟨S8x256, .i32⟩ : BufTy).Contents (Elt F)) : (⟨S8x256x8, .f32⟩ : BufTy).Contents (Elt F) :=
  broadcastInDim S8x256x8 ![0, 1, 2] bcast_S8x256x1_S8x256x8_0_1_2 (st_main_v23 (F := F) x4)
def st_main_v25 (x3 : (⟨S8x256x8, .f32⟩ : BufTy).Contents (Elt F)) (x4 : (⟨S8x256, .i32⟩ : BufTy).Contents (Elt F)) : (⟨S8x256x8, .f32⟩ : BufTy).Contents (Elt F) :=
  mulf (x3) (st_main_v24 (F := F) x4)
def st_main_v26 (x2 : (⟨S8x256x8, .f32⟩ : BufTy).Contents (Elt F)) : (⟨S8x256x1x8, .f32⟩ : BufTy).Contents (Elt F) :=
  broadcastInDim S8x256x1x8 ![0, 1, 3] bcast_S8x256x8_S8x256x1x8_0_1_3 (x2)
def st_main_v27 (x3 : (⟨S8x256x8, .f32⟩ : BufTy).Contents (Elt F)) (x4 : (⟨S8x256, .i32⟩ : BufTy).Contents (Elt F)) : (⟨S8x1x256x8, .f32⟩ : BufTy).Contents (Elt F) :=
  broadcastInDim S8x1x256x8 ![0, 2, 3] bcast_S8x256x8_S8x1x256x8_0_2_3 (st_main_v25 (F := F) x3 x4)
def st_main_v28 (x2 : (⟨S8x256x8, .f32⟩ : BufTy).Contents (Elt F)) : (⟨S8x256x256x8, .f32⟩ : BufTy).Contents (Elt F) :=
  broadcastInDim S8x256x256x8 ![0, 1, 2, 3] bcast_S8x256x1x8_S8x256x256x8_0_1_2_3 (st_main_v26 (F := F) x2)
def st_main_v29 (x3 : (⟨S8x256x8, .f32⟩ : BufTy).Contents (Elt F)) (x4 : (⟨S8x256, .i32⟩ : BufTy).Contents (Elt F)) : (⟨S8x256x256x8, .f32⟩ : BufTy).Contents (Elt F) :=
  broadcastInDim S8x256x256x8 ![0, 1, 2, 3] bcast_S8x1x256x8_S8x256x256x8_0_1_2_3 (st_main_v27 (F := F) x3 x4)
def st_main_v30 (x2 : (⟨S8x256x8, .f32⟩ : BufTy).Contents (Elt F)) (x3 : (⟨S8x256x8, .f32⟩ : BufTy).Contents (Elt F)) (x4 : (⟨S8x256, .i32⟩ : BufTy).Contents (Elt F)) : (⟨S8x256x256x8, .f32⟩ : BufTy).Contents (Elt F) :=
  subf (st_main_v28 (F := F) x2) (st_main_v29 (F := F) x3 x4)
def st_main_v31 (x2 : (⟨S8x256x8, .f32⟩ : BufTy).Contents (Elt F)) (x3 : (⟨S8x256x8, .f32⟩ : BufTy).Contents (Elt F)) (x4 : (⟨S8x256, .i32⟩ : BufTy).Contents (Elt F)) : (⟨S8x256x256x8, .f32⟩ : BufTy).Contents (Elt F) :=
  Host.absf (st_main_v30 (F := F) x2 x3 x4)
def st_main_cst_4 : (⟨S_, .f32⟩ : BufTy).Contents (Elt F) :=
  constant S_ .f32 0x00000000#32
def st_main_v32 (x2 : (⟨S8x256x8, .f32⟩ : BufTy).Contents (Elt F)) (x3 : (⟨S8x256x8, .f32⟩ : BufTy).Contents (Elt F)) (x4 : (⟨S8x256, .i32⟩ : BufTy).Contents (Elt F)) : (⟨S8x256x256, .f32⟩ : BufTy).Contents (Elt F) :=
  Host.reduceAdd (st_main_v31 (F := F) x2 x3 x4) (st_main_cst_4 (F := F)) reducesTo_S8x256x256x8_S8x256x256_d3 h_S_
def st_main_cst_5 : (⟨S_, .f32⟩ : BufTy).Contents (Elt F) :=
  constant S_ .f32 0x41000000#32
def st_main_v33 : (⟨S8x256x256, .f32⟩ : BufTy).Contents (Elt F) :=
  broadcastInDim S8x256x256 ![] bcast_S_S8x256x256 (st_main_cst_5 (F := F))
def st_main_v34 (x2 : (⟨S8x256x8, .f32⟩ : BufTy).Contents (Elt F)) (x3 : (⟨S8x256x8, .f32⟩ : BufTy).Contents (Elt F)) (x4 : (⟨S8x256, .i32⟩ : BufTy).Contents (Elt F)) : (⟨S8x256x256, .f32⟩ : BufTy).Contents (Elt F) :=
  Host.divf (st_main_v32 (F := F) x2 x3 x4) (st_main_v33 (F := F))
def st_main_cst_6 : (⟨S_, .f32⟩ : BufTy).Contents (Elt F) :=
  constant S_ .f32 0x3F800000#32
def st_main_v35 : (⟨S8x256x256, .f32⟩ : BufTy).Contents (Elt F) :=
  broadcastInDim S8x256x256 ![] bcast_S_S8x256x256 (st_main_cst_6 (F := F))
def st_main_v36 (x2 : (⟨S8x256x8, .f32⟩ : BufTy).Contents (Elt F)) (x3 : (⟨S8x256x8, .f32⟩ : BufTy).Contents (Elt F)) (x4 : (⟨S8x256, .i32⟩ : BufTy).Contents (Elt F)) : (⟨S8x256x256, .f32⟩ : BufTy).Contents (Elt F) :=
  mulf (st_main_v35 (F := F)) (st_main_v34 (F := F) x2 x3 x4)
def st_main_v37 (x1 : (⟨S8x256x25, .f32⟩ : BufTy).Contents (Elt F)) (x2 : (⟨S8x256x8, .f32⟩ : BufTy).Contents (Elt F)) (x3 : (⟨S8x256x8, .f32⟩ : BufTy).Contents (Elt F)) (x4 : (⟨S8x256, .i32⟩ : BufTy).Contents (Elt F)) (M : (⟨S8x256x256, .f32⟩ : BufTy).Contents (Elt F)) : (⟨S8x256x256, .f32⟩ : BufTy).Contents (Elt F) :=
  addf (st_main_v21 (F := F) x1 x4 M) (st_main_v36 (F := F) x2 x3 x4)
def st_main_v38 : (⟨S256, .i32⟩ : BufTy).Contents (Elt F) :=
  iotaInDim S256 32 0
def st_main_v39 : (⟨S1x256, .i32⟩ : BufTy).Contents (Elt F) :=
  broadcastInDim S1x256 ![1] bcast_S256_S1x256_1 (st_main_v38 (F := F))
def st_main_v40 (x4 : (⟨S8x256, .i32⟩ : BufTy).Contents (Elt F)) : (⟨S8x1, .i32⟩ : BufTy).Contents (Elt F) :=
  broadcastInDim S8x1 ![0] bcast_S8_S8x1_0 (st_main_v4 (F := F) x4)
def st_main_v41 : (⟨S8x256, .i32⟩ : BufTy).Contents (Elt F) :=
  broadcastInDim S8x256 ![0, 1] bcast_S1x256_S8x256_0_1 (st_main_v39 (F := F))
def st_main_v42 (x4 : (⟨S8x256, .i32⟩ : BufTy).Contents (Elt F)) : (⟨S8x256, .i32⟩ : BufTy).Contents (Elt F) :=
  broadcastInDim S8x256 ![0, 1] bcast_S8x1_S8x256_0_1 (st_main_v40 (F := F) x4)
def st_main_v43 (x4 : (⟨S8x256, .i32⟩ : BufTy).Contents (Elt F)) : (⟨S8x256, .i1⟩ : BufTy).Contents (Elt F) :=
  cmpi .slt (st_main_v41 (F := F)) (st_main_v42 (F := F) x4)
def st_main_v44 (x4 : (⟨S8x256, .i32⟩ : BufTy).Contents (Elt F)) : (⟨S8x1x256, .i1⟩ : BufTy).Contents (Elt F) :=
  broadcastInDim S8x1x256 ![0, 2] bcast_S8x256_S8x1x256_0_2 (st_main_v43 (F := F) x4)
def st_main_cst_7 : (⟨S_, .f32⟩ : BufTy).Contents (Elt F) :=
  constant S_ .f32 0x7FC00000#32
def st_main_call1_v0 : (⟨S_, .f32⟩ : BufTy).Contents (Elt F) :=
  id (st_main_cst_7 (F := F))
def st_main_call1_v1 (x4 : (⟨S8x256, .i32⟩ : BufTy).Contents (Elt F)) : (⟨S8x256x256, .i1⟩ : BufTy).Contents (Elt F) :=
  broadcastInDim S8x256x256 ![0, 1, 2] bcast_S8x1x256_S8x256x256_0_1_2 (st_main_v44 (F := F) x4)
def st_main_call1_v2 : (⟨S8x256x256, .f32⟩ : BufTy).Contents (Elt F) :=
  broadcastInDim S8x256x256 ![] bcast_S_S8x256x256 (st_main_call1_v0 (F := F))
def st_main_v45 (x1 : (⟨S8x256x25, .f32⟩ : BufTy).Contents (Elt F)) (x2 : (⟨S8x256x8, .f32⟩ : BufTy).Contents (Elt F)) (x3 : (⟨S8x256x8, .f32⟩ : BufTy).Contents (Elt F)) (x4 : (⟨S8x256, .i32⟩ : BufTy).Contents (Elt F)) (M : (⟨S8x256x256, .f32⟩ : BufTy).Contents (Elt F)) : (⟨S8x256x256, .f32⟩ : BufTy).Contents (Elt F) :=
  select (st_main_call1_v1 (F := F) x4) (st_main_v37 (F := F) x1 x2 x3 x4 M) (st_main_call1_v2 (F := F))
def st_main_v46 (x4 : (⟨S8x256, .i32⟩ : BufTy).Contents (Elt F)) : (⟨S8x1, .i32⟩ : BufTy).Contents (Elt F) :=
  broadcastInDim S8x1 ![0] bcast_S8_S8x1_0 (st_main_v4 (F := F) x4)

/-! ## The folded pieces -/

/-- Twice the class cost. -/
abbrev cc2 (x1 : (⟨S8x256x25, .f32⟩ : BufTy).Contents (Elt F)) (x4 : (⟨S8x256, .i32⟩ : BufTy).Contents (Elt F)) :
    (⟨S8x256x256, .f32⟩ : BufTy).Contents (Elt F) := st_main_v20 (F := F) x1 x4
/-- The box regression cost (weight one). -/
abbrev mae1 (x2 x3 : (⟨S8x256x8, .f32⟩ : BufTy).Contents (Elt F)) (x4 : (⟨S8x256, .i32⟩ : BufTy).Contents (Elt F)) :
    (⟨S8x256x256, .f32⟩ : BufTy).Contents (Elt F) := st_main_v36 (F := F) x2 x3 x4
/-- The column mask: column below the batch's object count. -/
abbrev colok (x4 : (⟨S8x256, .i32⟩ : BufTy).Contents (Elt F)) : (⟨S8x1x256, .i1⟩ : BufTy).Contents (Elt F) :=
  st_main_v44 (F := F) x4
/-- The object counts, as a column. -/
abbrev len (x4 : (⟨S8x256, .i32⟩ : BufTy).Contents (Elt F)) : (⟨S8x1, .i32⟩ : BufTy).Contents (Elt F) :=
  st_main_v46 (F := F) x4
/-- The first result from the argument arrays and the region's output. -/
abbrev tailF (x1 : (⟨S8x256x25, .f32⟩ : BufTy).Contents (Elt F)) (x2 x3 : (⟨S8x256x8, .f32⟩ : BufTy).Contents (Elt F))
    (x4 : (⟨S8x256, .i32⟩ : BufTy).Contents (Elt F)) (M : (⟨S8x256x256, .f32⟩ : BufTy).Contents (Elt F)) :
    (⟨S8x256x256, .f32⟩ : BufTy).Contents (Elt F) := st_main_v45 (F := F) x1 x2 x3 x4 M

/-! ## What the tail leaves -/

variable (m : (ℓ : Loc nD τ sig) → Buf (Elt F) ℓ)

theorem tail_v45 (dats : (p : Fin 1) → (c : Dev nD) → Dat τ (Elt F) Unit ℕ (UR sig nD τ) ℕ (cfgs p) c) (c : Dev nD) :
    Pipeline.afterTail₀ cfgs dats 0 (V0 m) tailOps c main_v45
      = tailF (m ((c : Thread nD τ).loc main_arg1)) (m ((c : Thread nD τ).loc main_arg2)) (m ((c : Thread nD τ).loc main_arg3))
          (m ((c : Thread nD τ).loc main_arg4)) ((dats 0 c).arrAt 2 cfg0.N) := by
  unfold Pipeline.afterTail₀
  have e1 := (Pipeline.withArrays_of_ne (cfgs 0).spec c (V0 m c) (fun w => (dats 0 c).arrAt w (cfgs 0).N) main_arg1
    (by exact (by decide : ∀ w, Pipeline.arrRef spec0 w ≠ main_arg1))).trans (V_main_arg1 m c)
  have e2 := (Pipeline.withArrays_of_ne (cfgs 0).spec c (V0 m c) (fun w => (dats 0 c).arrAt w (cfgs 0).N) main_arg2
    (by exact (by decide : ∀ w, Pipeline.arrRef spec0 w ≠ main_arg2))).trans (V_main_arg2 m c)
  have e3 := (Pipeline.withArrays_of_ne (cfgs 0).spec c (V0 m c) (fun w => (dats 0 c).arrAt w (cfgs 0).N) main_arg3
    (by exact (by decide : ∀ w, Pipeline.arrRef spec0 w ≠ main_arg3))).trans (V_main_arg3 m c)
  have e4 := (Pipeline.withArrays_of_ne (cfgs 0).spec c (V0 m c) (fun w => (dats 0 c).arrAt w (cfgs 0).N) main_arg4
    (by exact (by decide : ∀ w, Pipeline.arrRef spec0 w ≠ main_arg4))).trans (V_main_arg4 m c)
  have e0 : Pipeline.withArrays (cfgs 0).spec c (V0 m c) (fun w => (dats 0 c).arrAt w (cfgs 0).N) (Proc.devRef .tc main_v0)
      = (dats 0 c).arrAt 2 cfg0.N :=
    Pipeline.withArrays_arr spec0 launch0.win.arr_inj c (V0 m c) (fun w => (dats 0 c).arrAt w cfg0.N) 2
  generalize Pipeline.withArrays (cfgs 0).spec c (V0 m c) (fun w => (dats 0 c).arrAt w (cfgs 0).N) = W at e0 e1 e2 e3 e4 ⊢
  rw [← e0, ← e1, ← e2, ← e3, ← e4]
  clear e0 e1 e2 e3 e4
  simp only [tailOps, hostOps1, hostOps1_1, hostOps1_2, hostOps1_3, hostOps1_4, List.flatten_cons, List.flatten_nil, List.append_nil,
    List.cons_append, List.nil_append]
  after_results_simp
  show _ = _
  chain_rfl

theorem tail_v46 (dats : (p : Fin 1) → (c : Dev nD) → Dat τ (Elt F) Unit ℕ (UR sig nD τ) ℕ (cfgs p) c) (c : Dev nD) :
    Pipeline.afterTail₀ cfgs dats 0 (V0 m) tailOps c main_v46 = len (m ((c : Thread nD τ).loc main_arg4)) := by
  unfold Pipeline.afterTail₀
  have e4 := (Pipeline.withArrays_of_ne (cfgs 0).spec c (V0 m c) (fun w => (dats 0 c).arrAt w (cfgs 0).N) main_arg4
    (by exact (by decide : ∀ w, Pipeline.arrRef spec0 w ≠ main_arg4))).trans (V_main_arg4 m c)
  generalize Pipeline.withArrays (cfgs 0).spec c (V0 m c) (fun w => (dats 0 c).arrAt w (cfgs 0).N) = W at e4 ⊢
  rw [← e4]
  clear e4
  simp only [tailOps, hostOps1, hostOps1_1, hostOps1_2, hostOps1_3, hostOps1_4, List.flatten_cons, List.flatten_nil, List.append_nil,
    List.cons_append, List.nil_append]
  after_results_simp
  show _ = _
  chain_rfl

/-! ## The first result at an index, over the extended reals -/

/-- At `(b, n, m)`: where the column mask's bit at `(b, 0, m)` is set, twice the class cost plus the region's output plus
    the regression cost; elsewhere the NaN word. -/
theorem tailF_apply (x1 : (⟨S8x256x25, .f32⟩ : BufTy).Contents (Elt Ideal)) (x2 x3 : (⟨S8x256x8, .f32⟩ : BufTy).Contents (Elt Ideal))
    (x4 : (⟨S8x256, .i32⟩ : BufTy).Contents (Elt Ideal)) (M : (⟨S8x256x256, .f32⟩ : BufTy).Contents (Elt Ideal))
    (b : Fin 8) (n k : Fin 256) :
    tailF (F := Ideal) x1 x2 x3 x4 M (ix3 b n k)
      = Scalar.select (colok (F := Ideal) x4 (ix3 b (0 : Fin 1) k))
          ((cc2 (F := Ideal) x1 x4 (ix3 b n k) + M (ix3 b n k)) + mae1 (F := Ideal) x2 x3 x4 (ix3 b n k))
          (Ideal.ofBits .f32 0x7FC00000#32) := by
  have e1 : st_main_call1_v1 (F := Ideal) x4 (ix3 b n k) = st_main_v44 (F := Ideal) x4 (ix3 b (0 : Fin 1) k) := by
    unfold st_main_call1_v1
    generalize st_main_v44 (F := Ideal) x4 = y
    exact broadcastInDim_apply _ bcast_S8x1x256_S8x256x256_0_1_2 y (ix3 b n k) (ix3 b (0 : Fin 1) k)
      (fun a => by match a with | ⟨0, _⟩ => rfl | ⟨1, _⟩ => rfl | ⟨2, _⟩ => rfl)
  have e2 : st_main_call1_v2 (F := Ideal) (ix3 b n k) = Ideal.ofBits .f32 0x7FC00000#32 := by
    unfold st_main_call1_v2
    exact (broadcastInDim_apply _ bcast_S_S8x256x256 (st_main_call1_v0 (F := Ideal)) (ix3 b n k) (fun a => a.elim0)
      (fun a => a.elim0)).trans rfl
  show Scalar.select (st_main_call1_v1 (F := Ideal) x4 (ix3 b n k)) (st_main_v37 (F := Ideal) x1 x2 x3 x4 M (ix3 b n k))
      (st_main_call1_v2 (F := Ideal) (ix3 b n k)) = _
  rw [e1, e2]
  rfl

end Cert.KernelIdeal.Tail

end
-- ==== Proof.RefValue.lean ====
/-
  The reference program's side of the claim.

  The reference computes, for a batch b, a prediction row n and a target row m,
    cost(b,n,m) = 2·class_cost + 2·dice + 5·ce + 5·focal + 1·mae,
  and then replaces the columns m beyond the batch's object count by the NaN word. Read at the extended reals every
  operation is exact, so each matrix product is a plain sum over the 8192 mask positions and each row sum is the
  initial value plus a plain sum. This module states what the two results of the reference's run are:
    * the frame (the arguments are unchanged),
    * the first result at an index (b,n,m) as an explicit expression in the sigmoid p = 1/(1+e^{-x}), the
      softplus of ±x and the targets t, with the class cost, the regression cost and the column mask kept as the
      stages of the run (they are computed by the same operations on both sides of the claim),
    * the second result as the stage of the run.
-/
import proofs.«133761_j85890755985627_2_alg».proof.Defs
import proofs.«133761_j85890755985627_2_alg».proof.Proof.Gen.ReferenceIdeal
import proofs.«133761_j85890755985627_2_alg».proof.Proof.Gen.Pre_finite_inputs
import proofs.«133761_j85890755985627_2_alg».proof.Proof.RefReadP
import Idealize.ShloMosaic.Lib.ValueIdx

noncomputable section

open Idealize.ShloMosaic Idealize.ShloMosaic.TcCoe Idealize.SL.Sem

namespace Cert.ReferenceIdeal.RefValue

open Cert.ReferenceIdeal Cert.ReferenceIdeal.Gen Cert.ReferenceIdeal.ReadP Idealize.ShloMosaic.ValueIdx

/-! ## The scalar functions of one mask position -/

/-- The float words of the program: 0, 1, 2, 5, 8192 and the NaN pattern, as the extended reals they denote. -/
local notation "w0" => Ideal.ofBits FTy.f32 0x00000000#32
local notation "w1" => Ideal.ofBits FTy.f32 0x3F800000#32
local notation "w2" => Ideal.ofBits FTy.f32 0x40000000#32
local notation "w5" => Ideal.ofBits FTy.f32 0x40A00000#32
local notation "w8192" => Ideal.ofBits FTy.f32 0x46000000#32
local notation "wNaN" => Ideal.ofBits FTy.f32 0x7FC00000#32

/-- The sigmoid as the reference expands it: 1 / (1 + e^{-x}). -/
def psig (x : EReal) : EReal := Ideal.div w1 (w1 + Ideal.exp (-x))

/-- The softplus as the reference's library function lowers it: with d = y - 0, where d ≠ d it is y + 0, elsewhere
    max y 0 + log(1 + e^{-|d|}) (|d| spelt max d (-d)). -/
def softplus (y : EReal) : EReal :=
  Scalar.select (Ideal.cmp .une (y - w0) (y - w0)) (y + w0)
    (max y w0 + Ideal.log1p (Ideal.exp (-(max (y - w0) (-(y - w0))))))

/-- An integer target read as a float: the signed integer, exactly. -/
def tval (w : BitVec 32) : EReal := ((w.toInt : ℝ) : EReal)

variable (x0 : (⟨S8x256x8192, .f32⟩ : BufTy).Contents (Elt Ideal)) (x1 : (⟨S8x256x25, .f32⟩ : BufTy).Contents (Elt Ideal))
  (x2 x3 : (⟨S8x256x8, .f32⟩ : BufTy).Contents (Elt Ideal)) (x4 : (⟨S8x256, .i32⟩ : BufTy).Contents (Elt Ideal))
  (x5 : (⟨S8x256x8192, .i32⟩ : BufTy).Contents (Elt Ideal))

/-! ## The elementwise stages at an index -/

theorem v0_at (j : S8x256x8192.Idx) : val_main_v0 (F := Ideal) x5 j = tval (x5 j) := rfl

theorem v26_at (j : S8x256x8192.Idx) : val_main_v26 (F := Ideal) x0 j = psig (x0 j) := by
  simp only [val_main_v26_apply, val_main_v25_apply, val_main_cst_5_apply, val_main_v24_apply, val_main_v23_apply,
    val_main_cst_4_apply, val_main_v22_apply, val_main_v21_apply, Ideal.hostDivf_def, Ideal.addf_def,
    Ideal.hostUnary_exp_def, Ideal.hostNegf_def, Ideal.negf_def, Ideal.ofBits_def, psig]

theorem v48_at (j : S8x256x8192.Idx) : val_main_v48 (F := Ideal) x0 j = softplus (-(x0 j)) := by
  simp only [val_main_v48_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, val_main_v47_apply,
    Ideal.addf_def, Ideal.subf_def, Ideal.maximumf_def, Ideal.hostUnary_exp_def, Ideal.hostUnary_log1p_def,
    Ideal.hostNegf_def, Ideal.hostAbsf_def, Ideal.negf_def, Ideal.ofBits_def, softplus]
  rfl

theorem v49_at (j : S8x256x8192.Idx) : val_main_v49 (F := Ideal) x0 j = softplus (x0 j) := by
  simp only [val_main_v49_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply,
    Ideal.addf_def, Ideal.subf_def, Ideal.maximumf_def, Ideal.hostUnary_exp_def, Ideal.hostUnary_log1p_def,
    Ideal.hostNegf_def, Ideal.hostAbsf_def, Ideal.negf_def, Ideal.ofBits_def, softplus]
  rfl

theorem v52_at (j : S8x256x8192.Idx) : val_main_v52 (F := Ideal) x5 j = w1 - tval (x5 j) := by
  simp only [val_main_v52_apply, val_main_v51_apply, val_main_cst_13_apply, Ideal.subf_def, Ideal.ofBits_def, v0_at]

theorem v70_at (j : S8x256x8192.Idx) : val_main_v70 (F := Ideal) x5 j = w1 - tval (x5 j) := by
  simp only [val_main_v70_apply, val_main_v69_apply, val_main_cst_19_apply, Ideal.subf_def, Ideal.ofBits_def, v0_at]

theorem v64_at (j : S8x256x8192.Idx) :
    val_main_v64 (F := Ideal) x0 j = Ideal.pow (w1 - psig (x0 j)) w2 * softplus (-(x0 j)) := by
  simp only [val_main_v64_apply, val_main_v63_apply, val_main_v61_apply, val_main_v60_apply, val_main_cst_16_apply,
    val_main_v62_apply, val_main_cst_17_apply, Ideal.mulf_def, Ideal.hostPowf_def, Ideal.subf_def, Ideal.ofBits_def,
    v26_at, v48_at]

theorem v67_at (j : S8x256x8192.Idx) :
    val_main_v67 (F := Ideal) x0 j = Ideal.pow (psig (x0 j)) w2 * softplus (x0 j) := by
  simp only [val_main_v67_apply, val_main_v66_apply, val_main_v65_apply, val_main_cst_18_apply,
    Ideal.mulf_def, Ideal.hostPowf_def, Ideal.ofBits_def, v26_at, v49_at]

/-! ## The seven sums over the mask positions -/

/-- Σ_k p(b,n,k) · t(b,m,k): the dice numerator's product. -/
def num (b : Fin 8) (n m : Fin 256) : EReal := ∑ k : Fin 8192, psig (x0 (ix3 b n k)) * tval (x5 (ix3 b m k))
/-- 0 + Σ_k p(b,n,k): the row sum of the sigmoid. -/
def psum (b : Fin 8) (n : Fin 256) : EReal := w0 + ∑ k : Fin 8192, psig (x0 (ix3 b n k))
/-- 0 + Σ_k t(b,m,k): the row sum of the targets. -/
def msum (b : Fin 8) (m : Fin 256) : EReal := w0 + ∑ k : Fin 8192, tval (x5 (ix3 b m k))
/-- Σ_k softplus(-x(b,n,k)) · t(b,m,k): the cross entropy against target 1. -/
def posT (b : Fin 8) (n m : Fin 256) : EReal := ∑ k : Fin 8192, softplus (-(x0 (ix3 b n k))) * tval (x5 (ix3 b m k))
/-- Σ_k softplus(x(b,n,k)) · (1 - t(b,m,k)): the cross entropy against target 0. -/
def negT (b : Fin 8) (n m : Fin 256) : EReal := ∑ k : Fin 8192, softplus (x0 (ix3 b n k)) * (w1 - tval (x5 (ix3 b m k)))
/-- Σ_k ((1 - p)^2 · softplus(-x))(b,n,k) · t(b,m,k): the focal term against target 1. -/
def fposT (b : Fin 8) (n m : Fin 256) : EReal :=
  ∑ k : Fin 8192, (Ideal.pow (w1 - psig (x0 (ix3 b n k))) w2 * softplus (-(x0 (ix3 b n k)))) * tval (x5 (ix3 b m k))
/-- Σ_k (p^2 · softplus(x))(b,n,k) · (1 - t(b,m,k)): the focal term against target 0. -/
def fnegT (b : Fin 8) (n m : Fin 256) : EReal :=
  ∑ k : Fin 8192, (Ideal.pow (psig (x0 (ix3 b n k))) w2 * softplus (x0 (ix3 b n k))) * (w1 - tval (x5 (ix3 b m k)))

/-! ## The five matrix products and the two row sums at an index -/

theorem v27_at (b : Fin 8) (n m : Fin 256) :
    val_main_v27 (F := Ideal) x0 x5 (ix3 b n m) = num x0 x5 b n m := by
  rw [val_main_v27_apply]
  refine Finset.sum_congr rfl fun k _ => ?_
  have el : lidx_main_v27 (ix3 b n m) k = ix3 b n k := funext fun a => Fin.ext (by match a with | ⟨0, _⟩ => rfl | ⟨1, _⟩ => rfl | ⟨2, _⟩ => rfl)
  have er : ridx_main_v27 (ix3 b n m) k = ix3 b m k := funext fun a => Fin.ext (by match a with | ⟨0, _⟩ => rfl | ⟨1, _⟩ => rfl | ⟨2, _⟩ => rfl)
  rw [el, er, v26_at, v0_at]

theorem v50_at (b : Fin 8) (n m : Fin 256) :
    val_main_v50 (F := Ideal) x0 x5 (ix3 b n m) = posT x0 x5 b n m := by
  rw [val_main_v50_apply]
  refine Finset.sum_congr rfl fun k _ => ?_
  have el : lidx_main_v50 (ix3 b n m) k = ix3 b n k := funext fun a => Fin.ext (by match a with | ⟨0, _⟩ => rfl | ⟨1, _⟩ => rfl | ⟨2, _⟩ => rfl)
  have er : ridx_main_v50 (ix3 b n m) k = ix3 b m k := funext fun a => Fin.ext (by match a with | ⟨0, _⟩ => rfl | ⟨1, _⟩ => rfl | ⟨2, _⟩ => rfl)
  rw [el, er, v48_at, v0_at]

theorem v53_at (b : Fin 8) (n m : Fin 256) :
    val_main_v53 (F := Ideal) x0 x5 (ix3 b n m) = negT x0 x5 b n m := by
  rw [val_main_v53_apply]
  refine Finset.sum_congr rfl fun k _ => ?_
  have el : lidx_main_v53 (ix3 b n m) k = ix3 b n k := funext fun a => Fin.ext (by match a with | ⟨0, _⟩ => rfl | ⟨1, _⟩ => rfl | ⟨2, _⟩ => rfl)
  have er : ridx_main_v53 (ix3 b n m) k = ix3 b m k := funext fun a => Fin.ext (by match a with | ⟨0, _⟩ => rfl | ⟨1, _⟩ => rfl | ⟨2, _⟩ => rfl)
  rw [el, er, v49_at, v52_at]

theorem v68_at (b : Fin 8) (n m : Fin 256) :
    val_main_v68 (F := Ideal) x0 x5 (ix3 b n m) = fposT x0 x5 b n m := by
  rw [val_main_v68_apply]
  refine Finset.sum_congr rfl fun k _ => ?_
  have el : lidx_main_v68 (ix3 b n m) k = ix3 b n k := funext fun a => Fin.ext (by match a with | ⟨0, _⟩ => rfl | ⟨1, _⟩ => rfl | ⟨2, _⟩ => rfl)
  have er : ridx_main_v68 (ix3 b n m) k = ix3 b m k := funext fun a => Fin.ext (by match a with | ⟨0, _⟩ => rfl | ⟨1, _⟩ => rfl | ⟨2, _⟩ => rfl)
  rw [el, er, v64_at, v0_at]

theorem v71_at (b : Fin 8) (n m : Fin 256) :
    val_main_v71 (F := Ideal) x0 x5 (ix3 b n m) = fnegT x0 x5 b n m := by
  rw [val_main_v71_apply]
  refine Finset.sum_congr rfl fun k _ => ?_
  have el : lidx_main_v71 (ix3 b n m) k = ix3 b n k := funext fun a => Fin.ext (by match a with | ⟨0, _⟩ => rfl | ⟨1, _⟩ => rfl | ⟨2, _⟩ => rfl)
  have er : ridx_main_v71 (ix3 b n m) k = ix3 b m k := funext fun a => Fin.ext (by match a with | ⟨0, _⟩ => rfl | ⟨1, _⟩ => rfl | ⟨2, _⟩ => rfl)
  rw [el, er, v67_at, v70_at]

theorem v34_at (b : Fin 8) (n m : Fin 256) : val_main_v34 (F := Ideal) x0 (ix3 b n m) = psum x0 b n := by
  rw [val_main_v34_apply, val_main_v31_apply, val_main_v30_apply, val_main_cst_7_apply, Ideal.ofBits_def]
  refine congrArg (_ + ·) (Finset.sum_congr rfl fun k _ => ?_)
  rw [v26_at]
  exact congrArg (fun j => psig (x0 j)) (funext fun a => Fin.ext (by match a with | ⟨0, _⟩ => rfl | ⟨1, _⟩ => rfl | ⟨2, _⟩ => rfl))

theorem v35_at (b : Fin 8) (n m : Fin 256) : val_main_v35 (F := Ideal) x5 (ix3 b n m) = msum x5 b m := by
  rw [val_main_v35_apply, val_main_v33_apply, val_main_v32_apply, val_main_cst_8_apply, Ideal.ofBits_def]
  refine congrArg (_ + ·) (Finset.sum_congr rfl fun k _ => ?_)
  rw [v0_at]
  exact congrArg (fun j => tval (x5 j)) (funext fun a => Fin.ext (by match a with | ⟨0, _⟩ => rfl | ⟨1, _⟩ => rfl | ⟨2, _⟩ => rfl))

/-! ## The first result at an index -/

/-- The first result at (b,n,m): where the column mask's bit at (b,0,m) is set, the weighted sum of the five costs —
    the class cost and the regression cost as the run's stages, the three mask costs in the seven sums —, elsewhere
    the NaN word. -/
theorem ref_apply (b : Fin 8) (n m : Fin 256) :
    val_main_v101 (F := Ideal) x0 x1 x2 x3 x4 x5 (ix3 b n m) =
      Scalar.select (val_main_v100 (F := Ideal) x4 (ix3 b (0 : Fin 1) m))
        ((((val_main_v20 (F := Ideal) x1 x4 (ix3 b n m)
              + w2 * (w1 - Ideal.div (w2 * num x0 x5 b n m + w1) ((psum x0 b n + msum x5 b m) + w1)))
            + w5 * Ideal.div (posT x0 x5 b n m + negT x0 x5 b n m) w8192)
          + w5 * Ideal.div (fposT x0 x5 b n m + fnegT x0 x5 b n m) w8192)
          + val_main_v92 (F := Ideal) x2 x3 x4 (ix3 b n m))
        wNaN := by
  have ec : idx_main_call3_v1 (ix3 b n m) = ix3 b (0 : Fin 1) m := funext fun a => Fin.ext (by match a with | ⟨0, _⟩ => rfl | ⟨1, _⟩ => rfl | ⟨2, _⟩ => rfl)
  simp only [val_main_v101_apply, val_main_call3_v1_apply, val_main_call3_v2_apply, val_main_call3_v0_apply,
    val_main_cst_25_apply, val_main_v93_apply, val_main_v77_apply, val_main_v76_apply, val_main_v75_apply,
    val_main_cst_21_apply, val_main_v74_apply, val_main_v73_apply, val_main_cst_20_apply, val_main_v72_apply,
    val_main_v59_apply, val_main_v58_apply, val_main_v57_apply, val_main_cst_15_apply, val_main_v56_apply,
    val_main_v55_apply, val_main_cst_14_apply, val_main_v54_apply, val_main_v46_apply, val_main_v45_apply,
    val_main_v44_apply, val_main_cst_12_apply, val_main_v43_apply, val_main_v42_apply, val_main_cst_11_apply,
    val_main_v41_apply, val_main_v40_apply, val_main_v39_apply, val_main_cst_10_apply, val_main_v38_apply,
    val_main_v37_apply, val_main_cst_9_apply, val_main_v36_apply, val_main_v29_apply, val_main_v28_apply,
    val_main_cst_6_apply, ec, v27_at, v50_at, v53_at, v68_at, v71_at, v34_at, v35_at,
    Ideal.addf_def, Ideal.subf_def, Ideal.mulf_def, Ideal.hostDivf_def, Ideal.ofBits_def]

/-! ## The run, with its results named by their stages; the frame -/

/-- Every weakly fair execution of the reference terminates with the first result at the stage `val_main_v101` and
    the second at the stage `val_main_v102` of the arguments' launch contents, the arguments unchanged. -/
theorem run_val (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101)
          = val_main_v101 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v102) = val_main_v102 (F := Ideal) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans (val_main_v101_eq m c), (h c).2.1.trans (val_main_v102_eq _), (h c).2.2⟩)
    (Cert.ReferenceIdeal.ValueP.run (F := Ideal) m ρ)

/-- The reference leaves its arguments unchanged. -/
theorem frame_ri : Cert.frame_ReferenceIdeal := fun m ρ _ =>
  (θ_run (defs (F := Ideal)) _ _).mono (fun _ h c => (h c).2.2) (Cert.ReferenceIdeal.ValueP.run (F := Ideal) m ρ)

end Cert.ReferenceIdeal.RefValue

end
-- ==== Proof.MaskBridge.lean ====
/-
  The kernel's cost block, rewritten in the reference's form.

  The kernel accumulates, over four tiles of 2048 columns, six sums of one prediction row n against one target
  row m and combines them as  2·dice + (L·2⁻¹³ + (5·Σ softplus + 5·Σ p²·softplus)·2⁻¹³),  where L sums
  (5·(0 - x) + 5·((1-p)²·(softplus x - x) - p²·softplus x))·t.  The reference sums over the 8192 columns at once
  and computes  2·dice + (5·(Σ softplus(-x)·t + Σ softplus(x)·(1-t))/8192 + 5·(Σ (1-p)²·softplus(-x)·t
  + Σ p²·softplus(x)·(1-t))/8192).  The dice terms are the same extended real once the tiled sums are re-indexed
  by the column 2048·i + k (no finiteness is needed: its denominator may vanish). The linear terms agree when
  every prediction of the row is a real number: then every summand is real, softplus(-x) = softplus(x) - x, and
  the identity is distributivity over ℝ.
-/
import proofs.«133761_j85890755985627_2_alg».proof.Proof.MaskValue
import proofs.«133761_j85890755985627_2_alg».proof.Proof.LibMaskAlgebra

noncomputable section

open scoped BigOperators

namespace Cert.MaskBridge

open Idealize.ShloMosaic Idealize.ShloMosaic.ValueIdx Cert.KernelIdeal Cert.KernelIdeal.MaskAcc
  Cert.KernelIdeal.MaskValue MaskAlgebra

local notation "w0" => Ideal.ofBits FTy.f32 0x00000000#32
local notation "w1" => Ideal.ofBits FTy.f32 0x3F800000#32
local notation "w2" => Ideal.ofBits FTy.f32 0x40000000#32
local notation "w5" => Ideal.ofBits FTy.f32 0x40A00000#32
local notation "w8192" => Ideal.ofBits FTy.f32 0x46000000#32

/-! ## The reference's scalar functions -/

/-- The sigmoid written 1 / (1 + e^{-x}). -/
def rsig (x : EReal) : EReal := Ideal.div w1 (w1 + Ideal.exp (-x))

/-- The softplus written with a guard: with d = y - 0, where d ≠ d it is y + 0, elsewhere
    max y 0 + log(1 + e^{-|d|}), |d| spelt max d (-d). Nothing differs from itself, so the guard never fires. -/
def rsoftplus (y : EReal) : EReal :=
  Scalar.select (Ideal.cmp .une (y - w0) (y - w0)) (y + w0)
    (max y w0 + Ideal.log1p (Ideal.exp (-(max (y - w0) (-(y - w0))))))

/-- The real sigmoid. -/
def σ (r : ℝ) : ℝ := (1 + Real.exp (-r))⁻¹

/-- The pattern of 1.0 denotes the one of the extended reals. -/
theorem w1_eq : w1 = (1 : EReal) := by rw [ofBits_one, EReal.coe_one]

/-- The reference's sigmoid is the logistic function, at every extended real. -/
theorem rsig_eq (x : EReal) : rsig x = sg x := by
  unfold rsig sg Ideal.logistic
  rw [w1_eq]

/-- The reference's softplus is the kernel's, at every extended real. -/
theorem rsoftplus_eq (y : EReal) : rsoftplus y = sp y := by
  have h : Ideal.cmp .une (y - w0) (y - w0) = 0#1 := by simp [Ideal.cmp]
  unfold rsoftplus sp
  rw [h, MaskAlgebra.ofBits_zero, zero_sub]
  rfl

/-- The logistic function of a real. -/
theorem sg_coe (r : ℝ) : sg (r : EReal) = ((σ r : ℝ) : EReal) := Ideal.logistic_coe r

/-- The kernel's softplus of a real. -/
theorem sp_coe (r : ℝ) : sp (r : EReal) = ((softplus r : ℝ) : EReal) := by
  unfold sp
  rw [sub_zero, zero_sub]
  exact softplus_coe r

/-- The softplus of the opposite of a real. -/
theorem sp_neg_coe (r : ℝ) : sp (-(r : EReal)) = ((softplus r - r : ℝ) : EReal) := by
  rw [← EReal.coe_neg, sp_coe]
  exact congrArg _ (softplus_neg r)

/-- The kernel's focal-negative term of a real. -/
theorem fn_coe (r : ℝ) : fn (r : EReal) = ((σ r * σ r * softplus r : ℝ) : EReal) := by
  unfold fn
  rw [sg_coe, sp_coe, ← EReal.coe_mul, ← EReal.coe_mul]

/-- The kernel's left factor of a real. -/
theorem lf_coe (r : ℝ) : lf (r : EReal)
    = ((5 * (0 - r) + 5 * ((1 - σ r) * (1 - σ r) * (softplus r - r) - σ r * σ r * softplus r) : ℝ) : EReal) := by
  unfold lf five one
  rw [fn_coe, sg_coe, sp_coe, ofBits_five, ofBits_one]
  simp only [← EReal.coe_zero, ← EReal.coe_sub, ← EReal.coe_mul, ← EReal.coe_add]

/-- An integer target is a real. -/
theorem tf_coe (b : BitVec 32) : tf b = (((b.toInt : ℝ) : ℝ) : EReal) := rfl

/-! ## Tiles and columns -/

/-- Column k of tile i is column 2048·i + k. -/
theorem col_lt (i : Fin 4) (k : Fin 2048) : 2048 * i.val + k.val < 8192 := by omega

/-- Column k of tile i, among the 8192 columns. -/
def col (i : Fin 4) (k : Fin 2048) : Fin 8192 := ⟨2048 * i.val + k.val, col_lt i k⟩

/-- A sum over the four tiles and the 2048 columns of each is the sum over the 8192 columns. -/
theorem sum_col {M : Type*} [AddCommMonoid M] (f : Fin 8192 → M) :
    ∑ i : Fin 4, ∑ k : Fin 2048, f (col i k) = ∑ c : Fin 8192, f c := by
  have h := sum_tiles 4 2048 (fun n => if h : n < 8192 then f ⟨n, h⟩ else 0)
  have hl : ∀ (i : Fin 4) (k : Fin 2048),
      (fun n => if h : n < 8192 then f ⟨n, h⟩ else 0) (2048 * i.val + k.val) = f (col i k) :=
    fun i k => dif_pos (col_lt i k)
  simp only [hl] at h
  rw [h]
  exact Finset.sum_congr rfl fun c _ => dif_pos c.isLt

/-! ## The six sums over the columns -/

section Sums

variable (X : Fin 4 → Vec Ideal S1x256x2048 .f32) (T : Fin 4 → Vec Ideal S1x256x2048 .i32) (n m : Fin 256)
  (xn : Fin 8192 → EReal) (tm : Fin 8192 → BitVec 32)

/-- The sigmoid–target sum over the columns. -/
theorem numS_col (hX : ∀ i k, X i (ix3 0 n k) = xn (col i k)) (hT : ∀ i k, T i (ix3 0 m k) = tm (col i k)) :
    numS X T n m = ∑ c, sg (xn c) * tf (tm c) := by
  unfold numS
  simp only [hX, hT]
  exact sum_col fun c => sg (xn c) * tf (tm c)

/-- The left-factor–target sum over the columns. -/
theorem lhsS_col (hX : ∀ i k, X i (ix3 0 n k) = xn (col i k)) (hT : ∀ i k, T i (ix3 0 m k) = tm (col i k)) :
    lhsS X T n m = ∑ c, lf (xn c) * tf (tm c) := by
  unfold lhsS
  simp only [hX, hT]
  exact sum_col fun c => lf (xn c) * tf (tm c)

/-- The sigmoid row sum over the columns. -/
theorem psS_col (hX : ∀ i k, X i (ix3 0 n k) = xn (col i k)) : psS X n = ∑ c, sg (xn c) := by
  unfold psS
  simp only [hX]
  exact sum_col fun c => sg (xn c)

/-- The target row sum over the columns. -/
theorem msS_col (hT : ∀ i k, T i (ix3 0 m k) = tm (col i k)) : msS T m = ∑ c, tf (tm c) := by
  unfold msS
  simp only [hT]
  exact sum_col fun c => tf (tm c)

/-- The softplus row sum over the columns. -/
theorem ngS_col (hX : ∀ i k, X i (ix3 0 n k) = xn (col i k)) : ngS X n = ∑ c, sp (xn c) := by
  unfold ngS
  simp only [hX]
  exact sum_col fun c => sp (xn c)

/-- The focal-negative row sum over the columns. -/
theorem fgS_col (hX : ∀ i k, X i (ix3 0 n k) = xn (col i k)) : fgS X n = ∑ c, fn (xn c) := by
  unfold fgS
  simp only [hX]
  exact sum_col fun c => fn (xn c)

/-- The dice term is the same extended real in the kernel's spelling and in the reference's, whatever the entries. -/
theorem dice_eq :
    two * (one - Ideal.div (two * (∑ c, sg (xn c) * tf (tm c)) + one) ((∑ c, sg (xn c) + ∑ c, tf (tm c)) + one))
      = w2 * (w1 - Ideal.div (w2 * (∑ c, rsig (xn c) * tf (tm c)) + w1)
          (((w0 + ∑ c, rsig (xn c)) + (w0 + ∑ c, tf (tm c))) + w1)) := by
  simp only [rsig_eq, MaskAlgebra.ofBits_zero, zero_add]
  rfl

/-- The linear term: on a real row, the kernel's folded sums are the reference's cross-entropy and focal terms. -/
theorem lin_eq (x : Fin 8192 → ℝ) :
    (∑ c, lf ((x c : ℝ) : EReal) * tf (tm c)) * cinv
        + ((five * ∑ c, sp ((x c : ℝ) : EReal) + five * ∑ c, fn ((x c : ℝ) : EReal)) * cinv)
      = w5 * Ideal.div ((∑ c, rsoftplus (-((x c : ℝ) : EReal)) * tf (tm c))
            + ∑ c, rsoftplus ((x c : ℝ) : EReal) * (w1 - tf (tm c))) w8192
        + w5 * Ideal.div ((∑ c, (Ideal.pow (w1 - rsig ((x c : ℝ) : EReal)) w2 * rsoftplus (-((x c : ℝ) : EReal))) * tf (tm c))
            + ∑ c, (Ideal.pow (rsig ((x c : ℝ) : EReal)) w2 * rsoftplus ((x c : ℝ) : EReal)) * (w1 - tf (tm c))) w8192 := by
  simp only [rsig_eq, rsoftplus_eq, lf_coe, sp_coe, sp_neg_coe, fn_coe, sg_coe, tf_coe, cinv, five,
    ofBits_inv_8192, ofBits_five, ofBits_one, ofBits_two, ofBits_8192, ← EReal.coe_sub, pow_two_coe,
    ← EReal.coe_mul, ← EReal.coe_add, coe_sum, div_coe_coe _ (by norm_num : (8192 : ℝ) ≠ 0)]
  exact congrArg _ (fold_real_mul Finset.univ x (fun c => σ (x c)) (fun c => softplus (x c))
    (fun c => ((tm c).toInt : ℝ)) 8192).symm

/-- The kernel's cost block at (0, n, m) in the reference's form: when the prediction row n of the four tiles is
    the row xn of 8192 columns (column 2048·i + k at tile i, position k), the target row m is tm, and every
    prediction of the row is a real number. -/
theorem out_acc4_ref (hX : ∀ i k, X i (ix3 0 n k) = xn (col i k)) (hT : ∀ i k, T i (ix3 0 m k) = tm (col i k))
    (hreal : ∀ c, IsReal (xn c)) :
    out (acc4 X T) (ix3 (0 : Fin 1) n m)
      = w2 * (w1 - Ideal.div (w2 * (∑ c, rsig (xn c) * tf (tm c)) + w1)
          (((w0 + ∑ c, rsig (xn c)) + (w0 + ∑ c, tf (tm c))) + w1))
        + (w5 * Ideal.div ((∑ c, rsoftplus (-(xn c)) * tf (tm c))
              + ∑ c, rsoftplus (xn c) * (w1 - tf (tm c))) w8192
          + w5 * Ideal.div ((∑ c, (Ideal.pow (w1 - rsig (xn c)) w2 * rsoftplus (-(xn c))) * tf (tm c))
              + ∑ c, (Ideal.pow (rsig (xn c)) w2 * rsoftplus (xn c)) * (w1 - tf (tm c))) w8192) := by
  choose x hx using hreal
  rw [out_acc4, numS_col X T n m xn tm hX hT, lhsS_col X T n m xn tm hX hT, psS_col X n xn hX,
    msS_col T m tm hT, ngS_col X n xn hX, fgS_col X n xn hX, dice_eq]
  simp only [hx]
  rw [lin_eq]

end Sums

end Cert.MaskBridge

end
-- ==== Proof.MaskJoin.lean ====
/-
  The kernel's cost block of a batch, computed from the four column tiles of the whole prediction and target
  arrays, in the reference's terms: the dice term over the reference's sigmoid–target sum and row sums, plus five
  times the cross-entropy mean plus five times the focal mean, each over the 8192 columns of the row. It holds when
  every prediction is a real number. Also the regrouping of a five-term sum that places the three mask costs
  between the class cost and the regression cost; addition of extended reals is associative, so nothing has to be
  finite.
-/
import proofs.«133761_j85890755985627_2_alg».proof.Proof.MaskBridge
import proofs.«133761_j85890755985627_2_alg».proof.Proof.MaskBlocks
import proofs.«133761_j85890755985627_2_alg».proof.Proof.RefValue

noncomputable section

open scoped BigOperators

namespace Cert.MaskJoin

open Idealize.ShloMosaic Idealize.ShloMosaic.ValueIdx Cert.KernelIdeal Cert.KernelIdeal.MaskAcc
  Cert.KernelIdeal.MaskValue Cert.KernelIdeal.MaskBlocks Cert.MaskBridge

local notation "w1" => Ideal.ofBits FTy.f32 0x3F800000#32
local notation "w2" => Ideal.ofBits FTy.f32 0x40000000#32
local notation "w5" => Ideal.ofBits FTy.f32 0x40A00000#32
local notation "w8192" => Ideal.ofBits FTy.f32 0x46000000#32

/-- The cost block of batch b at (0, n, m), from the four tiles of the whole arrays, in the reference's seven sums
    over the 8192 columns — when every prediction is a real number. -/
theorem out_tile_ref (P : Vec Ideal Cert.KernelIdeal.S8x256x8192 .f32) (Q : Vec Ideal Cert.KernelIdeal.S8x256x8192 .i32)
    (hP : ∀ j, ∃ r : ℝ, P j = (r : EReal)) (b : Fin 8) (n m : Fin 256) :
    out (acc4 (tile P b) (tile Q b)) (ix3 (0 : Fin 1) n m)
      = w2 * (w1 - Ideal.div (w2 * Cert.ReferenceIdeal.RefValue.num P Q b n m + w1)
          ((Cert.ReferenceIdeal.RefValue.psum P b n + Cert.ReferenceIdeal.RefValue.msum Q b m) + w1))
        + (w5 * Ideal.div (Cert.ReferenceIdeal.RefValue.posT P Q b n m
              + Cert.ReferenceIdeal.RefValue.negT P Q b n m) w8192
          + w5 * Ideal.div (Cert.ReferenceIdeal.RefValue.fposT P Q b n m
              + Cert.ReferenceIdeal.RefValue.fnegT P Q b n m) w8192) :=
  out_acc4_ref (tile P b) (tile Q b) n m (fun c => P (ix3 b n c)) (fun c => Q (ix3 b m c))
    (fun _ _ => rfl) (fun _ _ => rfl) (fun _ => hP _)

/-- Five extended reals added with the middle three grouped from the right are the five added from the left. -/
theorem regroup (CC D E Fo MAE : EReal) :
    ((CC + (D + (E + Fo))) + MAE) = ((((CC + D) + E) + Fo) + MAE) := by
  simp only [add_assoc]

end Cert.MaskJoin

end
-- ==== Proof.MaskFinite.lean ====
/-
  The precondition of the certificate says, of each of the four float arrays, that the absolute value of every
  entry is strictly below +∞. In the extended reals |x| = max x (-x) is +∞ at both infinities, so an entry whose
  absolute value is below +∞ is a real number. This module reads that off the printed predicate: the conjunction
  of four "all entries" reductions is split, each reduction gives the comparison at every index, and the
  comparison against +∞ excludes the two infinities.
-/
import proofs.«133761_j85890755985627_2_alg».proof.Defs
import proofs.«133761_j85890755985627_2_alg».proof.Proof.Gen.Pre_finite_inputs
import Idealize.ShloMosaic.Lib.ReduceAll
import Idealize.ShloMosaic.Lib.ValueIdx

noncomputable section

namespace Cert.MaskFinite

open Idealize.ShloMosaic Cert.Pre_finite_inputs Cert.Pre_finite_inputs.Gen

/-- The shape with no axes has exactly one index. -/
instance : Subsingleton S_.Idx := ⟨fun a b => funext fun d => d.elim0⟩

/-- The pattern of +∞ denotes the top of the extended reals. -/
theorem ofBits_inf : Ideal.ofBits .f32 0x7F800000#32 = (⊤ : EReal) := by
  simp [Ideal.ofBits, Ideal.ieee]

/-- An extended real whose absolute value max x (-x) is strictly below +∞ is a real number. -/
theorem real_of_abs_lt (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Under the precondition every entry of each of the four float arrays is a real number. -/
theorem args_real (a0 : FVec Ideal S8x256x8192 .f32) (a1 : FVec Ideal S8x256x25 .f32)
    (a2 : FVec Ideal S8x256x8 .f32) (a3 : FVec Ideal S8x256x8 .f32) (a4 : IVec S8x256 32)
    (a5 : IVec S8x256x8192 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

/-- Under the precondition every entry of the prediction array is a real number. -/
theorem arg0_real (a0 : FVec Ideal S8x256x8192 .f32) (a1 : FVec Ideal S8x256x25 .f32)
    (a2 : FVec Ideal S8x256x8 .f32) (a3 : FVec Ideal S8x256x8 .f32) (a4 : IVec S8x256 32)
    (a5 : IVec S8x256x8192 32)
    (h : Cert.Pre_finite_inputs.fn (F := Ideal) a0 a1 a2 a3 a4 a5 = fun _ => 1#1) :
    ∀ i, ∃ r : ℝ, a0 i = (r : EReal) :=
  (args_real a0 a1 a2 a3 a4 a5 h).1

end Cert.MaskFinite

end
-- ==== Proof.TailRef.lean ====
/-
  The host stages the kernel's program and the reference share. Twice the class cost, the box regression cost, the
  column mask and the column of object counts are computed by the same operations in the two programs; each is shown to
  be the same function of the argument arrays, by unfolding both to the operations.
-/
import proofs.«133761_j85890755985627_2_alg».proof.Proof.KITail
import proofs.«133761_j85890755985627_2_alg».proof.Proof.RefReadP

set_option maxRecDepth 16384

noncomputable section

namespace Cert.TailRef

open Idealize.ShloMosaic

variable {F : FTy → Type} [FloatOps F]

/-- Twice the class cost is the same stage in the two programs. -/
theorem cc2_eq (x1 : (⟨Cert.KernelIdeal.S8x256x25, .f32⟩ : BufTy).Contents (Elt F))
    (x4 : (⟨Cert.KernelIdeal.S8x256, .i32⟩ : BufTy).Contents (Elt F)) :
    Cert.KernelIdeal.Tail.cc2 (F := F) x1 x4 = Cert.ReferenceIdeal.ReadP.val_main_v20 (F := F) x1 x4 := rfl

/-- The box regression cost is the same stage in the two programs. -/
theorem mae1_eq (x2 x3 : (⟨Cert.KernelIdeal.S8x256x8, .f32⟩ : BufTy).Contents (Elt F))
    (x4 : (⟨Cert.KernelIdeal.S8x256, .i32⟩ : BufTy).Contents (Elt F)) :
    Cert.KernelIdeal.Tail.mae1 (F := F) x2 x3 x4 = Cert.ReferenceIdeal.ReadP.val_main_v92 (F := F) x2 x3 x4 := rfl

/-- The column mask is the same stage in the two programs. -/
theorem colok_eq (x4 : (⟨Cert.KernelIdeal.S8x256, .i32⟩ : BufTy).Contents (Elt F)) :
    Cert.KernelIdeal.Tail.colok (F := F) x4 = Cert.ReferenceIdeal.ReadP.val_main_v100 (F := F) x4 := rfl

/-- The column of object counts is the same stage in the two programs. -/
theorem len_eq (x4 : (⟨Cert.KernelIdeal.S8x256, .i32⟩ : BufTy).Contents (Elt F)) :
    Cert.KernelIdeal.Tail.len (F := F) x4 = Cert.ReferenceIdeal.ReadP.val_main_v102 (F := F) x4 := rfl

end Cert.TailRef

end
-- ==== Proof.MaskClaim.lean ====
/-
  The five conjuncts. Both kernel programs run to the end and leave their arguments unchanged (the hand frames);
  the idealization rewrote nothing; and at the ideal instance the kernel program and the reference, run from
  memories that agree on the arguments, end with equal results. The kernel program's first result is the host
  tail applied to the region's output array, which at (b, n, m) holds the cost computed from the sums over batch
  b's four column tiles; the reference's is the same select over the same class and regression costs with the
  dice, cross-entropy and focal costs as seven sums over the 8192 columns. With every prediction a real number
  (the precondition) the two mask costs agree entry by entry, and the five costs are added in another grouping
  only; the column mask, the class cost, the regression cost and the second result are the same host operations
  of the same arguments on both sides.
-/
import proofs.«133761_j85890755985627_2_alg».proof.Proof.KFrame
import proofs.«133761_j85890755985627_2_alg».proof.Proof.KIFinal
import proofs.«133761_j85890755985627_2_alg».proof.Proof.KITail
import proofs.«133761_j85890755985627_2_alg».proof.Proof.RefValue
import proofs.«133761_j85890755985627_2_alg».proof.Proof.MaskJoin
import proofs.«133761_j85890755985627_2_alg».proof.Proof.MaskFinite
import proofs.«133761_j85890755985627_2_alg».proof.Proof.TailRef

set_option maxRecDepth 16384

noncomputable section

namespace Cert.Proof.MaskClaims

open Idealize.ShloMosaic Idealize.ShloMosaic.TcCoe Idealize.SL.Sem Idealize.ShloMosaic.ValueIdx
open Cert.KernelIdeal.Tail (tailF len cc2 mae1 colok tailF_apply tail_v45 tail_v46)
open Cert.KernelIdeal.MaskAcc (out)
open Cert.KernelIdeal.MaskValue (acc4)
open Cert.KernelIdeal.MaskBlocks (tile)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefValue.frame_ri
theorem preserves : Cert.preserves_Kernel_KernelIdeal := trivial

section KernelRun
open Cert.KernelIdeal Cert.KernelIdeal.Gen

/-- The idealized kernel program's run with its two results named: the host tail of the arguments and of the
    region's output array, and the object counts; the arguments unchanged. -/
theorem run_ki (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = tailF (F := Ideal) (m ((c.tc : Thread nD τ).loc main_arg1)) (m ((c.tc : Thread nD τ).loc main_arg2))
          (m ((c.tc : Thread nD τ).loc main_arg3)) (m ((c.tc : Thread nD τ).loc main_arg4)) (Gout m c)
      ∧ r.2.mem ((c.tc : Thread nD τ).loc main_v46) = len (F := Ideal) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v45 (Pipeline.mem_restRefs_of main_v45 (by decide) (by decide))).trans
        ((tail_v45 m (dats m) c).trans (by rw [final2])),
      ((h c).2 main_v46 (Pipeline.mem_restRefs_of main_v46 (by decide) (by decide))).trans (tail_v46 m (dats m) c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c)))⟩)
    (run_main m ρ)

end KernelRun

/-- Entry by entry, the reference's first result is the kernel program's: the same select on the same mask bit,
    over the same five costs added in another grouping, the mask cost by the join of the two sides. -/
theorem first_result_eq
    (x0 : (⟨Cert.KernelIdeal.S8x256x8192, .f32⟩ : BufTy).Contents (Elt Ideal)) (x1 : (⟨Cert.KernelIdeal.S8x256x25, .f32⟩ : BufTy).Contents (Elt Ideal))
    (x2 x3 : (⟨Cert.KernelIdeal.S8x256x8, .f32⟩ : BufTy).Contents (Elt Ideal)) (x4 : (⟨Cert.KernelIdeal.S8x256, .i32⟩ : BufTy).Contents (Elt Ideal))
    (x5 : (⟨Cert.KernelIdeal.S8x256x8192, .i32⟩ : BufTy).Contents (Elt Ideal))
    (hP : ∀ j, ∃ r : ℝ, x0 j = (r : EReal)) :
    Cert.ReferenceIdeal.ReadP.val_main_v101 (F := Ideal) x0 x1 x2 x3 x4 x5
      = tailF (F := Ideal) x1 x2 x3 x4 (fun j => out (acc4 (tile x0 (j 0 : Fin 8)) (tile x5 (j 0 : Fin 8))) (ix3 (0 : Fin 1) (j 1 : Fin 256) (j 2 : Fin 256))) := by
  funext i
  obtain ⟨b, n, k, rfl⟩ : ∃ (b : Fin 8) (n k : Fin 256), i = ix3 b n k := ⟨i 0, i 1, i 2, eq_ix3 i⟩
  rw [Cert.ReferenceIdeal.RefValue.ref_apply, tailF_apply]
  show _ = Scalar.select _ ((cc2 (F := Ideal) x1 x4 (ix3 b n k) + out (acc4 (tile x0 b) (tile x5 b)) (ix3 (0 : Fin 1) n k)) + mae1 (F := Ideal) x2 x3 x4 (ix3 b n k)) _
  rw [Cert.MaskJoin.out_tile_ref x0 x5 hP b n k, Cert.TailRef.cc2_eq, Cert.TailRef.mae1_eq, Cert.TailRef.colok_eq, Cert.MaskJoin.regroup]

/-- At the ideal instance the kernel program and the reference, from memories agreeing on the arguments, end with
    equal results and unchanged arguments. -/
theorem algebraic : Cert.algebraic_KernelIdeal_ReferenceIdeal := by
  intro m ρ m' ρ' hpre hagree
  refine ⟨fun c => tailF (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.KernelIdeal.Gen.Gout m c),
    fun c => len (F := Ideal) (m ((c.tc : Thread Cert.KernelIdeal.nD Cert.KernelIdeal.τ).loc Cert.KernelIdeal.main_arg4)),
    run_ki m ρ, ?_⟩
  refine (θ_run (Cert.ReferenceIdeal.defs (F := Ideal)) _ _).mono (fun _ h c => ⟨?_, ?_, (h c).2.2⟩)
    (Cert.ReferenceIdeal.RefValue.run_val m' ρ')
  · rw [(h c).1, (hagree c).1, (hagree c).2.1, (hagree c).2.2.1, (hagree c).2.2.2.1, (hagree c).2.2.2.2.1, (hagree c).2.2.2.2.2]
    exact first_result_eq _ _ _ _ _ _
      (Cert.MaskFinite.arg0_real _ _ _ _ _ _ (hpre c))
  · rw [(h c).2.1, (hagree c).2.2.2.2.1]
    exact (Cert.TailRef.len_eq _).symm

end Cert.Proof.MaskClaims

end
-- ==== Proof.lean ====
/-
  The certificate's claim: the three frames, the (empty) idealization ledger and the equality of results at the
  ideal instance, assembled from the modules of this directory.
-/
import proofs.«133761_j85890755985627_2_alg».proof.Defs
import proofs.«133761_j85890755985627_2_alg».proof.Proof.Gen.Kernel
import proofs.«133761_j85890755985627_2_alg».proof.Proof.Gen.KernelIdeal
import proofs.«133761_j85890755985627_2_alg».proof.Proof.Gen.ReferenceIdeal
import proofs.«133761_j85890755985627_2_alg».proof.Proof.Gen.Pre_finite_inputs
import proofs.«133761_j85890755985627_2_alg».proof.Proof.MaskClaim

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.MaskClaims.frame_k, Cert.Proof.MaskClaims.frame_ki, Cert.Proof.MaskClaims.frame_ri,
  Cert.Proof.MaskClaims.preserves, Cert.Proof.MaskClaims.algebraic⟩

end Cert.Proof

end
